-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v170)) (v1 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_v176) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v225) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S4x96x70 : Shape := ⟨3, ![4, 96, 70]⟩
abbrev S70 : Shape := ⟨1, ![70]⟩
abbrev S4x70x43 : Shape := ⟨3, ![4, 70, 43]⟩
abbrev S43 : Shape := ⟨1, ![43]⟩
abbrev S43x16 : Shape := ⟨2, ![43, 16]⟩
abbrev S16 : Shape := ⟨1, ![16]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S4x96x70 : S_.BroadcastsInDim S4x96x70 (![] : Fin 0 → Fin S4x96x70.rank)
  reducesTo_S4x96x70_S_d0_1_2 : S4x96x70.ReducesTo [0, 1, 2] S_
  bcast_S_S70 : S_.BroadcastsInDim S70 (![] : Fin 0 → Fin S70.rank)
  reducesTo_S70_S_d0 : S70.ReducesTo [0] S_
  bcast_S_S4x70x43 : S_.BroadcastsInDim S4x70x43 (![] : Fin 0 → Fin S4x70x43.rank)
  reducesTo_S4x70x43_S_d0_1_2 : S4x70x43.ReducesTo [0, 1, 2] S_
  bcast_S_S43 : S_.BroadcastsInDim S43 (![] : Fin 0 → Fin S43.rank)
  reducesTo_S43_S_d0 : S43.ReducesTo [0] S_
  bcast_S_S43x16 : S_.BroadcastsInDim S43x16 (![] : Fin 0 → Fin S43x16.rank)
  reducesTo_S43x16_S_d0_1 : S43x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S43x16 .f32) (main_arg9 : FVec F S16 .f32) (main_v33 : IVec S_ 1) : IVec S_ 1 :=
  let main_v34 : FVec F S43x16 .f32 := Host.absf main_arg8
  let main_cst_12 : FVec F S_ .f32 := constant S_ .f32 0x7F800000#32
  let main_v35 : FVec F S43x16 .f32 := broadcastInDim S43x16 ![] bcast_S_S43x16 main_cst_12
  let main_v36 : IVec S43x16 1 := cmpf .olt main_v34 main_v35
  let main_c_13 : IVec S_ 1 := constantI S_ 1 1#1
  let main_v37 : IVec S_ 1 := (fun x v => Host.reduce IntOp.andi x v reducesTo_S43x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S43 .f32) (main_arg6 : FVec F S43x16 .f32) (main_arg7 : FVec F S16 .f32) (main_arg8 : FVec F S43x16 .f32) (main_arg9 : FVec F S16 .f32) (main_v13 : IVec S_ 1) (main_v16 : IVec S4x70x43 1) : IVec S_ 1 :=
  let main_c_5 : IVec S_ 1 := constantI S_ 1 1#1
  let main_v17 : IVec S_ 1 := (fun x v => Host.reduce IntOp.andi x v reducesTo_S4x70x43_S_d0_1_2 h_S_) main_v16 main_c_5
  let main_v18 : IVec S_ 1 := andi main_v13 main_v17
  let main_v19 : FVec F S43 .f32 := Host.absf main_arg5
  let main_cst_6 : FVec F S_ .f32 := constant S_ .f32 0x7F800000#32
  let main_v20 : FVec F S43 .f32 := broadcastInDim S43 ![] bcast_S_S43 main_cst_6
  let main_v21 : IVec S43 1 := cmpf .olt main_v19 main_v20
  let main_c_7 : IVec S_ 1 := constantI S_ 1 1#1
  let main_v22 : IVec S_ 1 := (fun x v => Host.reduce IntOp.andi x v reducesTo_S43_S_d0 h_S_) main_v21 main_c_7
  let main_v23 : IVec S_ 1 := andi main_v18 main_v22
  let main_v24 : FVec F S43x16 .f32 := Host.absf main_arg6
  let main_cst_8 : FVec F S_ .f32 := constant S_ .f32 0x7F800000#32
  let main_v25 : FVec F S43x16 .f32 := broadcastInDim S43x16 ![] bcast_S_S43x16 main_cst_8
  let main_v26 : IVec S43x16 1 := cmpf .olt main_v24 main_v25
  let main_c_9 : IVec S_ 1 := constantI S_ 1 1#1
  let main_v27 : IVec S_ 1 := (fun x v => Host.reduce IntOp.andi x v reducesTo_S43x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S50000x96 .f32) (main_arg1 : IVec S2x800000 32) (main_arg2 : FVec F S4x96x70 .f32) (main_arg3 : FVec F S70 .f32) (main_arg4 : FVec F S4x70x43 .f32) (main_arg5 : FVec F S43 .f32) (main_arg6 : FVec F S43x16 .f32) (main_arg7 : FVec F S16 .f32) (main_arg8 : FVec F S43x16 .f32) (main_arg9 : FVec F S16 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S4x96x70 .f32 := Host.absf main_arg2
  let main_cst_0 : FVec F S_ .f32 := constant S_ .f32 0x7F800000#32
  let main_v5 : FVec F S4x96x70 .f32 := broadcastInDim S4x96x70 ![] bcast_S_S4x96x70 main_cst_0
  let main_v6 : IVec S4x96x70 1 := cmpf .olt main_v4 main_v5
  let main_c_1 : IVec S_ 1 := constantI S_ 1 1#1
  let main_v7 : IVec S_ 1 := (fun x v => Host.reduce IntOp.andi x v reducesTo_S4x96x70_S_d0_1_2 h_S_) main_v6 main_c_1
  let main_v8 : IVec S_ 1 := andi main_v3 main_v7
  let main_v9 : FVec F S70 .f32 := Host.absf main_arg3
  let main_cst_2 : FVec F S_ .f32 := constant S_ .f32 0x7F800000#32
  let main_v10 : FVec F S70 .f32 := broadcastInDim S70 ![] bcast_S_S70 main_cst_2
  let main_v11 : IVec S70 1 := cmpf .olt main_v9 main_v10
  let main_c_3 : IVec S_ 1 := constantI S_ 1 1#1
  let main_v12 : IVec S_ 1 := (fun x v => Host.reduce IntOp.andi x v reducesTo_S70_S_d0 h_S_) main_v11 main_c_3
  let main_v13 : IVec S_ 1 := andi main_v8 main_v12
  let main_v14 : FVec F S4x70x43 .f32 := Host.absf main_arg4
  let main_cst_4 : FVec F S_ .f32 := constant S_ .f32 0x7F800000#32
  let main_v15 : FVec F S4x70x43 .f32 := broadcastInDim S4x70x43 ![] bcast_S_S4x70x43 main_cst_4
  let main_v16 : IVec S4x70x43 1 := cmpf .olt main_v14 main_v15
  fn_part1 (F := F) main_arg5 main_arg6 main_arg7 main_arg8 main_arg9 main_v13 main_v16
-- ==== Kernel.lean ====
abbrev S50000x96 : Shape := ⟨2, ![50000, 96]⟩
abbrev S2x800000 : Shape := ⟨2, ![2, 800000]⟩
abbrev S4x96x70 : Shape := ⟨3, ![4, 96, 70]⟩
abbrev S70 : Shape := ⟨1, ![70]⟩
abbrev S4x70x43 : Shape := ⟨3, ![4, 70, 43]⟩
abbrev S43 : Shape := ⟨1, ![43]⟩
abbrev S43x16 : Shape := ⟨2, ![43, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S1x70 : Shape := ⟨2, ![1, 70]⟩
abbrev S50000x70 : Shape := ⟨2, ![50000, 70]⟩
abbrev S5000x96 : Shape := ⟨2, ![5000, 96]⟩
abbrev S5000x70 : Shape := ⟨2, ![5000, 70]⟩
abbrev S1x96x70 : Shape := ⟨3, ![1, 96, 70]⟩
abbrev S96x70 : Shape := ⟨2, ![96, 70]⟩
abbrev S800000x70 : Shape := ⟨2, ![800000, 70]⟩
abbrev S1x43 : Shape := ⟨2, ![1, 43]⟩
abbrev S50000x43 : Shape := ⟨2, ![50000, 43]⟩
abbrev S5000x43 : Shape := ⟨2, ![5000, 43]⟩
abbrev S1x70x43 : Shape := ⟨3, ![1, 70, 43]⟩
abbrev S70x43 : Shape := ⟨2, ![70, 43]⟩
abbrev S43x32 : Shape := ⟨2, ![43, 32]⟩
abbrev S50000x32 : Shape := ⟨2, ![50000, 32]⟩
abbrev S5000x32 : Shape := ⟨2, ![5000, 32]⟩
abbrev S800000x32 : Shape := ⟨2, ![800000, 32]⟩
abbrev S50000x1 : Shape := ⟨2, ![50000, 1]⟩
abbrev S50000x16 : Shape := ⟨2, ![50000, 16]⟩
abbrev S1x16 : Shape := ⟨2, ![1, 16]⟩

abbrev nBuf : Space → Nat
  | .hbm => 224
  | .vmem => 29
  | .smem => 0
  | _ => 0

abbrev hbmTy0_0 (i : Nat) : BufTy := match i % 128 with
  | 0 => ⟨S50000x96, .f32⟩
  | 1 => ⟨S2x800000, .i32⟩
  | 2 => ⟨S4x96x70, .f32⟩
  | 3 => ⟨S70, .f32⟩
  | 4 => ⟨S4x70x43, .f32⟩
  | 5 => ⟨S43, .f32⟩
  | 6 => ⟨S43x16, .f32⟩
  | 7 => ⟨S16, .f32⟩
  | 8 => ⟨S43x16, .f32⟩
  | 9 => ⟨S16, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S800000x1, .f32⟩
  | 51 => ⟨S50000x96, .bf16⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x96, .bf16⟩
  | 61 => ⟨S800000x96, .f32⟩
  | 62 => ⟨S800000x96, .f32⟩
  | 63 => ⟨S800000x96, .f32⟩
  | 64 => ⟨S_, .f32⟩
  | 65 => ⟨S50000x96, .f32⟩
  | 66 => ⟨S800000x1, .i32⟩
  | 67 => ⟨S50000x96, .f32⟩
  | 68 => ⟨S50000x96, .bf16⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x96, .bf16⟩
  | 78 => ⟨S800000x96, .f32⟩
  | 79 => ⟨S800000x96, .f32⟩
  | 80 => ⟨S800000x96, .f32⟩
  | 81 => ⟨S_, .f32⟩
  | 82 => ⟨S50000x96, .f32⟩
  | 83 => ⟨S800000x1, .i32⟩
  | 84 => ⟨S50000x96, .f32⟩
  | 85 => ⟨S50000x96, .bf16⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x96, .bf16⟩
  | 95 => ⟨S800000x96, .f32⟩
  | 96 => ⟨S800000x96, .f32⟩
  | 97 => ⟨S800000x96, .f32⟩
  | 98 => ⟨S_, .f32⟩
  | 99 => ⟨S50000x96, .f32⟩
  | 100 => ⟨S800000x1, .i32⟩
  | 101 => ⟨S50000x96, .f32⟩
  | 102 => ⟨S50000x96, .bf16⟩
  | 103 => ⟨S4x96x70, .bf16⟩
  | 104 => ⟨S1x70, .f32⟩
  | 105 => ⟨S50000x70, .f32⟩
  | 106 => ⟨S50000x70, .bf16⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x70, .bf16⟩
  | 116 => ⟨S800000x70, .f32⟩
  | 117 => ⟨S800000x70, .f32⟩
  | 118 => ⟨S800000x70, .f32⟩
  | 119 => ⟨S_, .f32⟩
  | 120 => ⟨S50000x70, .f32⟩
  | 121 => ⟨S800000x1, .i32⟩
  | 122 => ⟨S50000x70, .f32⟩
  | 123 => ⟨S50000x70, .bf16⟩
  | 124 => ⟨S_, .i32⟩
  | 125 => ⟨S800000, .i32⟩
  | 126 => ⟨S800000, .i1⟩
  | 127 => ⟨S_, .i32⟩
  | _ => ⟨S50000x96, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x70, .bf16⟩
  | 5 => ⟨S800000x70, .f32⟩
  | 6 => ⟨S800000x70, .f32⟩
  | 7 => ⟨S800000x70, .f32⟩
  | 8 => ⟨S_, .f32⟩
  | 9 => ⟨S50000x70, .f32⟩
  | 10 => ⟨S800000x1, .i32⟩
  | 11 => ⟨S50000x70, .f32⟩
  | 12 => ⟨S50000x70, .bf16⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x70, .bf16⟩
  | 22 => ⟨S800000x70, .f32⟩
  | 23 => ⟨S800000x70, .f32⟩
  | 24 => ⟨S800000x70, .f32⟩
  | 25 => ⟨S_, .f32⟩
  | 26 => ⟨S50000x70, .f32⟩
  | 27 => ⟨S800000x1, .i32⟩
  | 28 => ⟨S50000x70, .f32⟩
  | 29 => ⟨S50000x70, .bf16⟩
  | 30 => ⟨S4x70x43, .bf16⟩
  | 31 => ⟨S1x43, .f32⟩
  | 32 => ⟨S50000x43, .f32⟩
  | 33 => ⟨S_, .f32⟩
  | 34 => ⟨S50000, .f32⟩
  | 35 => ⟨S50000, .f32⟩
  | 36 => ⟨S50000, .f32⟩
  | 37 => ⟨S43x32, .f32⟩
  | 38 => ⟨S43x32, .bf16⟩
  | 39 => ⟨S50000x43, .bf16⟩
  | 40 => ⟨S50000x32, .f32⟩
  | 41 => ⟨S50000x32, .bf16⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x32, .bf16⟩
  | 71 => ⟨S800000x32, .f32⟩
  | 72 => ⟨S800000x32, .f32⟩
  | 73 => ⟨S800000x32, .f32⟩
  | 74 => ⟨S_, .f32⟩
  | 75 => ⟨S50000x32, .f32⟩
  | 76 => ⟨S800000x1, .i32⟩
  | 77 => ⟨S50000x32, .f32⟩
  | 78 => ⟨S50000, .f32⟩
  | 79 => ⟨S50000x1, .f32⟩
  | 80 => ⟨S50000x16, .f32⟩
  | 81 => ⟨S50000x16, .f32⟩
  | 82 => ⟨S50000x16, .f32⟩
  | 83 => ⟨S50000x16, .f32⟩
  | 84 => ⟨S50000x16, .f32⟩
  | 85 => ⟨S50000x16, .f32⟩
  | 86 => ⟨S50000x16, .f32⟩
  | 87 => ⟨S1x16, .f32⟩
  | 88 => ⟨S50000x16, .f32⟩
  | 89 => ⟨S50000x16, .f32⟩
  | 90 => ⟨S50000x16, .f32⟩
  | 91 => ⟨S50000x16, .f32⟩
  | 92 => ⟨S50000x16, .f32⟩
  | 93 => ⟨S1x16, .f32⟩
  | 94 => ⟨S50000x16, .f32⟩
  | 95 => ⟨S50000x16, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .bf16⟩
  | .local _ .vmem, ⟨1, _⟩ => ⟨S5000x96, .bf16⟩
  | .local _ .vmem, ⟨2, _⟩ => ⟨S5000x96, .bf16⟩
  | .local _ .vmem, ⟨3, _⟩ => ⟨S5000x96, .bf16⟩
  | .local _ .vmem, ⟨4, _⟩ => ⟨S5000x96, .bf16⟩
  | .local _ .vmem, ⟨5, _⟩ => ⟨S5000x96, .bf16⟩
  | .local _ .vmem, ⟨6, _⟩ => ⟨S5000x96, .bf16⟩
  | .local _ .vmem, ⟨7, _⟩ => ⟨S5000x96, .bf16⟩
  | .local _ .vmem, ⟨8, _⟩ => ⟨S4x96x70, .bf16⟩
  | .local _ .vmem, ⟨9, _⟩ => ⟨S1x70, .f32⟩
  | .local _ .vmem, ⟨10, _⟩ => ⟨S5000x70, .f32⟩
  | .local _ .vmem, ⟨11, _⟩ => ⟨S5000x70, .f32⟩
  | .local _ .vmem, ⟨12, _⟩ => ⟨S5000x70, .bf16⟩
  | .local _ .vmem, ⟨13, _⟩ => ⟨S5000x70, .bf16⟩
  | .local _ .vmem, ⟨14, _⟩ => ⟨S5000x70, .bf16⟩
  | .local _ .vmem, ⟨15, _⟩ => ⟨S5000x70, .bf16⟩
  | .local _ .vmem, ⟨16, _⟩ => ⟨S5000x70, .bf16⟩
  | .local _ .vmem, ⟨17, _⟩ => ⟨S5000x70, .bf16⟩
  | .local _ .vmem, ⟨18, _⟩ => ⟨S5000x70, .bf16⟩
  | .local _ .vmem, ⟨19, _⟩ => ⟨S5000x70, .bf16⟩
  | .local _ .vmem, ⟨20, _⟩ => ⟨S4x70x43, .bf16⟩
  | .local _ .vmem, ⟨21, _⟩ => ⟨S1x43, .f32⟩
  | .local _ .vmem, ⟨22, _⟩ => ⟨S5000x43, .f32⟩
  | .local _ .vmem, ⟨23, _⟩ => ⟨S5000x43, .f32⟩
  | .local _ .vmem, ⟨24, _⟩ => ⟨S5000x43, .bf16⟩
  | .local _ .vmem, ⟨25, _⟩ => ⟨S5000x43, .bf16⟩
  | .local _ .vmem, ⟨26, _⟩ => ⟨S43x32, .bf16⟩
  | .local _ .vmem, ⟨27, _⟩ => ⟨S5000x32, .f32⟩
  | .local _ .vmem, ⟨28, _⟩ => ⟨S5000x32, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_19 : Ref sig .tc := ⟨.hbm, 124, rfl⟩
abbrev main_v91 : Ref sig .tc := ⟨.hbm, 125, rfl⟩
abbrev main_v92 : Ref sig .tc := ⟨.hbm, 126, rfl⟩
abbrev main_c_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_c_22 : Ref sig .tc := ⟨.hbm, 141, rfl⟩
abbrev main_v105 : Ref sig .tc := ⟨.hbm, 142, rfl⟩
abbrev main_v106 : Ref sig .tc := ⟨.hbm, 143, rfl⟩
abbrev main_c_23 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_24 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_26 : Ref sig .tc := ⟨.hbm, 170, rfl⟩
abbrev main_v130 : Ref sig .tc := ⟨.hbm, 171, rfl⟩
abbrev main_v131 : Ref sig .tc := ⟨.hbm, 172, rfl⟩
abbrev main_c_27 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_c_28 : Ref sig .tc := ⟨.hbm, 179, rfl⟩
abbrev main_v137 : Ref sig .tc := ⟨.hbm, 180, rfl⟩
abbrev main_v138 : Ref sig .tc := ⟨.hbm, 181, rfl⟩
abbrev main_c_29 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_c_30 : Ref sig .tc := ⟨.hbm, 190, rfl⟩
abbrev main_v146 : Ref sig .tc := ⟨.hbm, 191, rfl⟩
abbrev main_v147 : Ref sig .tc := ⟨.hbm, 192, rfl⟩
abbrev main_c_31 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_32 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x96x70 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x70 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x70 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x70 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x70 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x70 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x70 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x70x43 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x43 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x43 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x43 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S43x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S70_S1x70 : S70.ShapeCasts S1x70
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S4x96x70_S1x96x70_0_0_0 : ∀ a, (![0, 0, 0] : Fin 3 → Nat) a + S1x96x70.size a ≤ S4x96x70.size a
  h_S1x96x70 : 0 < S1x96x70.numel
  shapeCasts_S1x96x70_S96x70 : S1x96x70.ShapeCasts S96x70
  inb_S4x96x70_S1x96x70_1_0_0 : ∀ a, (![1, 0, 0] : Fin 3 → Nat) a + S1x96x70.size a ≤ S4x96x70.size a
  inb_S4x96x70_S1x96x70_2_0_0 : ∀ a, (![2, 0, 0] : Fin 3 → Nat) a + S1x96x70.size a ≤ S4x96x70.size a
  inb_S4x96x70_S1x96x70_3_0_0 : ∀ a, (![3, 0, 0] : Fin 3 → Nat) a + S1x96x70.size a ≤ S4x96x70.size a
  inb_S1x70_S1x70_0_0 : ∀ a, (![0, 0] : Fin 2 → Nat) a + S1x70.size a ≤ S1x70.size a
  h_S1x70 : 0 < S1x70.numel
  shapeCasts_S1x70_S70 : S1x70.ShapeCasts S70
  broadcasts_S1x70_S5000x70 : S1x70.Broadcasts S5000x70
  inb_S5000x70_S5000x70_0_0 : ∀ a, (![0, 0] : Fin 2 → Nat) a + S5000x70.size a ≤ S5000x70.size a
  h_S5000x70 : 0 < S5000x70.numel
  bcast_S800000x1_S800000x70_0_1 : S800000x1.BroadcastsInDim S800000x70 (![0, 1] : Fin 2 → Fin S800000x70.rank)
  bcast_S_S50000x70 : S_.BroadcastsInDim S50000x70 (![] : Fin 0 → Fin S50000x70.rank)
  shapeCasts_S43_S1x43 : S43.ShapeCasts S1x43
  shapeCasts_S5000x70_S5000x70 : S5000x70.ShapeCasts S5000x70
  inb_S4x70x43_S1x70x43_0_0_0 : ∀ a, (![0, 0, 0] : Fin 3 → Nat) a + S1x70x43.size a ≤ S4x70x43.size a
  h_S1x70x43 : 0 < S1x70x43.numel
  shapeCasts_S1x70x43_S70x43 : S1x70x43.ShapeCasts S70x43
  inb_S4x70x43_S1x70x43_1_0_0 : ∀ a, (![1, 0, 0] : Fin 3 → Nat) a + S1x70x43.size a ≤ S4x70x43.size a
  inb_S4x70x43_S1x70x43_2_0_0 : ∀ a, (![2, 0, 0] : Fin 3 → Nat) a + S1x70x43.size a ≤ S4x70x43.size a
  inb_S4x70x43_S1x70x43_3_0_0 : ∀ a, (![3, 0, 0] : Fin 3 → Nat) a + S1x70x43.size a ≤ S4x70x43.size a
  inb_S1x43_S1x43_0_0 : ∀ a, (![0, 0] : Fin 2 → Nat) a + S1x43.size a ≤ S1x43.size a
  h_S1x43 : 0 < S1x43.numel
  shapeCasts_S1x43_S43 : S1x43.ShapeCasts S43
  broadcasts_S1x43_S5000x43 : S1x43.Broadcasts S5000x43
  inb_S5000x43_S5000x43_0_0 : ∀ a, (![0, 0] : Fin 2 → Nat) a + S5000x43.size a ≤ S5000x43.size a
  h_S5000x43 : 0 < S5000x43.numel
  concatenates_S43x16_S43x16_S43x32_d1 : Shape.Concatenates [S43x16, S43x16] S43x32 1
  shapeCasts_S5000x43_S5000x43 : S5000x43.ShapeCasts S5000x43
  inb_S43x32_S43x32_0_0 : ∀ a, (![0, 0] : Fin 2 → Nat) a + S43x32.size a ≤ S43x32.size a
  h_S43x32 : 0 < S43x32.numel
  shapeCasts_S43x32_S43x32 : S43x32.ShapeCasts S43x32
  inb_S5000x32_S5000x32_0_0 : ∀ a, (![0, 0] : Fin 2 → Nat) a + S5000x32.size a ≤ S5000x32.size a
  h_S5000x32 : 0 < S5000x32.numel
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000_S50000x1_0 : S50000.BroadcastsInDim S50000x1 (![0] : Fin 1 → Fin S50000x1.rank)
  slices_S50000x32_S50000x16_0_0 : S50000x32.Slices ![0, 0] S50000x16
  slices_S50000x32_S50000x16_0_16 : S50000x32.Slices ![0, 16] S50000x16
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x70_S5000x70_1_0_0_1_n_n_wf : DotDims.WF S5000x96 S96x70 S5000x70 [1] [0] [0] [1] [] []
  gather_S50000x70_S800000x1_S800000x70_1_0_n_n_0_1_170_wf : GatherDims.WF S50000x70 S800000x1 S800000x70 [1] [0] [] [0] [] 1 ![1, 70]
  scatter_S50000x70_S800000x1_S800000x70_1_0_0_1_wf : ScatterDims.WF S50000x70 S800000x1 S800000x70 [1] [0] [0] 1
  dot_S5000x70_S70x43_S5000x43_1_0_0_1_n_n_wf : DotDims.WF S5000x70 S70x43 S5000x43 [1] [0] [0] [1] [] []
  dot_S5000x43_S43x32_S5000x32_1_0_0_1_n_n_wf : DotDims.WF S5000x43 S43x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .bf16 = 32 ∨ (Rect.block (s := S50000x96) S5000x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .bf16 = 32 ∨ (Rect.block (s := S50000x96) S5000x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .bf16 = 32 ∨ (Rect.block (s := S50000x96) S5000x96.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .bf16 = 32 ∨ (Rect.block (s := S50000x96) S5000x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x96x70.size a ≤ S4x96x70.size a
  hwx0_4 : ∀ i : grid0.Coords, EltTy.bits .bf16 = 32 ∨ (Rect.block (s := S4x96x70) S4x96x70.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x70.size a ≤ S1x70.size a
  hwx0_5 : ∀ i : grid0.Coords, EltTy.bits .f32 = 32 ∨ (Rect.block (s := S1x70) S1x70.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x70.size a ≤ S50000x70.size a
  hwx0_6 : ∀ i : grid0.Coords, EltTy.bits .f32 = 32 ∨ (Rect.block (s := S50000x70) S5000x70.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x70.size a ≤ S50000x70.size a
  hwx1_0 : ∀ i : grid1.Coords, EltTy.bits .bf16 = 32 ∨ (Rect.block (s := S50000x70) S5000x70.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x70.size a ≤ S50000x70.size a
  hwx1_1 : ∀ i : grid1.Coords, EltTy.bits .bf16 = 32 ∨ (Rect.block (s := S50000x70) S5000x70.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x70.size a ≤ S50000x70.size a
  hwx1_2 : ∀ i : grid1.Coords, EltTy.bits .bf16 = 32 ∨ (Rect.block (s := S50000x70) S5000x70.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x70.size a ≤ S50000x70.size a
  hwx1_3 : ∀ i : grid1.Coords, EltTy.bits .bf16 = 32 ∨ (Rect.block (s := S50000x70) S5000x70.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x70x43.size a ≤ S4x70x43.size a
  hwx1_4 : ∀ i : grid1.Coords, EltTy.bits .bf16 = 32 ∨ (Rect.block (s := S4x70x43) S4x70x43.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x43.size a ≤ S1x43.size a
  hwx1_5 : ∀ i : grid1.Coords, EltTy.bits .f32 = 32 ∨ (Rect.block (s := S1x43) S1x43.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x43.size a ≤ S50000x43.size a
  hwx1_6 : ∀ i : grid1.Coords, EltTy.bits .f32 = 32 ∨ (Rect.block (s := S50000x43) S5000x43.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x43.size a ≤ S50000x43.size a
  hwx2_0 : ∀ i : grid2.Coords, EltTy.bits .bf16 = 32 ∨ (Rect.block (s := S50000x43) S5000x43.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S43x32.size a ≤ S43x32.size a
  hwx2_1 : ∀ i : grid2.Coords, EltTy.bits .bf16 = 32 ∨ (Rect.block (s := S43x32) S43x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x70_S5000x70_1_0_0_1_n_n : DotDims S5000x96 S96x70 S5000x70 where
  lhsContracting := [1]
  rhsContracting := [0]
  lhsNonContracting := [0]
  rhsNonContracting := [1]
  lhsBatch := []
  rhsBatch := []
  wf := dot_S5000x96_S96x70_S5000x70_1_0_0_1_n_n_wf
def gather_S50000x70_S800000x1_S800000x70_1_0_n_n_0_1_170 : GatherDims S50000x70 S800000x1 S800000x70 where
  offsetDims := [1]
  collapsedSliceDims := [0]
  operandBatchingDims := []
  startIndicesBatchingDims := []
  startIndexMap := [0]
  indexVectorDim := 1
  sliceSizes := ![1, 70]
  wf := gather_S50000x70_S800000x1_S800000x70_1_0_n_n_0_1_170_wf
def scatter_S50000x70_S800000x1_S800000x70_1_0_0_1 : ScatterDims S50000x70 S800000x1 S800000x70 where
  updateWindowDims := [1]
  insertedWindowDims := [0]
  scatterDimsToOperandDims := [0]
  indexVectorDim := 1
  wf := scatter_S50000x70_S800000x1_S800000x70_1_0_0_1_wf
def dot_S5000x70_S70x43_S5000x43_1_0_0_1_n_n : DotDims S5000x70 S70x43 S5000x43 where
  lhsContracting := [1]
  rhsContracting := [0]
  lhsNonContracting := [0]
  rhsNonContracting := [1]
  lhsBatch := []
  rhsBatch := []
  wf := dot_S5000x70_S70x43_S5000x43_1_0_0_1_n_n_wf
def dot_S5000x43_S43x32_S5000x32_1_0_0_1_n_n : DotDims S5000x43 S43x32 S5000x32 where
  lhsContracting := [1]
  rhsContracting := [0]
  lhsNonContracting := [0]
  rhsNonContracting := [1]
  lhsBatch := []
  rhsBatch := []
  wf := dot_S5000x43_S43x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v30) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S5000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S5000x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v73) S4x96x70.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v74) S1x70.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v75) S5000x70.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v76) S5000x70.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v90) S5000x70.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v104) S5000x70.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v118) S5000x70.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v119) S4x70x43.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v120) S1x43.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v121) S5000x43.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v127) S5000x43.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v126) S43x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v128) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S4x96x70 : Shape := ⟨3, ![4, 96, 70]⟩
abbrev S70 : Shape := ⟨1, ![70]⟩
abbrev S4x70x43 : Shape := ⟨3, ![4, 70, 43]⟩
abbrev S43 : Shape := ⟨1, ![43]⟩
abbrev S43x16 : Shape := ⟨2, ![43, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x96x70 : Shape := ⟨3, ![1, 96, 70]⟩
abbrev S96x70 : Shape := ⟨2, ![96, 70]⟩
abbrev S50000x70 : Shape := ⟨2, ![50000, 70]⟩
abbrev S800000x96 : Shape := ⟨2, ![800000, 96]⟩
abbrev S1x70 : Shape := ⟨2, ![1, 70]⟩
abbrev S1x70x43 : Shape := ⟨3, ![1, 70, 43]⟩
abbrev S70x43 : Shape := ⟨2, ![70, 43]⟩
abbrev S50000x43 : Shape := ⟨2, ![50000, 43]⟩
abbrev S800000x70 : Shape := ⟨2, ![800000, 70]⟩
abbrev S1x43 : Shape := ⟨2, ![1, 43]⟩
abbrev S50000x16 : Shape := ⟨2, ![50000, 16]⟩
abbrev S800000x16 : Shape := ⟨2, ![800000, 16]⟩
abbrev S50000x1 : Shape := ⟨2, ![50000, 1]⟩
abbrev S1x16 : Shape := ⟨2, ![1, 16]⟩

abbrev nBuf : Space → Nat
  | .hbm => 286
  | .vmem => 0
  | .smem => 0
  | _ => 0

abbrev hbmTy0_0 (i : Nat) : BufTy := match i % 128 with
  | 0 => ⟨S50000x96, .f32⟩
  | 1 => ⟨S2x800000, .i32⟩
  | 2 => ⟨S4x96x70, .f32⟩
  | 3 => ⟨S70, .f32⟩
  | 4 => ⟨S4x70x43, .f32⟩
  | 5 => ⟨S43, .f32⟩
  | 6 => ⟨S43x16, .f32⟩
  | 7 => ⟨S16, .f32⟩
  | 8 => ⟨S43x16, .f32⟩
  | 9 => ⟨S16, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S1x96x70, .f32⟩
  | 51 => ⟨S96x70, .f32⟩
  | 52 => ⟨S50000x70, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x96, .f32⟩
  | 63 => ⟨S800000x96, .f32⟩
  | 64 => ⟨S800000x96, .f32⟩
  | 65 => ⟨S_, .f32⟩
  | 66 => ⟨S50000x96, .f32⟩
  | 67 => ⟨S800000x1, .i32⟩
  | 68 => ⟨S50000x96, .f32⟩
  | 69 => ⟨S1x96x70, .f32⟩
  | 70 => ⟨S96x70, .f32⟩
  | 71 => ⟨S50000x70, .f32⟩
  | 72 => ⟨S50000x70, .f32⟩
  | 73 => ⟨S800000x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x96, .f32⟩
  | 83 => ⟨S800000x96, .f32⟩
  | 84 => ⟨S800000x96, .f32⟩
  | 85 => ⟨S_, .f32⟩
  | 86 => ⟨S50000x96, .f32⟩
  | 87 => ⟨S800000x1, .i32⟩
  | 88 => ⟨S50000x96, .f32⟩
  | 89 => ⟨S1x96x70, .f32⟩
  | 90 => ⟨S96x70, .f32⟩
  | 91 => ⟨S50000x70, .f32⟩
  | 92 => ⟨S50000x70, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x96, .f32⟩
  | 103 => ⟨S800000x96, .f32⟩
  | 104 => ⟨S800000x96, .f32⟩
  | 105 => ⟨S_, .f32⟩
  | 106 => ⟨S50000x96, .f32⟩
  | 107 => ⟨S800000x1, .i32⟩
  | 108 => ⟨S50000x96, .f32⟩
  | 109 => ⟨S1x96x70, .f32⟩
  | 110 => ⟨S96x70, .f32⟩
  | 111 => ⟨S50000x70, .f32⟩
  | 112 => ⟨S50000x70, .f32⟩
  | 113 => ⟨S1x70, .f32⟩
  | 114 => ⟨S50000x70, .f32⟩
  | 115 => ⟨S50000x70, .f32⟩
  | 116 => ⟨S_, .f32⟩
  | 117 => ⟨S50000x70, .f32⟩
  | 118 => ⟨S50000x70, .f32⟩
  | 119 => ⟨S1x70x43, .f32⟩
  | 120 => ⟨S70x43, .f32⟩
  | 121 => ⟨S50000x43, .f32⟩
  | 122 => ⟨S800000x1, .f32⟩
  | 123 => ⟨S_, .i32⟩
  | 124 => ⟨S800000, .i32⟩
  | 125 => ⟨S800000, .i1⟩
  | 126 => ⟨S_, .i32⟩
  | 127 => ⟨S800000, .i32⟩
  | _ => ⟨S50000x96, .f32⟩

abbrev hbmTy0_1 (i : Nat) : BufTy := match i % 128 with
  | 0 => ⟨S800000, .i32⟩
  | 1 => ⟨S800000, .i32⟩
  | 2 => ⟨S800000x1, .i32⟩
  | 3 => ⟨S800000x70, .f32⟩
  | 4 => ⟨S800000x70, .f32⟩
  | 5 => ⟨S800000x70, .f32⟩
  | 6 => ⟨S_, .f32⟩
  | 7 => ⟨S50000x70, .f32⟩
  | 8 => ⟨S800000x1, .i32⟩
  | 9 => ⟨S50000x70, .f32⟩
  | 10 => ⟨S1x70x43, .f32⟩
  | 11 => ⟨S70x43, .f32⟩
  | 12 => ⟨S50000x43, .f32⟩
  | 13 => ⟨S50000x43, .f32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x70, .f32⟩
  | 24 => ⟨S800000x70, .f32⟩
  | 25 => ⟨S800000x70, .f32⟩
  | 26 => ⟨S_, .f32⟩
  | 27 => ⟨S50000x70, .f32⟩
  | 28 => ⟨S800000x1, .i32⟩
  | 29 => ⟨S50000x70, .f32⟩
  | 30 => ⟨S1x70x43, .f32⟩
  | 31 => ⟨S70x43, .f32⟩
  | 32 => ⟨S50000x43, .f32⟩
  | 33 => ⟨S50000x43, .f32⟩
  | 34 => ⟨S800000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x70, .f32⟩
  | 44 => ⟨S800000x70, .f32⟩
  | 45 => ⟨S800000x70, .f32⟩
  | 46 => ⟨S_, .f32⟩
  | 47 => ⟨S50000x70, .f32⟩
  | 48 => ⟨S800000x1, .i32⟩
  | 49 => ⟨S50000x70, .f32⟩
  | 50 => ⟨S1x70x43, .f32⟩
  | 51 => ⟨S70x43, .f32⟩
  | 52 => ⟨S50000x43, .f32⟩
  | 53 => ⟨S50000x43, .f32⟩
  | 54 => ⟨S1x43, .f32⟩
  | 55 => ⟨S50000x43, .f32⟩
  | 56 => ⟨S50000x43, .f32⟩
  | 57 => ⟨S_, .f32⟩
  | 58 => ⟨S50000x43, .f32⟩
  | 59 => ⟨S50000x43, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000, .f32⟩
  | 70 => ⟨S50000x16, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x16, .f32⟩
  | 100 => ⟨S800000x16, .f32⟩
  | 101 => ⟨S800000x16, .f32⟩
  | 102 => ⟨S_, .f32⟩
  | 103 => ⟨S50000x16, .f32⟩
  | 104 => ⟨S800000x1, .i32⟩
  | 105 => ⟨S50000x16, .f32⟩
  | 106 => ⟨S50000, .f32⟩
  | 107 => ⟨S50000x1, .f32⟩
  | 108 => ⟨S50000x16, .f32⟩
  | 109 => ⟨S50000x16, .f32⟩
  | 110 => ⟨S50000x16, .f32⟩
  | 111 => ⟨S1x16, .f32⟩
  | 112 => ⟨S50000x16, .f32⟩
  | 113 => ⟨S50000x16, .f32⟩
  | 114 => ⟨S50000x16, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S_, .i32⟩
  | 125 => ⟨S800000, .i32⟩
  | 126 => ⟨S800000, .i1⟩
  | 127 => ⟨S_, .i32⟩
  | _ => ⟨S50000x96, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S800000, .f32⟩
  | 6 => ⟨S800000x1, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x16, .f32⟩
  | 16 => ⟨S800000x16, .f32⟩
  | 17 => ⟨S800000x16, .f32⟩
  | 18 => ⟨S_, .f32⟩
  | 19 => ⟨S50000x16, .f32⟩
  | 20 => ⟨S800000x1, .i32⟩
  | 21 => ⟨S50000x16, .f32⟩
  | 22 => ⟨S50000, .f32⟩
  | 23 => ⟨S50000x1, .f32⟩
  | 24 => ⟨S50000x16, .f32⟩
  | 25 => ⟨S50000x16, .f32⟩
  | 26 => ⟨S50000x16, .f32⟩
  | 27 => ⟨S1x16, .f32⟩
  | 28 => ⟨S50000x16, .f32⟩
  | 29 => ⟨S50000x16, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_16 : Ref sig .tc := ⟨.hbm, 123, rfl⟩
abbrev main_v91 : Ref sig .tc := ⟨.hbm, 124, rfl⟩
abbrev main_v92 : Ref sig .tc := ⟨.hbm, 125, rfl⟩
abbrev main_c_17 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_18 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_19 : Ref sig .tc := ⟨.hbm, 143, rfl⟩
abbrev main_v108 : Ref sig .tc := ⟨.hbm, 144, rfl⟩
abbrev main_v109 : Ref sig .tc := ⟨.hbm, 145, rfl⟩
abbrev main_c_20 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_21 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_22 : Ref sig .tc := ⟨.hbm, 163, rfl⟩
abbrev main_v125 : Ref sig .tc := ⟨.hbm, 164, rfl⟩
abbrev main_v126 : Ref sig .tc := ⟨.hbm, 165, rfl⟩
abbrev main_c_23 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_24 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_call2_cst : Ref sig .tc := ⟨.hbm, 185, rfl⟩
abbrev main_call2_v0 : Ref sig .tc := ⟨.hbm, 186, rfl⟩
abbrev main_v144 : Ref sig .tc := ⟨.hbm, 187, rfl⟩
abbrev main_cst_25 : Ref sig .tc := ⟨.hbm, 188, rfl⟩
abbrev main_v145 : Ref sig .tc := ⟨.hbm, 189, rfl⟩
abbrev main_cst_26 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_27 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_c_28 : Ref sig .tc := ⟨.hbm, 199, rfl⟩
abbrev main_v153 : Ref sig .tc := ⟨.hbm, 200, rfl⟩
abbrev main_v154 : Ref sig .tc := ⟨.hbm, 201, rfl⟩
abbrev main_c_29 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_30 : Ref sig .tc := ⟨.hbm, 208, rfl⟩
abbrev main_v160 : Ref sig .tc := ⟨.hbm, 209, rfl⟩
abbrev main_v161 : Ref sig .tc := ⟨.hbm, 210, rfl⟩
abbrev main_c_31 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_c_32 : Ref sig .tc := ⟨.hbm, 219, rfl⟩
abbrev main_v169 : Ref sig .tc := ⟨.hbm, 220, rfl⟩
abbrev main_v170 : Ref sig .tc := ⟨.hbm, 221, rfl⟩
abbrev main_c_33 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_cst_34 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_c_35 : Ref sig .tc := ⟨.hbm, 243, rfl⟩
abbrev main_v190 : Ref sig .tc := ⟨.hbm, 244, rfl⟩
abbrev main_v191 : Ref sig .tc := ⟨.hbm, 245, rfl⟩
abbrev main_c_36 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_c_37 : Ref sig .tc := ⟨.hbm, 252, rfl⟩
abbrev main_v197 : Ref sig .tc := ⟨.hbm, 253, rfl⟩
abbrev main_v198 : Ref sig .tc := ⟨.hbm, 254, rfl⟩
abbrev main_c_38 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_c_39 : Ref sig .tc := ⟨.hbm, 263, rfl⟩
abbrev main_v206 : Ref sig .tc := ⟨.hbm, 264, rfl⟩
abbrev main_v207 : Ref sig .tc := ⟨.hbm, 265, rfl⟩
abbrev main_c_40 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_41 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x96x70_S1x96x70_0_0_0 : S4x96x70.Slices ![0, 0, 0] S1x96x70
  shapeCasts_S1x96x70_S96x70 : S1x96x70.ShapeCasts S96x70
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  slices_S4x96x70_S1x96x70_1_0_0 : S4x96x70.Slices ![1, 0, 0] S1x96x70
  slices_S4x96x70_S1x96x70_2_0_0 : S4x96x70.Slices ![2, 0, 0] S1x96x70
  slices_S4x96x70_S1x96x70_3_0_0 : S4x96x70.Slices ![3, 0, 0] S1x96x70
  bcast_S70_S1x70_1 : S70.BroadcastsInDim S1x70 (![1] : Fin 1 → Fin S1x70.rank)
  bcast_S1x70_S50000x70_0_1 : S1x70.BroadcastsInDim S50000x70 (![0, 1] : Fin 2 → Fin S50000x70.rank)
  bcast_S_S50000x70 : S_.BroadcastsInDim S50000x70 (![] : Fin 0 → Fin S50000x70.rank)
  slices_S4x70x43_S1x70x43_0_0_0 : S4x70x43.Slices ![0, 0, 0] S1x70x43
  shapeCasts_S1x70x43_S70x43 : S1x70x43.ShapeCasts S70x43
  bcast_S800000x1_S800000x70_0_1 : S800000x1.BroadcastsInDim S800000x70 (![0, 1] : Fin 2 → Fin S800000x70.rank)
  slices_S4x70x43_S1x70x43_1_0_0 : S4x70x43.Slices ![1, 0, 0] S1x70x43
  slices_S4x70x43_S1x70x43_2_0_0 : S4x70x43.Slices ![2, 0, 0] S1x70x43
  slices_S4x70x43_S1x70x43_3_0_0 : S4x70x43.Slices ![3, 0, 0] S1x70x43
  bcast_S43_S1x43_1 : S43.BroadcastsInDim S1x43 (![1] : Fin 1 → Fin S1x43.rank)
  bcast_S1x43_S50000x43_0_1 : S1x43.BroadcastsInDim S50000x43 (![0, 1] : Fin 2 → Fin S50000x43.rank)
  bcast_S_S50000x43 : S_.BroadcastsInDim S50000x43 (![] : Fin 0 → Fin S50000x43.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x96_S96x70_S50000x70_1_0_0_1_n_n_wf : DotDims.WF S50000x96 S96x70 S50000x70 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x70_S70x43_S50000x43_1_0_0_1_n_n_wf : DotDims.WF S50000x70 S70x43 S50000x43 [1] [0] [0] [1] [] []
  gather_S50000x70_S800000x1_S800000x70_1_0_n_n_0_1_170_wf : GatherDims.WF S50000x70 S800000x1 S800000x70 [1] [0] [] [0] [] 1 ![1, 70]
  scatter_S50000x70_S800000x1_S800000x70_1_0_0_1_wf : ScatterDims.WF S50000x70 S800000x1 S800000x70 [1] [0] [0] 1
  dot_S50000x43_S43x16_S50000x16_1_0_0_1_n_n_wf : DotDims.WF S50000x43 S43x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x96_S96x70_S50000x70_1_0_0_1_n_n : DotDims S50000x96 S96x70 S50000x70 where
  lhsContracting := [1]
  rhsContracting := [0]
  lhsNonContracting := [0]
  rhsNonContracting := [1]
  lhsBatch := []
  rhsBatch := []
  wf := dot_S50000x96_S96x70_S50000x70_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x70_S70x43_S50000x43_1_0_0_1_n_n : DotDims S50000x70 S70x43 S50000x43 where
  lhsContracting := [1]
  rhsContracting := [0]
  lhsNonContracting := [0]
  rhsNonContracting := [1]
  lhsBatch := []
  rhsBatch := []
  wf := dot_S50000x70_S70x43_S50000x43_1_0_0_1_n_n_wf
def gather_S50000x70_S800000x1_S800000x70_1_0_n_n_0_1_170 : GatherDims S50000x70 S800000x1 S800000x70 where
  offsetDims := [1]
  collapsedSliceDims := [0]
  operandBatchingDims := []
  startIndicesBatchingDims := []
  startIndexMap := [0]
  indexVectorDim := 1
  sliceSizes := ![1, 70]
  wf := gather_S50000x70_S800000x1_S800000x70_1_0_n_n_0_1_170_wf
def scatter_S50000x70_S800000x1_S800000x70_1_0_0_1 : ScatterDims S50000x70 S800000x1 S800000x70 where
  updateWindowDims := [1]
  insertedWindowDims := [0]
  scatterDimsToOperandDims := [0]
  indexVectorDim := 1
  wf := scatter_S50000x70_S800000x1_S800000x70_1_0_0_1_wf
def dot_S50000x43_S43x16_S50000x16_1_0_0_1_n_n : DotDims S50000x43 S43x16 S50000x16 where
  lhsContracting := [1]
  rhsContracting := [0]
  lhsNonContracting := [0]
  rhsNonContracting := [1]
  lhsBatch := []
  rhsBatch := []
  wf := dot_S50000x43_S43x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

class Facts : Prop extends Facts₀ where

variable [Facts]
-- ==== Proof.KRun.lean ====
/- The kernel program's run with its two result buffers named: in every final state each of the two
   results holds what the last boundary's contents assign to it, and the ten argument arrays are as launched. -/
import proofs.«133635_j68539088110351_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any memory with zero counters, every weakly fair execution of @main on the TensorCores terminates without a
    fault, and in every final state the two result buffers hold the contents of the last boundary (the fold of the
    host stretches and the three regions' write-backs from the launch memory) while each argument array is as
    launched. -/
theorem run_values (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v170) = W9 m ρ c (Proc.devRef .tc main_v170)
      ∧ r.2.mem ((c.tc : Thread nD τ).loc main_v176) = W9 m ρ c (Proc.devRef .tc main_v176)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v170 (by decide)),
       h c _ (mem_uc main_v176 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.KRun

end
-- ==== Proof.RefRun.lean ====
/-
  The reference program's run, with each result at the last operation's stage.

  The reference is a straight line of host operations. Its run ends with each of its two results at the composed
  term of all the operations that feed it; read one operation at a time, that term is the stage of the result's own
  operation applied to the stages before it, so the two are one function of the arguments. Every argument array ends
  as launched.
-/
import proofs.«133635_j68539088110351_2_alg».proof.Proof.RunP
import proofs.«133635_j68539088110351_2_alg».proof.Proof.ReadP

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The first result's composed term is its operation's stage. -/
theorem res_v188 (m : (ℓ : Loc nD τ sig) → Buf (Elt F) ℓ) (c : Dev nD) :
    Cert.ReferenceIdeal.Value.res_main_v188 m c
      = Cert.ReferenceIdeal.Read.val_main_v188 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v188; rfl

/-- The second result's composed term is its operation's stage. -/
theorem res_v225 (m : (ℓ : Loc nD τ sig) → Buf (Elt F) ℓ) (c : Dev nD) :
    Cert.ReferenceIdeal.Value.res_main_v225 m c
      = Cert.ReferenceIdeal.Read.val_main_v225 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  unfold Cert.ReferenceIdeal.Value.res_main_v225; rfl

/-- Every weakly fair execution of the reference terminates with its two results at their stages of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v188)
          = Cert.ReferenceIdeal.Read.val_main_v188 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v225)
          = Cert.ReferenceIdeal.Read.val_main_v225 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c).1.trans (res_v188 m c), (h c).2.1.trans (res_v225 m c), (h c).2.2⟩)
    (Cert.ReferenceIdeal.Value.run (F := F) m ρ)

end Cert.ReferenceIdeal.RefRun

end
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.Host0.lean ====
/-
  The host operations before the first dense stage, read at the buffers that stage stages and at the
  buffers later stretches read.

  From the edge list the program takes the source and target node of every edge, counts each node's incoming
  edges, turns the counts into per-node scales (the inverse square root of the count where it is positive, zero
  elsewhere) and multiplies the scales of an edge's two ends into an edge weight. A feature table is averaged over
  in-neighbours by gathering its rows at the edges' sources, scaling by the edge weight and summing into the edges'
  targets; the first stage reads the input table and its one-, two- and three-fold averages, each rounded to the
  narrower float format, which is the identity on the extended reals. The reference performs the same operations
  in the same order, so each buffer holds the reference's stage of the same arguments.

  The three stretches are read one after the other, each from arbitrary contents. What the long stretch repeats —
  a column of row numbers, the weight column, one gather-multiply-sum of a table — is named once, so that its four
  tables are a few applications of named functions; each named function is then the reference's stage as soon as
  what goes into it is, and the change of float format drops out because it is the identity on the extended reals.
-/
import proofs.«133635_j68539088110351_2_alg».proof.Proof.Gen.KernelIdeal.Launch
import proofs.«133635_j68539088110351_2_alg».proof.Proof.ReadP
import proofs.«133635_j68539088110351_2_alg».proof.Proof.LibTypedRef
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo

open Cert.ReferenceIdeal.Read

/-! ## The repeated pieces of the stretch, named -/

/-- A list of 32-bit numbers with each negative one increased by 50000, laid as one column: the form in which a
    gather takes its row numbers. -/
def s0_col (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The entry-by-entry product of two gathers from one 50000-entry table, at the row numbers `v1` and at the row
    numbers `v3`, laid as one column. -/
def s0_weight (d : FVec Ideal S50000 .f32) (v1 v3 : IVec S800000 32) : FVec Ideal S800000x1 .f32 :=
  broadcastInDim S800000x1 ![0] bcast_S800000_S800000x1_0
    (mulf (F := Ideal) (φ := .f32) (Host.gather gather_S50000_S800000x1_S800000_n_0_n_n_0_1_1 d (s0_col v1))
      (Host.gather gather_S50000_S800000x1_S800000_n_0_n_n_0_1_1 d (s0_col v3)))

/-- From a 96-column table in the narrower float format: its rows gathered at the row numbers `v1`, widened to the
    wider format, each multiplied by the weight `w` of its position, and added into a table of zeros at the rows
    `v3` names. -/
def s0_avg (v1 v3 : IVec S800000 32) (w : FVec Ideal S800000x1 .f32) (h : FVec Ideal S50000x96 .bf16) :
    FVec Ideal S50000x96 .f32 :=
  Host.scatterAdd (F := Ideal) (φ := .f32) scatter_S50000x96_S800000x1_S800000x96_1_0_0_1
    (broadcastInDim S50000x96 ![] bcast_S_S50000x96 (constant (F := Ideal) S_ .f32 0x00000000#32))
    (broadcastInDim S800000x1 ![0] bcast_S800000_S800000x1_0 v3)
    (mulf (F := Ideal) (φ := .f32) (broadcastInDim S800000x96 ![0, 1] bcast_S800000x1_S800000x96_0_1 w)
      (extf (F := Ideal) .f32 (Host.gather gather_S50000x96_S800000x1_S800000x96_1_0_n_n_0_1_196 h (s0_col v1)) bitsLt_bf16_f32))

/-! ## A literal typed reference's transports are the identity -/

theorem s0_of_v9 (c : (⟨S50000, .i1⟩ : BufTy).Contents (Elt Ideal)) :
    (TRef.of main_v9 : TRef sig ⟨S50000, .i1⟩).ofBuf c = c := cast_eq _ _
theorem s0_of_v12 (x : (⟨S50000, .f32⟩ : BufTy).Contents (Elt Ideal)) :
    (TRef.of main_v12 : TRef sig ⟨S50000, .f32⟩).ofBuf x = x := cast_eq _ _
theorem s0_of_cst3 (k : (⟨S_, .f32⟩ : BufTy).Contents (Elt Ideal)) :
    (TRef.of main_cst_3 : TRef sig ⟨S_, .f32⟩).ofBuf k = k := cast_eq _ _
theorem s0_to_v13 (y : (⟨S50000, .f32⟩ : BufTy).Contents (Elt Ideal)) :
    (TRef.of main_v13 : TRef sig ⟨S50000, .f32⟩).toBuf y = y := cast_eq _ _

/-! ## The first stretch from the arguments -/

section Top
variable (Wp : Valuation τ sig (Elt Ideal)) (a1 : (⟨Cert.ReferenceIdeal.S2x800000, .i32⟩ : BufTy).Contents (Elt Ideal))
  (h1 : Wp (Proc.devRef .tc main_arg1) = a1)

theorem s0_top_cst3 : StableHlo.after (hostOps0 (F := Ideal)) Wp (Proc.devRef .tc main_cst_3) = val_main_cst_3 (F := Ideal) := by
  simp only [hostOps0]; after_results_simp; rfl
theorem s0_top_keep_arg0 : StableHlo.after (hostOps0 (F := Ideal)) Wp (Proc.devRef .tc main_arg0) = Wp (Proc.devRef .tc main_arg0) := by
  simp only [hostOps0]; after_results_simp

include h1

theorem s0_top_v1 : StableHlo.after (hostOps0 (F := Ideal)) Wp (Proc.devRef .tc main_v1) = val_main_v1 (F := Ideal) a1 := by
  simp only [hostOps0]; after_results_simp
  rw [h1]
  rfl

theorem s0_top_v3 : StableHlo.after (hostOps0 (F := Ideal)) Wp (Proc.devRef .tc main_v3) = val_main_v3 (F := Ideal) a1 := by
  simp only [hostOps0]; after_results_simp
  rw [h1]
  rfl

theorem s0_top_v7 : StableHlo.after (hostOps0 (F := Ideal)) Wp (Proc.devRef .tc main_v7) = val_main_v7 (F := Ideal) a1 := by
  simp only [hostOps0]; after_results_simp
  rw [h1]
  rfl

theorem s0_top_v9 : StableHlo.after (hostOps0 (F := Ideal)) Wp (Proc.devRef .tc main_v9) = val_main_v9 (F := Ideal) a1 := by
  simp only [hostOps0]; after_results_simp
  rw [h1]
  rfl

theorem s0_top_v12 : StableHlo.after (hostOps0 (F := Ideal)) Wp (Proc.devRef .tc main_v12) = val_main_v12 (F := Ideal) a1 := by
  simp only [hostOps0]; after_results_simp
  rw [h1]
  rfl

end Top

/-! ## The called function's three operations from any contents -/

section Mid
variable (P1 : Valuation τ sig (Elt Ideal)) (a1 : (⟨Cert.ReferenceIdeal.S2x800000, .i32⟩ : BufTy).Contents (Elt Ideal))

/-- The called function selects, entry by entry, between its second operand and its third spread over all entries,
    by its first; with the three operands the reference's stages, its result is the reference's stage. -/
theorem s0_mid_v13 (h9 : P1 (Proc.devRef .tc main_v9) = val_main_v9 (F := Ideal) a1)
    (h12 : P1 (Proc.devRef .tc main_v12) = val_main_v12 (F := Ideal) a1)
    (hc : P1 (Proc.devRef .tc main_cst_3) = val_main_cst_3 (F := Ideal)) :
    StableHlo.after (hostOps0_1 (F := Ideal)) P1 (Proc.devRef .tc main_v13) = val_main_v13 (F := Ideal) a1 := by
  simp only [hostOps0_1]; after_results_simp
  simp only [Cert.Lib.TypedRef.ofBuf_toBuf]
  rw [s0_to_v13, s0_of_v9, s0_of_v12, s0_of_cst3, h9, h12, hc]
  unfold val_main_v13 val_main_call0_v1 val_main_call0_v0
  rfl

theorem s0_mid_keep_v1 : StableHlo.after (hostOps0_1 (F := Ideal)) P1 (Proc.devRef .tc main_v1) = P1 (Proc.devRef .tc main_v1) := by
  simp only [hostOps0_1]; after_results_simp
theorem s0_mid_keep_v3 : StableHlo.after (hostOps0_1 (F := Ideal)) P1 (Proc.devRef .tc main_v3) = P1 (Proc.devRef .tc main_v3) := by
  simp only [hostOps0_1]; after_results_simp
theorem s0_mid_keep_v7 : StableHlo.after (hostOps0_1 (F := Ideal)) P1 (Proc.devRef .tc main_v7) = P1 (Proc.devRef .tc main_v7) := by
  simp only [hostOps0_1]; after_results_simp
theorem s0_mid_keep_arg0 : StableHlo.after (hostOps0_1 (F := Ideal)) P1 (Proc.devRef .tc main_arg0) = P1 (Proc.devRef .tc main_arg0) := by
  simp only [hostOps0_1]; after_results_simp

end Mid

/-! ## The long stretch from any contents

Read from any contents, the weight column is `s0_weight` of the 50000-entry table and the two lists of row numbers,
and the first stage's four tables are the rounded input and `s0_avg` applied to it once, twice and three times, with a
rounding after each. -/

theorem s0_low_v29 (P2 : Valuation τ sig (Elt Ideal)) : StableHlo.after (hostOps0_2 (F := Ideal)) P2 (Proc.devRef .tc main_v29)
    = s0_weight (P2 (Proc.devRef .tc main_v13)) (P2 (Proc.devRef .tc main_v1)) (P2 (Proc.devRef .tc main_v3)) := by
  simp only [hostOps0_2]; after_results_simp; rfl

theorem s0_low_v30 (P2 : Valuation τ sig (Elt Ideal)) : StableHlo.after (hostOps0_2 (F := Ideal)) P2 (Proc.devRef .tc main_v30)
    = (truncf (F := Ideal) (s := S50000x96) (φ := .f32) .bf16 (P2 (Proc.devRef .tc main_arg0)) bitsLt_bf16_f32) := by
  simp only [hostOps0_2]; after_results_simp

theorem s0_low_v44 (P2 : Valuation τ sig (Elt Ideal)) : StableHlo.after (hostOps0_2 (F := Ideal)) P2 (Proc.devRef .tc main_v44)
    = (truncf (F := Ideal) .bf16 (s0_avg (P2 (Proc.devRef .tc main_v1)) (P2 (Proc.devRef .tc main_v3)) (s0_weight (P2 (Proc.devRef .tc main_v13)) (P2 (Proc.devRef .tc main_v1)) (P2 (Proc.devRef .tc main_v3))) (truncf (F := Ideal) (s := S50000x96) (φ := .f32) .bf16 (P2 (Proc.devRef .tc main_arg0)) bitsLt_bf16_f32)) bitsLt_bf16_f32) := by
  simp only [hostOps0_2]; after_results_simp; rfl

theorem s0_low_v58 (P2 : Valuation τ sig (Elt Ideal)) : StableHlo.after (hostOps0_2 (F := Ideal)) P2 (Proc.devRef .tc main_v58)
    = (truncf (F := Ideal) .bf16 (s0_avg (P2 (Proc.devRef .tc main_v1)) (P2 (Proc.devRef .tc main_v3)) (s0_weight (P2 (Proc.devRef .tc main_v13)) (P2 (Proc.devRef .tc main_v1)) (P2 (Proc.devRef .tc main_v3))) (truncf (F := Ideal) .bf16 (s0_avg (P2 (Proc.devRef .tc main_v1)) (P2 (Proc.devRef .tc main_v3)) (s0_weight (P2 (Proc.devRef .tc main_v13)) (P2 (Proc.devRef .tc main_v1)) (P2 (Proc.devRef .tc main_v3))) (truncf (F := Ideal) (s := S50000x96) (φ := .f32) .bf16 (P2 (Proc.devRef .tc main_arg0)) bitsLt_bf16_f32)) bitsLt_bf16_f32)) bitsLt_bf16_f32) := by
  simp only [hostOps0_2]; after_results_simp; rfl

theorem s0_low_v72 (P2 : Valuation τ sig (Elt Ideal)) : StableHlo.after (hostOps0_2 (F := Ideal)) P2 (Proc.devRef .tc main_v72)
    = (truncf (F := Ideal) .bf16 (s0_avg (P2 (Proc.devRef .tc main_v1)) (P2 (Proc.devRef .tc main_v3)) (s0_weight (P2 (Proc.devRef .tc main_v13)) (P2 (Proc.devRef .tc main_v1)) (P2 (Proc.devRef .tc main_v3))) (truncf (F := Ideal) .bf16 (s0_avg (P2 (Proc.devRef .tc main_v1)) (P2 (Proc.devRef .tc main_v3)) (s0_weight (P2 (Proc.devRef .tc main_v13)) (P2 (Proc.devRef .tc main_v1)) (P2 (Proc.devRef .tc main_v3))) (truncf (F := Ideal) .bf16 (s0_avg (P2 (Proc.devRef .tc main_v1)) (P2 (Proc.devRef .tc main_v3)) (s0_weight (P2 (Proc.devRef .tc main_v13)) (P2 (Proc.devRef .tc main_v1)) (P2 (Proc.devRef .tc main_v3))) (truncf (F := Ideal) (s := S50000x96) (φ := .f32) .bf16 (P2 (Proc.devRef .tc main_arg0)) bitsLt_bf16_f32)) bitsLt_bf16_f32)) bitsLt_bf16_f32)) bitsLt_bf16_f32) := by
  simp only [hostOps0_2]; after_results_simp; rfl

/-! ## The named pieces are the reference's stages

The reference performs the same operations on its own copies of the shapes and index records; with the two lists
of row numbers, the 50000-entry table and the table going in equal to the reference's stages, what comes out is the
reference's stage. -/

section Bridge
variable (a0 : (⟨Cert.ReferenceIdeal.S50000x96, .f32⟩ : BufTy).Contents (Elt Ideal))
  (a1 : (⟨Cert.ReferenceIdeal.S2x800000, .i32⟩ : BufTy).Contents (Elt Ideal))

/-- Rounding to the narrower float format is the identity on the extended reals. -/
theorem s0_narrow_id {s : Shape} (x : FVec Ideal s .f32) :
    (truncf (F := Ideal) .bf16 x bitsLt_bf16_f32 : s.Idx → EReal) = x := rfl

theorem s0_weight_bridge : s0_weight (val_main_v13 (F := Ideal) a1) (val_main_v1 (F := Ideal) a1) (val_main_v3 (F := Ideal) a1)
    = val_main_v32 (F := Ideal) a1 := by
  unfold s0_weight s0_col val_main_v32 val_main_v28 val_main_v20 val_main_v27 val_main_v19 val_main_v26 val_main_v18 val_main_v25
    val_main_v15 val_main_v17 val_main_v22 val_main_v24 val_main_v14 val_main_v16 val_main_v21 val_main_v23
    val_main_c val_main_c_4 val_main_c_5 val_main_c_6
  rfl

/-- The same gather, product and sum as the reference spells them, of any 96-column table, over the reference's own
    stages: its zero table, its column of target rows, its weight table and its column of source rows. -/
def s0_ravg (a1 : (⟨Cert.ReferenceIdeal.S2x800000, .i32⟩ : BufTy).Contents (Elt Ideal))
    (h : FVec Ideal Cert.ReferenceIdeal.S50000x96 .f32) : FVec Ideal Cert.ReferenceIdeal.S50000x96 .f32 :=
  Host.scatterAdd (F := Ideal) (φ := .f32) Cert.ReferenceIdeal.scatter_S50000x96_S800000x1_S800000x96_1_0_0_1
    (val_main_v42 (F := Ideal)) (val_main_v43 (F := Ideal) a1)
    (mulf (F := Ideal) (φ := .f32) (val_main_v40 (F := Ideal) a1)
      (Host.gather Cert.ReferenceIdeal.gather_S50000x96_S800000x1_S800000x96_1_0_n_n_0_1_196 h (val_main_v38 (F := Ideal) a1)))

theorem s0_avg_bridge (h : FVec Ideal Cert.ReferenceIdeal.S50000x96 .f32) :
    s0_avg (val_main_v1 (F := Ideal) a1) (val_main_v3 (F := Ideal) a1) (val_main_v32 (F := Ideal) a1)
        (truncf (F := Ideal) .bf16 h bitsLt_bf16_f32) = s0_ravg a1 h := by
  unfold s0_avg s0_ravg
  rfl

/-- Three of the reference's stages are `s0_ravg` of the stage before. -/
theorem s0_r44 : val_main_v44 (F := Ideal) a0 a1 = s0_ravg a1 a0 := by
  unfold s0_ravg val_main_v44 val_main_v41 val_main_v39; rfl
theorem s0_r61 : val_main_v61 (F := Ideal) a0 a1 = s0_ravg a1 (val_main_v44 (F := Ideal) a0 a1) := by
  unfold s0_ravg val_main_v61 val_main_v58 val_main_v56; rfl
theorem s0_r78 : val_main_v78 (F := Ideal) a0 a1 = s0_ravg a1 (val_main_v61 (F := Ideal) a0 a1) := by
  unfold s0_ravg val_main_v78 val_main_v75 val_main_v73; rfl
end Bridge

/-! ## The contents after the first two stretches -/

section Facts
variable (Wp : Valuation τ sig (Elt Ideal)) (a0 : (⟨Cert.ReferenceIdeal.S50000x96, .f32⟩ : BufTy).Contents (Elt Ideal)) (a1 : (⟨Cert.ReferenceIdeal.S2x800000, .i32⟩ : BufTy).Contents (Elt Ideal))
  (h0 : Wp (Proc.devRef .tc main_arg0) = a0) (h1 : Wp (Proc.devRef .tc main_arg1) = a1)

include h1 in
theorem s0_at_v1 : (StableHlo.after (hostOps0_1 (F := Ideal)) (StableHlo.after (hostOps0 (F := Ideal)) Wp)) (Proc.devRef .tc main_v1) = val_main_v1 (F := Ideal) a1 :=
  (s0_mid_keep_v1 _).trans (s0_top_v1 Wp a1 h1)
include h1 in
theorem s0_at_v3 : (StableHlo.after (hostOps0_1 (F := Ideal)) (StableHlo.after (hostOps0 (F := Ideal)) Wp)) (Proc.devRef .tc main_v3) = val_main_v3 (F := Ideal) a1 :=
  (s0_mid_keep_v3 _).trans (s0_top_v3 Wp a1 h1)
include h1 in
theorem s0_at_v13 : (StableHlo.after (hostOps0_1 (F := Ideal)) (StableHlo.after (hostOps0 (F := Ideal)) Wp)) (Proc.devRef .tc main_v13) = val_main_v13 (F := Ideal) a1 :=
  s0_mid_v13 _ a1 (s0_top_v9 Wp a1 h1) (s0_top_v12 Wp a1 h1) (s0_top_cst3 Wp)
include h0 in
theorem s0_at_arg0 : (StableHlo.after (hostOps0_1 (F := Ideal)) (StableHlo.after (hostOps0 (F := Ideal)) Wp)) (Proc.devRef .tc main_arg0) = a0 :=
  (s0_mid_keep_arg0 _).trans ((s0_top_keep_arg0 Wp).trans h0)
end Facts

variable (Wp : Valuation τ sig (Elt Ideal))

section
variable (a0 : (⟨Cert.ReferenceIdeal.S50000x96, .f32⟩ : BufTy).Contents (Elt Ideal))
  (a1 : (⟨Cert.ReferenceIdeal.S2x800000, .i32⟩ : BufTy).Contents (Elt Ideal))
  (h0 : Wp (Proc.devRef .tc main_arg0) = a0) (h1 : Wp (Proc.devRef .tc main_arg1) = a1)
include h1

/-- The edges' source nodes. -/
theorem s0_v1 : StableHlo.after (hostOps0_2 (F := Ideal)) (StableHlo.after (hostOps0_1 (F := Ideal)) (StableHlo.after (hostOps0 (F := Ideal)) Wp)) (Proc.devRef .tc main_v1) = val_main_v1 (F := Ideal) a1 := by
  simp only [hostOps0, hostOps0_1, hostOps0_2]
  after_results_simp
  rw [h1]
  rfl

/-- The edges' target nodes. -/
theorem s0_v3 : StableHlo.after (hostOps0_2 (F := Ideal)) (StableHlo.after (hostOps0_1 (F := Ideal)) (StableHlo.after (hostOps0 (F := Ideal)) Wp)) (Proc.devRef .tc main_v3) = val_main_v3 (F := Ideal) a1 := by
  simp only [hostOps0, hostOps0_1, hostOps0_2]
  after_results_simp
  rw [h1]
  rfl

/-- Each node's count of incoming edges. -/
theorem s0_v7 : StableHlo.after (hostOps0_2 (F := Ideal)) (StableHlo.after (hostOps0_1 (F := Ideal)) (StableHlo.after (hostOps0 (F := Ideal)) Wp)) (Proc.devRef .tc main_v7) = val_main_v7 (F := Ideal) a1 := by
  simp only [hostOps0, hostOps0_1, hostOps0_2]
  after_results_simp
  rw [h1]
  rfl

/-- The edge weights, as a column. -/
theorem s0_v29 : StableHlo.after (hostOps0_2 (F := Ideal)) (StableHlo.after (hostOps0_1 (F := Ideal)) (StableHlo.after (hostOps0 (F := Ideal)) Wp)) (Proc.devRef .tc main_v29) = val_main_v32 (F := Ideal) a1 := by
  rw [s0_low_v29, s0_at_v13 Wp a1 h1, s0_at_v1 Wp a1 h1, s0_at_v3 Wp a1 h1]
  exact s0_weight_bridge a1

include h0

/-- The input table, rounded. -/
theorem s0_v30 : StableHlo.after (hostOps0_2 (F := Ideal)) (StableHlo.after (hostOps0_1 (F := Ideal)) (StableHlo.after (hostOps0 (F := Ideal)) Wp)) (Proc.devRef .tc main_v30) = a0 := by
  simp only [hostOps0, hostOps0_1, hostOps0_2]
  after_results_simp
  rw [h0]
  rfl

/-- The input table averaged once. -/
theorem s0_v44 : StableHlo.after (hostOps0_2 (F := Ideal)) (StableHlo.after (hostOps0_1 (F := Ideal)) (StableHlo.after (hostOps0 (F := Ideal)) Wp)) (Proc.devRef .tc main_v44) = val_main_v44 (F := Ideal) a0 a1 := by
  rw [s0_low_v44, s0_at_v13 Wp a1 h1, s0_at_v1 Wp a1 h1, s0_at_v3 Wp a1 h1, s0_at_arg0 Wp a0 h0, s0_weight_bridge]
  exact (s0_narrow_id _).trans ((s0_avg_bridge a1 _).trans (s0_r44 a0 a1).symm)

/-- Averaged twice. -/
theorem s0_v58 : StableHlo.after (hostOps0_2 (F := Ideal)) (StableHlo.after (hostOps0_1 (F := Ideal)) (StableHlo.after (hostOps0 (F := Ideal)) Wp)) (Proc.devRef .tc main_v58) = val_main_v61 (F := Ideal) a0 a1 := by
  rw [s0_low_v58, s0_at_v13 Wp a1 h1, s0_at_v1 Wp a1 h1, s0_at_v3 Wp a1 h1, s0_at_arg0 Wp a0 h0, s0_weight_bridge]
  refine (s0_narrow_id _).trans ((s0_avg_bridge a1 _).trans ?_)
  rw [s0_avg_bridge, ← s0_r44 a0 a1, ← s0_r61 a0 a1]

/-- Averaged three times. -/
theorem s0_v72 : StableHlo.after (hostOps0_2 (F := Ideal)) (StableHlo.after (hostOps0_1 (F := Ideal)) (StableHlo.after (hostOps0 (F := Ideal)) Wp)) (Proc.devRef .tc main_v72) = val_main_v78 (F := Ideal) a0 a1 := by
  rw [s0_low_v72, s0_at_v13 Wp a1 h1, s0_at_v1 Wp a1 h1, s0_at_v3 Wp a1 h1, s0_at_arg0 Wp a0 h0, s0_weight_bridge]
  refine (s0_narrow_id _).trans ((s0_avg_bridge a1 _).trans ?_)
  rw [s0_avg_bridge, s0_avg_bridge, ← s0_r44 a0 a1, ← s0_r61 a0 a1, ← s0_r78 a0 a1]

end

/-- The first stage's weight stack is the argument, rounded. -/
theorem s0_v73 : StableHlo.after (hostOps0_2 (F := Ideal)) (StableHlo.after (hostOps0_1 (F := Ideal)) (StableHlo.after (hostOps0 (F := Ideal)) Wp)) (Proc.devRef .tc main_v73) = Wp (Proc.devRef .tc main_arg2) := by
  simp only [hostOps0, hostOps0_1, hostOps0_2]
  after_results_simp
  rfl

/-- The first stage's bias row is the argument laid as one row. -/
theorem s0_v74 : StableHlo.after (hostOps0_2 (F := Ideal)) (StableHlo.after (hostOps0_1 (F := Ideal)) (StableHlo.after (hostOps0 (F := Ideal)) Wp)) (Proc.devRef .tc main_v74)
    = shapeCast S1x70 (Wp (Proc.devRef .tc main_arg3)) shapeCasts_S70_S1x70 := by
  simp only [hostOps0, hostOps0_1, hostOps0_2]
  after_results_simp
  rfl

/-- What these operations do not write they keep. -/
theorem s0_keep_arg4 : StableHlo.after (hostOps0_2 (F := Ideal)) (StableHlo.after (hostOps0_1 (F := Ideal)) (StableHlo.after (hostOps0 (F := Ideal)) Wp)) (Proc.devRef .tc main_arg4) = Wp (Proc.devRef .tc main_arg4) := by
  simp only [hostOps0, hostOps0_1, hostOps0_2, hostOps2]; after_results_simp
theorem s0_keep_arg5 : StableHlo.after (hostOps0_2 (F := Ideal)) (StableHlo.after (hostOps0_1 (F := Ideal)) (StableHlo.after (hostOps0 (F := Ideal)) Wp)) (Proc.devRef .tc main_arg5) = Wp (Proc.devRef .tc main_arg5) := by
  simp only [hostOps0, hostOps0_1, hostOps0_2, hostOps2]; after_results_simp
theorem s0_keep_arg6 : StableHlo.after (hostOps0_2 (F := Ideal)) (StableHlo.after (hostOps0_1 (F := Ideal)) (StableHlo.after (hostOps0 (F := Ideal)) Wp)) (Proc.devRef .tc main_arg6) = Wp (Proc.devRef .tc main_arg6) := by
  simp only [hostOps0, hostOps0_1, hostOps0_2, hostOps2]; after_results_simp
theorem s0_keep_arg7 : StableHlo.after (hostOps0_2 (F := Ideal)) (StableHlo.after (hostOps0_1 (F := Ideal)) (StableHlo.after (hostOps0 (F := Ideal)) Wp)) (Proc.devRef .tc main_arg7) = Wp (Proc.devRef .tc main_arg7) := by
  simp only [hostOps0, hostOps0_1, hostOps0_2, hostOps2]; after_results_simp
theorem s0_keep_arg8 : StableHlo.after (hostOps0_2 (F := Ideal)) (StableHlo.after (hostOps0_1 (F := Ideal)) (StableHlo.after (hostOps0 (F := Ideal)) Wp)) (Proc.devRef .tc main_arg8) = Wp (Proc.devRef .tc main_arg8) := by
  simp only [hostOps0, hostOps0_1, hostOps0_2, hostOps2]; after_results_simp
theorem s0_keep_arg9 : StableHlo.after (hostOps0_2 (F := Ideal)) (StableHlo.after (hostOps0_1 (F := Ideal)) (StableHlo.after (hostOps0 (F := Ideal)) Wp)) (Proc.devRef .tc main_arg9) = Wp (Proc.devRef .tc main_arg9) := by
  simp only [hostOps0, hostOps0_1, hostOps0_2, hostOps2]; after_results_simp

end Cert.KernelIdeal.Host

end
-- ==== Proof.Host1.lean ====
/-
  The host operations between the first and the second dense stage, read at the buffers the second stage stages.

  The first stage's output table is rounded to the narrower float format (the identity on the extended reals) and
  averaged over each node's in-neighbours three times in a row: a row gather at the edges' source nodes, a product
  with the edge weights, a sum into the edges' target nodes. The reference applies the same three averagings to its
  own first-layer output, operation for operation, so once the values going in are equal the values coming out are
  the reference's stages. The second stage's weights and bias are the arguments, rounded and re-laid.
-/
import proofs.«133635_j68539088110351_2_alg».proof.Proof.Gen.KernelIdeal.Launch
import proofs.«133635_j68539088110351_2_alg».proof.Proof.ReadP
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo

open Cert.ReferenceIdeal.Read

/-! ## One neighbourhood averaging, in each program's spelling -/

/-- One neighbourhood averaging of a 70-column table as the kernel program's host operations spell it: the rows at the
    edges' source nodes (a negative node number counted from the end), widened to the wider float format, times the
    edge weights, summed into the edges' target nodes starting from zero. -/
def khop70 (v1 v3 : IVec S800000 32) (v29 : FVec Ideal S800000x1 .f32) (h : FVec Ideal S50000x70 .bf16) :
    FVec Ideal S50000x70 .f32 :=
  Host.scatterAdd (F := Ideal) scatter_S50000x70_S800000x1_S800000x70_1_0_0_1
    (broadcastInDim S50000x70 ![] bcast_S_S50000x70 (constant (F := Ideal) S_ .f32 0x00000000#32))
    (broadcastInDim S800000x1 ![0] bcast_S800000_S800000x1_0 v3)
    (mulf (F := Ideal) (broadcastInDim S800000x70 ![0, 1] bcast_S800000x1_S800000x70_0_1 v29)
      (extf (F := Ideal) .f32
        (Host.gather gather_S50000x70_S800000x1_S800000x70_1_0_n_n_0_1_170 h
          (broadcastInDim S800000x1 ![0] bcast_S800000_S800000x1_0
            (select (cmpi .slt v1 (broadcastInDim S800000 ![] bcast_S_S800000 (constantI S_ 32 0#32)))
              (addi v1 (broadcastInDim S800000 ![] bcast_S_S800000 (constantI S_ 32 50000#32))) v1)))
        bitsLt_bf16_f32))

/-- The same averaging as the reference spells it, of any 70-column table, over its own stages of the edge list: the
    zero table, the target column, the weight table and the source column. -/
def rhop70 (a1 : (⟨Cert.ReferenceIdeal.S2x800000, .i32⟩ : BufTy).Contents (Elt Ideal))
    (h : FVec Ideal Cert.ReferenceIdeal.S50000x70 .f32) : FVec Ideal Cert.ReferenceIdeal.S50000x70 .f32 :=
  Host.scatterAdd (F := Ideal) (φ := .f32) Cert.ReferenceIdeal.scatter_S50000x70_S800000x1_S800000x70_1_0_0_1
    (val_main_v100 (F := Ideal)) (val_main_v101 (F := Ideal) a1)
    (mulf (F := Ideal) (φ := .f32) (val_main_v98 (F := Ideal) a1)
      (Host.gather Cert.ReferenceIdeal.gather_S50000x70_S800000x1_S800000x70_1_0_n_n_0_1_170 h (val_main_v96 (F := Ideal) a1)))

/-- Rounding to the narrower float format is the identity on the extended reals. -/
theorem narrow_id {s : Shape} (x : FVec Ideal s .f32) : (truncf (F := Ideal) .bf16 x bitsLt_bf16_f32 : s.Idx → EReal) = x := rfl

/-- The two spellings are one function: the change of float format is the identity on the extended reals, and the
    index columns, the weight table and the zero table are the same operations of the edge list. -/
theorem hop70_bridge (a1 : (⟨Cert.ReferenceIdeal.S2x800000, .i32⟩ : BufTy).Contents (Elt Ideal))
    (h : FVec Ideal Cert.ReferenceIdeal.S50000x70 .f32) :
    khop70 (val_main_v1 (F := Ideal) a1) (val_main_v3 (F := Ideal) a1) (val_main_v32 (F := Ideal) a1)
        (truncf (F := Ideal) .bf16 h bitsLt_bf16_f32) = rhop70 a1 h := by
  unfold khop70 rhop70
  rfl

/-- The reference's three averagings are `rhop70` of the stage before. -/
theorem r102 (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal)) :
    val_main_v102 (F := Ideal) a0 a1 a2 a3 = rhop70 a1 (val_main_v86 (F := Ideal) a0 a1 a2 a3) := by
  unfold rhop70 val_main_v102 val_main_v99 val_main_v97; rfl
theorem r119 (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal)) :
    val_main_v119 (F := Ideal) a0 a1 a2 a3 = rhop70 a1 (val_main_v102 (F := Ideal) a0 a1 a2 a3) := by
  unfold rhop70 val_main_v119 val_main_v116 val_main_v114; rfl
theorem r136 (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal)) :
    val_main_v136 (F := Ideal) a0 a1 a2 a3 = rhop70 a1 (val_main_v119 (F := Ideal) a0 a1 a2 a3) := by
  unfold rhop70 val_main_v136 val_main_v133 val_main_v131; rfl

variable (Wp : Valuation τ sig (Elt Ideal))

/-- The rounded copy of the first stage's output is that output. -/
theorem s1_v76 : StableHlo.after (hostOps1 (F := Ideal)) Wp (Proc.devRef .tc main_v76) = Wp (Proc.devRef .tc main_v75) := by
  simp only [hostOps1]
  after_results_simp
  rfl

/-- One averaging of the first layer's output is the reference's. -/
theorem s1_v90 (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (h1 : Wp (Proc.devRef .tc main_v1) = val_main_v1 (F := Ideal) a1)
    (h3 : Wp (Proc.devRef .tc main_v3) = val_main_v3 (F := Ideal) a1)
    (h29 : Wp (Proc.devRef .tc main_v29) = val_main_v32 (F := Ideal) a1)
    (h75 : Wp (Proc.devRef .tc main_v75) = val_main_v86 (F := Ideal) a0 a1 a2 a3) :
    StableHlo.after (hostOps1 (F := Ideal)) Wp (Proc.devRef .tc main_v90) = val_main_v102 (F := Ideal) a0 a1 a2 a3 := by
  simp only [hostOps1]
  after_results_simp
  rw [h1, h3, h29, h75]
  change (truncf (F := Ideal) .bf16 (khop70 (val_main_v1 (F := Ideal) a1) (val_main_v3 (F := Ideal) a1) (val_main_v32 (F := Ideal) a1) (truncf (F := Ideal) .bf16 (val_main_v86 (F := Ideal) a0 a1 a2 a3) bitsLt_bf16_f32)) bitsLt_bf16_f32) = _
  exact (narrow_id _).trans ((hop70_bridge a1 _).trans (r102 a0 a1 a2 a3).symm)

/-- Two averagings. -/
theorem s1_v104 (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (h1 : Wp (Proc.devRef .tc main_v1) = val_main_v1 (F := Ideal) a1)
    (h3 : Wp (Proc.devRef .tc main_v3) = val_main_v3 (F := Ideal) a1)
    (h29 : Wp (Proc.devRef .tc main_v29) = val_main_v32 (F := Ideal) a1)
    (h75 : Wp (Proc.devRef .tc main_v75) = val_main_v86 (F := Ideal) a0 a1 a2 a3) :
    StableHlo.after (hostOps1 (F := Ideal)) Wp (Proc.devRef .tc main_v104) = val_main_v119 (F := Ideal) a0 a1 a2 a3 := by
  simp only [hostOps1]
  after_results_simp
  rw [h1, h3, h29, h75]
  change (truncf (F := Ideal) .bf16 (khop70 (val_main_v1 (F := Ideal) a1) (val_main_v3 (F := Ideal) a1) (val_main_v32 (F := Ideal) a1) (truncf (F := Ideal) .bf16 (khop70 (val_main_v1 (F := Ideal) a1) (val_main_v3 (F := Ideal) a1) (val_main_v32 (F := Ideal) a1) (truncf (F := Ideal) .bf16 (val_main_v86 (F := Ideal) a0 a1 a2 a3) bitsLt_bf16_f32)) bitsLt_bf16_f32)) bitsLt_bf16_f32) = _
  refine (narrow_id _).trans ((hop70_bridge a1 _).trans ?_)
  rw [hop70_bridge, ← r102, ← r119]

/-- Three averagings. -/
theorem s1_v118 (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (h1 : Wp (Proc.devRef .tc main_v1) = val_main_v1 (F := Ideal) a1)
    (h3 : Wp (Proc.devRef .tc main_v3) = val_main_v3 (F := Ideal) a1)
    (h29 : Wp (Proc.devRef .tc main_v29) = val_main_v32 (F := Ideal) a1)
    (h75 : Wp (Proc.devRef .tc main_v75) = val_main_v86 (F := Ideal) a0 a1 a2 a3) :
    StableHlo.after (hostOps1 (F := Ideal)) Wp (Proc.devRef .tc main_v118) = val_main_v136 (F := Ideal) a0 a1 a2 a3 := by
  simp only [hostOps1]
  after_results_simp
  rw [h1, h3, h29, h75]
  change (truncf (F := Ideal) .bf16 (khop70 (val_main_v1 (F := Ideal) a1) (val_main_v3 (F := Ideal) a1) (val_main_v32 (F := Ideal) a1) (truncf (F := Ideal) .bf16 (khop70 (val_main_v1 (F := Ideal) a1) (val_main_v3 (F := Ideal) a1) (val_main_v32 (F := Ideal) a1) (truncf (F := Ideal) .bf16 (khop70 (val_main_v1 (F := Ideal) a1) (val_main_v3 (F := Ideal) a1) (val_main_v32 (F := Ideal) a1) (truncf (F := Ideal) .bf16 (val_main_v86 (F := Ideal) a0 a1 a2 a3) bitsLt_bf16_f32)) bitsLt_bf16_f32)) bitsLt_bf16_f32)) bitsLt_bf16_f32) = _
  refine (narrow_id _).trans ((hop70_bridge a1 _).trans ?_)
  rw [hop70_bridge, hop70_bridge, ← r102, ← r119, ← r136]

/-- The second stage's weight stack is the argument, rounded. -/
theorem s1_v119 : StableHlo.after (hostOps1 (F := Ideal)) Wp (Proc.devRef .tc main_v119) = Wp (Proc.devRef .tc main_arg4) := by
  simp only [hostOps1]
  after_results_simp
  rfl

/-- The second stage's bias row is the argument laid as one row. -/
theorem s1_v120 : StableHlo.after (hostOps1 (F := Ideal)) Wp (Proc.devRef .tc main_v120)
    = shapeCast S1x43 (Wp (Proc.devRef .tc main_arg5)) shapeCasts_S43_S1x43 := by
  simp only [hostOps1]
  after_results_simp
  rfl

/-- What the stretch does not write it keeps. -/
theorem s1_keep_v1 : StableHlo.after (hostOps1 (F := Ideal)) Wp (Proc.devRef .tc main_v1) = Wp (Proc.devRef .tc main_v1) := by
  simp only [hostOps1]; after_results_simp
theorem s1_keep_v3 : StableHlo.after (hostOps1 (F := Ideal)) Wp (Proc.devRef .tc main_v3) = Wp (Proc.devRef .tc main_v3) := by
  simp only [hostOps1]; after_results_simp
theorem s1_keep_v7 : StableHlo.after (hostOps1 (F := Ideal)) Wp (Proc.devRef .tc main_v7) = Wp (Proc.devRef .tc main_v7) := by
  simp only [hostOps1]; after_results_simp
theorem s1_keep_arg6 : StableHlo.after (hostOps1 (F := Ideal)) Wp (Proc.devRef .tc main_arg6) = Wp (Proc.devRef .tc main_arg6) := by
  simp only [hostOps1]; after_results_simp
theorem s1_keep_arg7 : StableHlo.after (hostOps1 (F := Ideal)) Wp (Proc.devRef .tc main_arg7) = Wp (Proc.devRef .tc main_arg7) := by
  simp only [hostOps1]; after_results_simp
theorem s1_keep_arg8 : StableHlo.after (hostOps1 (F := Ideal)) Wp (Proc.devRef .tc main_arg8) = Wp (Proc.devRef .tc main_arg8) := by
  simp only [hostOps1]; after_results_simp
theorem s1_keep_arg9 : StableHlo.after (hostOps1 (F := Ideal)) Wp (Proc.devRef .tc main_arg9) = Wp (Proc.devRef .tc main_arg9) := by
  simp only [hostOps1]; after_results_simp

end Cert.KernelIdeal.Host

end
-- ==== Proof.Host2.lean ====
/-
  The host operations between the second and the third dense stage.

  The per-node scale of the last stage is the inverse square root of the count of incoming edges plus one (every
  node also neighbours itself). The third stage multiplies the second stage's output, rounded, by the two
  projection matrices laid side by side, rounded; rounding is the identity on the extended reals. The reference
  counts the incoming edges a second time with the same operations, so its scale is the same function of the edge
  list.
-/
import proofs.«133635_j68539088110351_2_alg».proof.Proof.Gen.KernelIdeal.Launch
import proofs.«133635_j68539088110351_2_alg».proof.Proof.ReadP
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo

open Cert.ReferenceIdeal.Read

variable (Wp : Valuation τ sig (Elt Ideal))

/-- The last stage's per-node scale. -/
theorem s2_v124 (a1 : (⟨Cert.ReferenceIdeal.S2x800000, .i32⟩ : BufTy).Contents (Elt Ideal))
    (h7 : Wp (Proc.devRef .tc main_v7) = val_main_v7 (F := Ideal) a1) :
    StableHlo.after (hostOps2 (F := Ideal)) Wp (Proc.devRef .tc main_v124) = val_main_v151 (F := Ideal) a1 := by
  simp only [hostOps2]
  after_results_simp
  rw [h7]
  rfl

/-- The right factor of the third stage: the two projection matrices side by side. -/
theorem s2_v126 : StableHlo.after (hostOps2 (F := Ideal)) Wp (Proc.devRef .tc main_v126)
    = concatenate S43x32 1 [⟨S43x16, Wp (Proc.devRef .tc main_arg6)⟩, ⟨S43x16, Wp (Proc.devRef .tc main_arg8)⟩] concatenates_S43x16_S43x16_S43x32_d1 := by
  simp only [hostOps2]
  after_results_simp
  rfl

/-- The left factor of the third stage: the second stage's output. -/
theorem s2_v127 : StableHlo.after (hostOps2 (F := Ideal)) Wp (Proc.devRef .tc main_v127) = Wp (Proc.devRef .tc main_v121) := by
  simp only [hostOps2]
  after_results_simp
  rfl

/-- What these operations do not write they keep. -/
theorem s2_keep_v1 : StableHlo.after (hostOps2 (F := Ideal)) Wp (Proc.devRef .tc main_v1) = Wp (Proc.devRef .tc main_v1) := by
  simp only [hostOps0, hostOps0_1, hostOps0_2, hostOps2]; after_results_simp
theorem s2_keep_v3 : StableHlo.after (hostOps2 (F := Ideal)) Wp (Proc.devRef .tc main_v3) = Wp (Proc.devRef .tc main_v3) := by
  simp only [hostOps0, hostOps0_1, hostOps0_2, hostOps2]; after_results_simp
theorem s2_keep_arg7 : StableHlo.after (hostOps2 (F := Ideal)) Wp (Proc.devRef .tc main_arg7) = Wp (Proc.devRef .tc main_arg7) := by
  simp only [hostOps0, hostOps0_1, hostOps0_2, hostOps2]; after_results_simp
theorem s2_keep_arg9 : StableHlo.after (hostOps2 (F := Ideal)) Wp (Proc.devRef .tc main_arg9) = Wp (Proc.devRef .tc main_arg9) := by
  simp only [hostOps0, hostOps0_1, hostOps0_2, hostOps2]; after_results_simp

end Cert.KernelIdeal.Host

end
-- ==== Proof.Spec.lean ====
/-
  What the three dense stages compute, entry by entry, on the extended reals.

  A layer takes four feature tables over the same rows (a table and its one-, two- and three-fold neighbourhood
  averages), multiplies each by its own slice of a stack of four weight matrices, adds the four products in that
  order, adds a bias that depends on the output column only, and replaces negative values by zero. The last stage
  is a single matrix product. Both are stated over literal index shapes, with indices built from coordinates.
-/
import Idealize.ShloMosaic.PureOps.Ideal
import Idealize.ShloMosaic.Lib.ValueIdx

noncomputable section

open scoped BigOperators

namespace Cert.Spec

open Idealize.ShloMosaic Idealize.ShloMosaic.ValueIdx

/-- One entry of a layer: at row `n` and output column `j`, the four products' entries added left to right,
    then the bias at `j`, then the larger of that and zero. -/
def layerAt {N C D : Nat} (h0 h1 h2 h3 : (⟨2, ![N, C]⟩ : Shape).Idx → EReal)
    (W : (⟨3, ![4, C, D]⟩ : Shape).Idx → EReal) (b : Fin D → EReal) (n : Fin N) (j : Fin D) : EReal :=
  max (((((∑ k : Fin C, h0 (ix2 n k) * W (ix3 (0 : Fin 4) k j))
            + ∑ k : Fin C, h1 (ix2 n k) * W (ix3 (1 : Fin 4) k j))
          + ∑ k : Fin C, h2 (ix2 n k) * W (ix3 (2 : Fin 4) k j))
        + ∑ k : Fin C, h3 (ix2 n k) * W (ix3 (3 : Fin 4) k j))
      + b j) 0

/-- A layer as one table: its entry at an index is `layerAt` at the index's two coordinates. -/
def layer {N C D : Nat} (h0 h1 h2 h3 : (⟨2, ![N, C]⟩ : Shape).Idx → EReal)
    (W : (⟨3, ![4, C, D]⟩ : Shape).Idx → EReal) (b : Fin D → EReal) : (⟨2, ![N, D]⟩ : Shape).Idx → EReal :=
  fun i => layerAt h0 h1 h2 h3 W b (i 0) (i 1)

theorem layer_apply {N C D : Nat} (h0 h1 h2 h3 : (⟨2, ![N, C]⟩ : Shape).Idx → EReal)
    (W : (⟨3, ![4, C, D]⟩ : Shape).Idx → EReal) (b : Fin D → EReal) (n : Fin N) (j : Fin D) :
    layer h0 h1 h2 h3 W b (ix2 n j) = layerAt h0 h1 h2 h3 W b n j := rfl

/-- One entry of a matrix product. -/
def matprodAt {N K D : Nat} (l : (⟨2, ![N, K]⟩ : Shape).Idx → EReal) (r : (⟨2, ![K, D]⟩ : Shape).Idx → EReal)
    (n : Fin N) (j : Fin D) : EReal :=
  ∑ k : Fin K, l (ix2 n k) * r (ix2 k j)

/-- A matrix product as one table. -/
def matprod {N K D : Nat} (l : (⟨2, ![N, K]⟩ : Shape).Idx → EReal) (r : (⟨2, ![K, D]⟩ : Shape).Idx → EReal) :
    (⟨2, ![N, D]⟩ : Shape).Idx → EReal :=
  fun i => matprodAt l r (i 0) (i 1)

theorem matprod_apply {N K D : Nat} (l : (⟨2, ![N, K]⟩ : Shape).Idx → EReal) (r : (⟨2, ![K, D]⟩ : Shape).Idx → EReal)
    (n : Fin N) (j : Fin D) : matprod l r (ix2 n j) = matprodAt l r n j := rfl

end Cert.Spec

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  The first dense layer's output array after its grid has run, as one function of the arrays the grid finds.

  The grid has ten points; point t works on rows 5000·t … 5000·t + 4999. At a point the body multiplies the point's
  block of each of the four feature tables by the matching [96, 70] slice of the weight stack, adds the four products
  left to right, adds the bias row to every row, and keeps the larger of the result and zero. Entry (p, q) of that
  block therefore depends on row 5000·t + p of the four tables, column q of the four weight slices and entry q of
  the bias: it is the layer's entry at (5000·t + p, q). The ten blocks are disjoint and together hold every row, so
  the array ends holding the layer at every index.
-/
import proofs.«133635_j68539088110351_2_alg».proof.Proof.Gen.KernelIdeal.Frame
import proofs.«133635_j68539088110351_2_alg».proof.Proof.Spec
import proofs.«133635_j68539088110351_2_alg».proof.Proof.LibMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.SL.Sem Idealize.ShloMosaic.ValueIdx

/-! ## One block's entry -/

/-- The printed contraction is the plain one: rows by contraction axis times contraction axis by columns. -/
theorem dot_eq : dot_S5000x96_S96x70_S5000x70_1_0_0_1_n_n = DotDims.plain 5000 96 70 := rfl

/-- The matrix unit's product into the zero accumulator at (p, q): the sum over the contraction axis. -/
theorem mm_apply (l : FVec Ideal S5000x96 .bf16) (r : FVec Ideal S96x70 .bf16) (p : Fin 5000) (q : Fin 70) :
    matmul (F := Ideal) dot_S5000x96_S96x70_S5000x70_1_0_0_1_n_n none l r (constant S5000x70 .f32 0x00000000#32) (ix2 p q)
      = ∑ k : Fin 96, l (ix2 p k) * r (ix2 k q) := by
  rw [dot_eq]
  exact Cert.MatOps.matmul_plain_zero_apply none l r p q

/-- The body's value at (p, q), from its four row blocks, its four weight slices (each still carrying its unit
    leading axis) and its bias row. -/
theorem pay_apply (x0 x1 x2 x3 : FVec Ideal S5000x96 .bf16) (w0 w1 w2 w3 : FVec Ideal S1x96x70 .bf16) (b : FVec Ideal S1x70 .f32)
    (p : Fin 5000) (q : Fin 70) :
    k0_pay1 (F := Ideal) x0 w0 x1 w1 x2 w2 x3 w3 b (ix2 p q)
      = max (((((∑ k : Fin 96, x0 (ix2 p k) * w0 (ix3 (0 : Fin 1) k q))
                + ∑ k : Fin 96, x1 (ix2 p k) * w1 (ix3 (0 : Fin 1) k q))
              + ∑ k : Fin 96, x2 (ix2 p k) * w2 (ix3 (0 : Fin 1) k q))
            + ∑ k : Fin 96, x3 (ix2 p k) * w3 (ix3 (0 : Fin 1) k q))
          + b (ix2 (0 : Fin 1) q)) 0 := by
  unfold k0_pay1
  simp only [maximumf_apply, addf_apply, broadcast_apply, mm_apply, shapeCast_self,
    shapeCast_1ab_ab_apply, broadcastTo_1b_ab_apply, shapeCast_a_1a_apply, shapeCast_1a_a_apply,
    Ideal.ofBits_def, Ideal.ofBits_zero_f32]

theorem hz2 : (![0, 0] : Fin 2 → Nat) = fun _ => 0 := funext fun a => by fin_cases a <;> rfl

/-- Slice s of the weight stack, read through the rectangle that starts at (s, 0, 0): its entry (0, k, q) is the
    stack's entry (s, k, q). -/
theorem ld_slice (x4 : Vec Ideal S4x96x70 .bf16) (o : Nat)
    (inb : ∀ a, (![o, 0, 0] : Fin 3 → Nat) a + S1x96x70.size a ≤ S4x96x70.size a) (s : Fin 4) (hs : s.val = o)
    (k : Fin 96) (q : Fin 70) :
    View.ld x4 (Rect.unit (s := S4x96x70) ![o, 0, 0] S1x96x70.size inb) (ix3 (0 : Fin 1) k q) = x4 (ix3 s k q) := by
  show x4 _ = x4 _
  refine congrArg x4 (funext fun a => Fin.ext ?_)
  match a with
  | ⟨0, _⟩ => show o + 1 * 0 = s.val; omega
  | ⟨1, _⟩ => show 0 + 1 * k.val = k.val; omega
  | ⟨2, _⟩ => show 0 + 1 * q.val = q.val; omega

/-- What the body leaves in the output's buffer, at (p, q), from the six input blocks. -/
theorem out_apply (x0 x1 x2 x3 : Vec Ideal S5000x96 .bf16) (x4 : Vec Ideal S4x96x70 .bf16) (x5 : Vec Ideal S1x70 .f32)
    (p : Fin 5000) (q : Fin 70) :
    out0_6 (F := Ideal) x0 x1 x2 x3 x4 x5 (ix2 p q)
      = max (((((∑ k : Fin 96, x0 (ix2 p k) * x4 (ix3 (0 : Fin 4) k q))
                + ∑ k : Fin 96, x1 (ix2 p k) * x4 (ix3 (1 : Fin 4) k q))
              + ∑ k : Fin 96, x2 (ix2 p k) * x4 (ix3 (2 : Fin 4) k q))
            + ∑ k : Fin 96, x3 (ix2 p k) * x4 (ix3 (3 : Fin 4) k q))
          + x5 (ix2 (0 : Fin 1) q)) 0 := by
  unfold out0_6
  rw [View.canon_unit_zero hz2]
  simp only [View.ld_unit_zero (S := S5000x96) hz2, View.ld_unit_zero (S := S1x70) hz2]
  rw [pay_apply]
  simp only [ld_slice x4 0 inb_S4x96x70_S1x96x70_0_0_0 (0 : Fin 4) rfl, ld_slice x4 1 inb_S4x96x70_S1x96x70_1_0_0 (1 : Fin 4) rfl,
    ld_slice x4 2 inb_S4x96x70_S1x96x70_2_0_0 (2 : Fin 4) rfl, ld_slice x4 3 inb_S4x96x70_S1x96x70_3_0_0 (3 : Fin 4) rfl]

/-! ## The blocks of a point -/

/-- The printed index maps over the ten points: a feature table's and the output's block index is (t, 0); the weight
    stack's and the bias row's is zero on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of feature table 0 is row 5000·t + p of the table. -/
theorem iblk_row0 (V : (c : Dev nD) → (b : Ref sig .tc) → Buf (Elt Ideal) ((c : Thread nD τ).loc b)) (c : Dev nD) (t : Fin cfg0.N)
    (p : Fin 5000) (n : Fin 50000) (hn : n.val = t.val * 5000 + p.val) (k : Fin 96) :
    (iblk0 V c 0 t : Vec Ideal S5000x96 .bf16) (ix2 p k) = (V c main_v30 : S50000x96.Idx → EReal) (ix2 n k) := by
  have e0 : win0_0.index t (0 : Fin 2) = t.val := (idx_facts t).1
  have e1 : win0_0.index t (1 : Fin 2) = 0 := (idx_facts t).2.1
  show V c main_v30 (((cfg0.win 0).blk t).view.emb (ix2 p k)) = V c main_v30 (ix2 n k)
  refine congrArg _ (funext fun a => Fin.ext ?_)
  match a with
  | ⟨0, _⟩ => show win0_0.index t (0 : Fin 2) * 5000 + 1 * p.val = n.val; omega
  | ⟨1, _⟩ => show win0_0.index t (1 : Fin 2) * 96 + 1 * k.val = k.val; omega

/-- Row p of point t's block of feature table 1 is row 5000·t + p of the table. -/
theorem iblk_row1 (V : (c : Dev nD) → (b : Ref sig .tc) → Buf (Elt Ideal) ((c : Thread nD τ).loc b)) (c : Dev nD) (t : Fin cfg0.N)
    (p : Fin 5000) (n : Fin 50000) (hn : n.val = t.val * 5000 + p.val) (k : Fin 96) :
    (iblk0 V c 1 t : Vec Ideal S5000x96 .bf16) (ix2 p k) = (V c main_v44 : S50000x96.Idx → EReal) (ix2 n k) := by
  have e0 : win0_1.index t (0 : Fin 2) = t.val := (idx_facts t).2.2.1
  have e1 : win0_1.index t (1 : Fin 2) = 0 := (idx_facts t).2.2.2.1
  show V c main_v44 (((cfg0.win 1).blk t).view.emb (ix2 p k)) = V c main_v44 (ix2 n k)
  refine congrArg _ (funext fun a => Fin.ext ?_)
  match a with
  | ⟨0, _⟩ => show win0_1.index t (0 : Fin 2) * 5000 + 1 * p.val = n.val; omega
  | ⟨1, _⟩ => show win0_1.index t (1 : Fin 2) * 96 + 1 * k.val = k.val; omega

/-- Row p of point t's block of feature table 2 is row 5000·t + p of the table. -/
theorem iblk_row2 (V : (c : Dev nD) → (b : Ref sig .tc) → Buf (Elt Ideal) ((c : Thread nD τ).loc b)) (c : Dev nD) (t : Fin cfg0.N)
    (p : Fin 5000) (n : Fin 50000) (hn : n.val = t.val * 5000 + p.val) (k : Fin 96) :
    (iblk0 V c 2 t : Vec Ideal S5000x96 .bf16) (ix2 p k) = (V c main_v58 : S50000x96.Idx → EReal) (ix2 n k) := by
  have e0 : win0_2.index t (0 : Fin 2) = t.val := (idx_facts t).2.2.2.2.1
  have e1 : win0_2.index t (1 : Fin 2) = 0 := (idx_facts t).2.2.2.2.2.1
  show V c main_v58 (((cfg0.win 2).blk t).view.emb (ix2 p k)) = V c main_v58 (ix2 n k)
  refine congrArg _ (funext fun a => Fin.ext ?_)
  match a with
  | ⟨0, _⟩ => show win0_2.index t (0 : Fin 2) * 5000 + 1 * p.val = n.val; omega
  | ⟨1, _⟩ => show win0_2.index t (1 : Fin 2) * 96 + 1 * k.val = k.val; omega

/-- Row p of point t's block of feature table 3 is row 5000·t + p of the table. -/
theorem iblk_row3 (V : (c : Dev nD) → (b : Ref sig .tc) → Buf (Elt Ideal) ((c : Thread nD τ).loc b)) (c : Dev nD) (t : Fin cfg0.N)
    (p : Fin 5000) (n : Fin 50000) (hn : n.val = t.val * 5000 + p.val) (k : Fin 96) :
    (iblk0 V c 3 t : Vec Ideal S5000x96 .bf16) (ix2 p k) = (V c main_v72 : S50000x96.Idx → EReal) (ix2 n k) := by
  have e0 : win0_3.index t (0 : Fin 2) = t.val := (idx_facts t).2.2.2.2.2.2.1
  have e1 : win0_3.index t (1 : Fin 2) = 0 := (idx_facts t).2.2.2.2.2.2.2.1
  show V c main_v72 (((cfg0.win 3).blk t).view.emb (ix2 p k)) = V c main_v72 (ix2 n k)
  refine congrArg _ (funext fun a => Fin.ext ?_)
  match a with
  | ⟨0, _⟩ => show win0_3.index t (0 : Fin 2) * 5000 + 1 * p.val = n.val; omega
  | ⟨1, _⟩ => show win0_3.index t (1 : Fin 2) * 96 + 1 * k.val = k.val; omega

/-- The weight stack's block at any point is the whole stack. -/
theorem iblk_w (V : (c : Dev nD) → (b : Ref sig .tc) → Buf (Elt Ideal) ((c : Thread nD τ).loc b)) (c : Dev nD) (t : Fin cfg0.N)
    (s : Fin 4) (k : Fin 96) (q : Fin 70) :
    (iblk0 V c 4 t : Vec Ideal S4x96x70 .bf16) (ix3 s k q) = (V c main_v73 : S4x96x70.Idx → EReal) (ix3 s k q) := by
  obtain ⟨-, -, -, -, -, -, -, -, e0, e1, e2, -⟩ := idx_facts t
  show V c main_v73 (((cfg0.win 4).blk t).view.emb (ix3 s k q)) = V c main_v73 (ix3 s k q)
  refine congrArg _ (funext fun a => Fin.ext ?_)
  match a with
  | ⟨0, _⟩ => show win0_4.index t (0 : Fin 3) * 4 + 1 * s.val = s.val; omega
  | ⟨1, _⟩ => show win0_4.index t (1 : Fin 3) * 96 + 1 * k.val = k.val; omega
  | ⟨2, _⟩ => show win0_4.index t (2 : Fin 3) * 70 + 1 * q.val = q.val; omega

/-- The bias row's block at any point is the whole row. -/
theorem iblk_b (V : (c : Dev nD) → (b : Ref sig .tc) → Buf (Elt Ideal) ((c : Thread nD τ).loc b)) (c : Dev nD) (t : Fin cfg0.N) (q : Fin 70) :
    (iblk0 V c 5 t : Vec Ideal S1x70 .f32) (ix2 (0 : Fin 1) q) = (V c main_v74 : S1x70.Idx → EReal) (ix2 (0 : Fin 1) q) := by
  obtain ⟨-, -, -, -, -, -, -, -, -, -, -, e0, e1, -⟩ := idx_facts t
  show V c main_v74 (((cfg0.win 5).blk t).view.emb (ix2 (0 : Fin 1) q)) = V c main_v74 (ix2 (0 : Fin 1) q)
  refine congrArg _ (funext fun a => Fin.ext ?_)
  match a with
  | ⟨0, _⟩ => show win0_5.index t (0 : Fin 2) * 1 + 1 * 0 = 0; omega
  | ⟨1, _⟩ => show win0_5.index t (1 : Fin 2) * 70 + 1 * q.val = q.val; omega

/-- Entry (p, q) of point t's output block sits at (5000·t + p, q) of the output array. -/
theorem emb_out (t : Fin cfg0.N) (p : Fin 5000) (q : Fin 70) (n : Fin 50000) (hn : n.val = t.val * 5000 + p.val) :
    ((cfg0.win 6).blk t).view.emb (ix2 p q) = (ix2 n q : S50000x70.Idx) := by
  obtain ⟨-, -, -, -, -, -, -, -, -, -, -, -, -, e0, e1⟩ := idx_facts t
  refine funext fun a => Fin.ext ?_
  match a with
  | ⟨0, _⟩ => show win0_6.index t (0 : Fin 2) * 5000 + 1 * p.val = n.val; omega
  | ⟨1, _⟩ => show win0_6.index t (1 : Fin 2) * 70 + 1 * q.val = q.val; omega

/-! ## From the blocks to the array -/

/-- What point t writes back is block t of the layer of the arrays the grid finds. -/
theorem flushed_eq (V : (c : Dev nD) → (b : Ref sig .tc) → Buf (Elt Ideal) ((c : Thread nD τ).loc b)) (c : Dev nD) (t : Fin cfg0.N) :
    (dat0 (F := Ideal) V c).flushed 6 t
      = ((cfg0.win 6).blk t).view.read (Elt Ideal) (Cert.Spec.layer (V c main_v30) (V c main_v44) (V c main_v58) (V c main_v72) (V c main_v73)
          (fun j => V c main_v74 (ix2 (0 : Fin 1) j))) := by
  show (cfg0.win 6).cut (grid0.coords t) ((dat0 V c).after 6 t) = _
  rw [after0_6]
  funext j
  obtain ⟨p, q, rfl⟩ : ∃ (p : Fin 5000) (q : Fin 70), j = ix2 p q := ⟨j 0, j 1, eq_ix2 j⟩
  have ht : t.val < 10 := lt_of_lt_of_eq t.isLt N_0
  have hn : t.val * 5000 + p.val < 50000 := by have := p.isLt; omega
  refine (out_apply (iblk0 V c 0 t) (iblk0 V c 1 t) (iblk0 V c 2 t) (iblk0 V c 3 t) (iblk0 V c 4 t) (iblk0 V c 5 t) p q).trans ?_
  show _ = Cert.Spec.layer (V c main_v30) (V c main_v44) (V c main_v58) (V c main_v72) (V c main_v73)
      (fun j => V c main_v74 (ix2 (0 : Fin 1) j)) (((cfg0.win 6).blk t).view.emb (ix2 p q))
  rw [emb_out t p q ⟨t.val * 5000 + p.val, hn⟩ rfl, Cert.Spec.layer_apply]
  unfold Cert.Spec.layerAt
  simp only [iblk_row0 V c t p ⟨t.val * 5000 + p.val, hn⟩ rfl, iblk_row1 V c t p ⟨t.val * 5000 + p.val, hn⟩ rfl,
    iblk_row2 V c t p ⟨t.val * 5000 + p.val, hn⟩ rfl, iblk_row3 V c t p ⟨t.val * 5000 + p.val, hn⟩ rfl,
    iblk_w V c t, iblk_b V c t]

/-- An index of the output array is in point t's block iff each coordinate is in the block's range on its axis. -/
theorem mem_blk (t : Fin cfg0.N) (i : S50000x70.Idx) :
    i ∈ ((cfg0.win 6).blk t).view.set ↔ ∀ a : Fin 2, win0_6.index t a * S5000x70.size a ≤ (i a).val ∧ (i a).val < win0_6.index t a * S5000x70.size a + S5000x70.size a := by
  show i ∈ ((View.whole main_v75).slice (win0_6.rect t)).set ↔ _
  rw [View.set_slice_whole, Rect.mem_set_unit]
  exact Iff.rfl

/-- Row r of the output array is in the block of point r / 5000, and every point writes its block back. -/
theorem cover (i : S50000x70.Idx) :
    ∃ t : Fin cfg0.N, (cfg0.win 6).flush t = true ∧ i ∈ ((cfg0.win 6).blk t).view.set := by
  have h0 : (i 0).val < 50000 := (i 0).isLt
  have h1 : (i 1).val < 70 := (i 1).isLt
  have hN : grid0.N = 10 := N_0
  have ht : (i 0).val / 5000 < grid0.N := by omega
  obtain ⟨-, -, -, -, -, -, -, -, -, -, -, -, -, e0, e1⟩ := idx_facts (⟨(i 0).val / 5000, ht⟩ : Fin grid0.N)
  have e0' : win0_6.index (⟨(i 0).val / 5000, ht⟩ : Fin grid0.N) (0 : Fin 2) = (i 0).val / 5000 := e0
  refine ⟨⟨(i 0).val / 5000, ht⟩, flush0_6 _, ?_⟩
  rw [mem_blk]
  intro a
  match a with
  | ⟨0, _⟩ => show win0_6.index _ (0 : Fin 2) * 5000 ≤ (i 0).val ∧ (i 0).val < win0_6.index _ (0 : Fin 2) * 5000 + 5000; omega
  | ⟨1, _⟩ => show win0_6.index _ (1 : Fin 2) * 70 ≤ (i 1).val ∧ (i 1).val < win0_6.index _ (1 : Fin 2) * 70 + 70; omega

/-- The output array after the grid has run is the layer of the arrays the grid finds. -/
theorem final (V : (c : Dev nD) → (b : Ref sig .tc) → Buf (Elt Ideal) ((c : Thread nD τ).loc b)) (c : Dev nD) :
    (dat0 (F := Ideal) V c).arrAt 6 cfg0.N
      = Cert.Spec.layer (V c main_v30) (V c main_v44) (V c main_v58) (V c main_v72) (V c main_v73)
          (fun j => V c main_v74 (ix2 (0 : Fin 1) j)) :=
  (dat0 (F := Ideal) V c).arrAt_eq_of_cover 6 _ (fun t _ => flushed_eq V c t) cover

end Cert.KernelIdeal.Region0

end
-- ==== Proof.Region1.lean ====
/-
  The second dense layer's output array after its grid has run, as one function of the arrays the grid finds.

  The grid has ten points; point t works on rows 5000·t … 5000·t + 4999. At a point the body multiplies the point's
  block of each of the four feature tables by the matching [70, 43] slice of the weight stack, adds the four products
  left to right, adds the bias row to every row, and keeps the larger of the result and zero. Entry (p, q) of that
  block therefore depends on row 5000·t + p of the four tables, column q of the four weight slices and entry q of
  the bias: it is the layer's entry at (5000·t + p, q). The ten blocks are disjoint and together hold every row, so
  the array ends holding the layer at every index.
-/
import proofs.«133635_j68539088110351_2_alg».proof.Proof.Gen.KernelIdeal.Frame
import proofs.«133635_j68539088110351_2_alg».proof.Proof.Spec
import proofs.«133635_j68539088110351_2_alg».proof.Proof.LibMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.SL.Sem Idealize.ShloMosaic.ValueIdx

/-! ## One block's entry -/

/-- The printed contraction is the plain one: rows by contraction axis times contraction axis by columns. -/
theorem dot_eq : dot_S5000x70_S70x43_S5000x43_1_0_0_1_n_n = DotDims.plain 5000 70 43 := rfl

/-- The matrix unit's product into the zero accumulator at (p, q): the sum over the contraction axis. -/
theorem mm_apply (l : FVec Ideal S5000x70 .bf16) (r : FVec Ideal S70x43 .bf16) (p : Fin 5000) (q : Fin 43) :
    matmul (F := Ideal) dot_S5000x70_S70x43_S5000x43_1_0_0_1_n_n none l r (constant S5000x43 .f32 0x00000000#32) (ix2 p q)
      = ∑ k : Fin 70, l (ix2 p k) * r (ix2 k q) := by
  rw [dot_eq]
  exact Cert.MatOps.matmul_plain_zero_apply none l r p q

/-- The body's value at (p, q), from its four row blocks, its four weight slices (each still carrying its unit
    leading axis) and its bias row. -/
theorem pay_apply (x0 x1 x2 x3 : FVec Ideal S5000x70 .bf16) (w0 w1 w2 w3 : FVec Ideal S1x70x43 .bf16) (b : FVec Ideal S1x43 .f32)
    (p : Fin 5000) (q : Fin 43) :
    k1_pay1 (F := Ideal) x0 w0 x1 w1 x2 w2 x3 w3 b (ix2 p q)
      = max (((((∑ k : Fin 70, x0 (ix2 p k) * w0 (ix3 (0 : Fin 1) k q))
                + ∑ k : Fin 70, x1 (ix2 p k) * w1 (ix3 (0 : Fin 1) k q))
              + ∑ k : Fin 70, x2 (ix2 p k) * w2 (ix3 (0 : Fin 1) k q))
            + ∑ k : Fin 70, x3 (ix2 p k) * w3 (ix3 (0 : Fin 1) k q))
          + b (ix2 (0 : Fin 1) q)) 0 := by
  unfold k1_pay1
  simp only [maximumf_apply, addf_apply, broadcast_apply, mm_apply, shapeCast_self,
    shapeCast_1ab_ab_apply, broadcastTo_1b_ab_apply, shapeCast_a_1a_apply, shapeCast_1a_a_apply,
    Ideal.ofBits_def, Ideal.ofBits_zero_f32]

theorem hz2 : (![0, 0] : Fin 2 → Nat) = fun _ => 0 := funext fun a => by fin_cases a <;> rfl

/-- Slice s of the weight stack, read through the rectangle that starts at (s, 0, 0): its entry (0, k, q) is the
    stack's entry (s, k, q). -/
theorem ld_slice (x4 : Vec Ideal S4x70x43 .bf16) (o : Nat)
    (inb : ∀ a, (![o, 0, 0] : Fin 3 → Nat) a + S1x70x43.size a ≤ S4x70x43.size a) (s : Fin 4) (hs : s.val = o)
    (k : Fin 70) (q : Fin 43) :
    View.ld x4 (Rect.unit (s := S4x70x43) ![o, 0, 0] S1x70x43.size inb) (ix3 (0 : Fin 1) k q) = x4 (ix3 s k q) := by
  show x4 _ = x4 _
  refine congrArg x4 (funext fun a => Fin.ext ?_)
  match a with
  | ⟨0, _⟩ => show o + 1 * 0 = s.val; omega
  | ⟨1, _⟩ => show 0 + 1 * k.val = k.val; omega
  | ⟨2, _⟩ => show 0 + 1 * q.val = q.val; omega

/-- What the body leaves in the output's buffer, at (p, q), from the six input blocks. -/
theorem out_apply (x0 x1 x2 x3 : Vec Ideal S5000x70 .bf16) (x4 : Vec Ideal S4x70x43 .bf16) (x5 : Vec Ideal S1x43 .f32)
    (p : Fin 5000) (q : Fin 43) :
    out1_6 (F := Ideal) x0 x1 x2 x3 x4 x5 (ix2 p q)
      = max (((((∑ k : Fin 70, x0 (ix2 p k) * x4 (ix3 (0 : Fin 4) k q))
                + ∑ k : Fin 70, x1 (ix2 p k) * x4 (ix3 (1 : Fin 4) k q))
              + ∑ k : Fin 70, x2 (ix2 p k) * x4 (ix3 (2 : Fin 4) k q))
            + ∑ k : Fin 70, x3 (ix2 p k) * x4 (ix3 (3 : Fin 4) k q))
          + x5 (ix2 (0 : Fin 1) q)) 0 := by
  unfold out1_6
  rw [View.canon_unit_zero hz2]
  simp only [View.ld_unit_zero (S := S5000x70) hz2, View.ld_unit_zero (S := S1x43) hz2]
  rw [pay_apply]
  simp only [ld_slice x4 0 inb_S4x70x43_S1x70x43_0_0_0 (0 : Fin 4) rfl, ld_slice x4 1 inb_S4x70x43_S1x70x43_1_0_0 (1 : Fin 4) rfl,
    ld_slice x4 2 inb_S4x70x43_S1x70x43_2_0_0 (2 : Fin 4) rfl, ld_slice x4 3 inb_S4x70x43_S1x70x43_3_0_0 (3 : Fin 4) rfl]

/-! ## The blocks of a point -/

/-- The printed index maps over the ten points: a feature table's and the output's block index is (t, 0); the weight
    stack's and the bias row's is zero on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of feature table 0 is row 5000·t + p of the table. -/
theorem iblk_row0 (V : (c : Dev nD) → (b : Ref sig .tc) → Buf (Elt Ideal) ((c : Thread nD τ).loc b)) (c : Dev nD) (t : Fin cfg1.N)
    (p : Fin 5000) (n : Fin 50000) (hn : n.val = t.val * 5000 + p.val) (k : Fin 70) :
    (iblk1 V c 0 t : Vec Ideal S5000x70 .bf16) (ix2 p k) = (V c main_v76 : S50000x70.Idx → EReal) (ix2 n k) := by
  have e0 : win1_0.index t (0 : Fin 2) = t.val := (idx_facts t).1
  have e1 : win1_0.index t (1 : Fin 2) = 0 := (idx_facts t).2.1
  show V c main_v76 (((cfg1.win 0).blk t).view.emb (ix2 p k)) = V c main_v76 (ix2 n k)
  refine congrArg _ (funext fun a => Fin.ext ?_)
  match a with
  | ⟨0, _⟩ => show win1_0.index t (0 : Fin 2) * 5000 + 1 * p.val = n.val; omega
  | ⟨1, _⟩ => show win1_0.index t (1 : Fin 2) * 70 + 1 * k.val = k.val; omega

/-- Row p of point t's block of feature table 1 is row 5000·t + p of the table. -/
theorem iblk_row1 (V : (c : Dev nD) → (b : Ref sig .tc) → Buf (Elt Ideal) ((c : Thread nD τ).loc b)) (c : Dev nD) (t : Fin cfg1.N)
    (p : Fin 5000) (n : Fin 50000) (hn : n.val = t.val * 5000 + p.val) (k : Fin 70) :
    (iblk1 V c 1 t : Vec Ideal S5000x70 .bf16) (ix2 p k) = (V c main_v90 : S50000x70.Idx → EReal) (ix2 n k) := by
  have e0 : win1_1.index t (0 : Fin 2) = t.val := (idx_facts t).2.2.1
  have e1 : win1_1.index t (1 : Fin 2) = 0 := (idx_facts t).2.2.2.1
  show V c main_v90 (((cfg1.win 1).blk t).view.emb (ix2 p k)) = V c main_v90 (ix2 n k)
  refine congrArg _ (funext fun a => Fin.ext ?_)
  match a with
  | ⟨0, _⟩ => show win1_1.index t (0 : Fin 2) * 5000 + 1 * p.val = n.val; omega
  | ⟨1, _⟩ => show win1_1.index t (1 : Fin 2) * 70 + 1 * k.val = k.val; omega

/-- Row p of point t's block of feature table 2 is row 5000·t + p of the table. -/
theorem iblk_row2 (V : (c : Dev nD) → (b : Ref sig .tc) → Buf (Elt Ideal) ((c : Thread nD τ).loc b)) (c : Dev nD) (t : Fin cfg1.N)
    (p : Fin 5000) (n : Fin 50000) (hn : n.val = t.val * 5000 + p.val) (k : Fin 70) :
    (iblk1 V c 2 t : Vec Ideal S5000x70 .bf16) (ix2 p k) = (V c main_v104 : S50000x70.Idx → EReal) (ix2 n k) := by
  have e0 : win1_2.index t (0 : Fin 2) = t.val := (idx_facts t).2.2.2.2.1
  have e1 : win1_2.index t (1 : Fin 2) = 0 := (idx_facts t).2.2.2.2.2.1
  show V c main_v104 (((cfg1.win 2).blk t).view.emb (ix2 p k)) = V c main_v104 (ix2 n k)
  refine congrArg _ (funext fun a => Fin.ext ?_)
  match a with
  | ⟨0, _⟩ => show win1_2.index t (0 : Fin 2) * 5000 + 1 * p.val = n.val; omega
  | ⟨1, _⟩ => show win1_2.index t (1 : Fin 2) * 70 + 1 * k.val = k.val; omega

/-- Row p of point t's block of feature table 3 is row 5000·t + p of the table. -/
theorem iblk_row3 (V : (c : Dev nD) → (b : Ref sig .tc) → Buf (Elt Ideal) ((c : Thread nD τ).loc b)) (c : Dev nD) (t : Fin cfg1.N)
    (p : Fin 5000) (n : Fin 50000) (hn : n.val = t.val * 5000 + p.val) (k : Fin 70) :
    (iblk1 V c 3 t : Vec Ideal S5000x70 .bf16) (ix2 p k) = (V c main_v118 : S50000x70.Idx → EReal) (ix2 n k) := by
  have e0 : win1_3.index t (0 : Fin 2) = t.val := (idx_facts t).2.2.2.2.2.2.1
  have e1 : win1_3.index t (1 : Fin 2) = 0 := (idx_facts t).2.2.2.2.2.2.2.1
  show V c main_v118 (((cfg1.win 3).blk t).view.emb (ix2 p k)) = V c main_v118 (ix2 n k)
  refine congrArg _ (funext fun a => Fin.ext ?_)
  match a with
  | ⟨0, _⟩ => show win1_3.index t (0 : Fin 2) * 5000 + 1 * p.val = n.val; omega
  | ⟨1, _⟩ => show win1_3.index t (1 : Fin 2) * 70 + 1 * k.val = k.val; omega

/-- The weight stack's block at any point is the whole stack. -/
theorem iblk_w (V : (c : Dev nD) → (b : Ref sig .tc) → Buf (Elt Ideal) ((c : Thread nD τ).loc b)) (c : Dev nD) (t : Fin cfg1.N)
    (s : Fin 4) (k : Fin 70) (q : Fin 43) :
    (iblk1 V c 4 t : Vec Ideal S4x70x43 .bf16) (ix3 s k q) = (V c main_v119 : S4x70x43.Idx → EReal) (ix3 s k q) := by
  obtain ⟨-, -, -, -, -, -, -, -, e0, e1, e2, -⟩ := idx_facts t
  show V c main_v119 (((cfg1.win 4).blk t).view.emb (ix3 s k q)) = V c main_v119 (ix3 s k q)
  refine congrArg _ (funext fun a => Fin.ext ?_)
  match a with
  | ⟨0, _⟩ => show win1_4.index t (0 : Fin 3) * 4 + 1 * s.val = s.val; omega
  | ⟨1, _⟩ => show win1_4.index t (1 : Fin 3) * 70 + 1 * k.val = k.val; omega
  | ⟨2, _⟩ => show win1_4.index t (2 : Fin 3) * 43 + 1 * q.val = q.val; omega

/-- The bias row's block at any point is the whole row. -/
theorem iblk_b (V : (c : Dev nD) → (b : Ref sig .tc) → Buf (Elt Ideal) ((c : Thread nD τ).loc b)) (c : Dev nD) (t : Fin cfg1.N) (q : Fin 43) :
    (iblk1 V c 5 t : Vec Ideal S1x43 .f32) (ix2 (0 : Fin 1) q) = (V c main_v120 : S1x43.Idx → EReal) (ix2 (0 : Fin 1) q) := by
  obtain ⟨-, -, -, -, -, -, -, -, -, -, -, e0, e1, -⟩ := idx_facts t
  show V c main_v120 (((cfg1.win 5).blk t).view.emb (ix2 (0 : Fin 1) q)) = V c main_v120 (ix2 (0 : Fin 1) q)
  refine congrArg _ (funext fun a => Fin.ext ?_)
  match a with
  | ⟨0, _⟩ => show win1_5.index t (0 : Fin 2) * 1 + 1 * 0 = 0; omega
  | ⟨1, _⟩ => show win1_5.index t (1 : Fin 2) * 43 + 1 * q.val = q.val; omega

/-- Entry (p, q) of point t's output block sits at (5000·t + p, q) of the output array. -/
theorem emb_out (t : Fin cfg1.N) (p : Fin 5000) (q : Fin 43) (n : Fin 50000) (hn : n.val = t.val * 5000 + p.val) :
    ((cfg1.win 6).blk t).view.emb (ix2 p q) = (ix2 n q : S50000x43.Idx) := by
  obtain ⟨-, -, -, -, -, -, -, -, -, -, -, -, -, e0, e1⟩ := idx_facts t
  refine funext fun a => Fin.ext ?_
  match a with
  | ⟨0, _⟩ => show win1_6.index t (0 : Fin 2) * 5000 + 1 * p.val = n.val; omega
  | ⟨1, _⟩ => show win1_6.index t (1 : Fin 2) * 43 + 1 * q.val = q.val; omega

/-! ## From the blocks to the array -/

/-- What point t writes back is block t of the layer of the arrays the grid finds. -/
theorem flushed_eq (V : (c : Dev nD) → (b : Ref sig .tc) → Buf (Elt Ideal) ((c : Thread nD τ).loc b)) (c : Dev nD) (t : Fin cfg1.N) :
    (dat1 (F := Ideal) V c).flushed 6 t
      = ((cfg1.win 6).blk t).view.read (Elt Ideal) (Cert.Spec.layer (V c main_v76) (V c main_v90) (V c main_v104) (V c main_v118) (V c main_v119)
          (fun j => V c main_v120 (ix2 (0 : Fin 1) j))) := by
  show (cfg1.win 6).cut (grid1.coords t) ((dat1 V c).after 6 t) = _
  rw [after1_6]
  funext j
  obtain ⟨p, q, rfl⟩ : ∃ (p : Fin 5000) (q : Fin 43), j = ix2 p q := ⟨j 0, j 1, eq_ix2 j⟩
  have ht : t.val < 10 := lt_of_lt_of_eq t.isLt N_1
  have hn : t.val * 5000 + p.val < 50000 := by have := p.isLt; omega
  refine (out_apply (iblk1 V c 0 t) (iblk1 V c 1 t) (iblk1 V c 2 t) (iblk1 V c 3 t) (iblk1 V c 4 t) (iblk1 V c 5 t) p q).trans ?_
  show _ = Cert.Spec.layer (V c main_v76) (V c main_v90) (V c main_v104) (V c main_v118) (V c main_v119)
      (fun j => V c main_v120 (ix2 (0 : Fin 1) j)) (((cfg1.win 6).blk t).view.emb (ix2 p q))
  rw [emb_out t p q ⟨t.val * 5000 + p.val, hn⟩ rfl, Cert.Spec.layer_apply]
  unfold Cert.Spec.layerAt
  simp only [iblk_row0 V c t p ⟨t.val * 5000 + p.val, hn⟩ rfl, iblk_row1 V c t p ⟨t.val * 5000 + p.val, hn⟩ rfl,
    iblk_row2 V c t p ⟨t.val * 5000 + p.val, hn⟩ rfl, iblk_row3 V c t p ⟨t.val * 5000 + p.val, hn⟩ rfl,
    iblk_w V c t, iblk_b V c t]

/-- An index of the output array is in point t's block iff each coordinate is in the block's range on its axis. -/
theorem mem_blk (t : Fin cfg1.N) (i : S50000x43.Idx) :
    i ∈ ((cfg1.win 6).blk t).view.set ↔ ∀ a : Fin 2, win1_6.index t a * S5000x43.size a ≤ (i a).val ∧ (i a).val < win1_6.index t a * S5000x43.size a + S5000x43.size a := by
  show i ∈ ((View.whole main_v121).slice (win1_6.rect t)).set ↔ _
  rw [View.set_slice_whole, Rect.mem_set_unit]
  exact Iff.rfl

/-- Row r of the output array is in the block of point r / 5000, and every point writes its block back. -/
theorem cover (i : S50000x43.Idx) :
    ∃ t : Fin cfg1.N, (cfg1.win 6).flush t = true ∧ i ∈ ((cfg1.win 6).blk t).view.set := by
  have h0 : (i 0).val < 50000 := (i 0).isLt
  have h1 : (i 1).val < 43 := (i 1).isLt
  have hN : grid1.N = 10 := N_1
  have ht : (i 0).val / 5000 < grid1.N := by omega
  obtain ⟨-, -, -, -, -, -, -, -, -, -, -, -, -, e0, e1⟩ := idx_facts (⟨(i 0).val / 5000, ht⟩ : Fin grid1.N)
  have e0' : win1_6.index (⟨(i 0).val / 5000, ht⟩ : Fin grid1.N) (0 : Fin 2) = (i 0).val / 5000 := e0
  refine ⟨⟨(i 0).val / 5000, ht⟩, flush1_6 _, ?_⟩
  rw [mem_blk]
  intro a
  match a with
  | ⟨0, _⟩ => show win1_6.index _ (0 : Fin 2) * 5000 ≤ (i 0).val ∧ (i 0).val < win1_6.index _ (0 : Fin 2) * 5000 + 5000; omega
  | ⟨1, _⟩ => show win1_6.index _ (1 : Fin 2) * 43 ≤ (i 1).val ∧ (i 1).val < win1_6.index _ (1 : Fin 2) * 43 + 43; omega

/-- The output array after the grid has run is the layer of the arrays the grid finds. -/
theorem final (V : (c : Dev nD) → (b : Ref sig .tc) → Buf (Elt Ideal) ((c : Thread nD τ).loc b)) (c : Dev nD) :
    (dat1 (F := Ideal) V c).arrAt 6 cfg1.N
      = Cert.Spec.layer (V c main_v76) (V c main_v90) (V c main_v104) (V c main_v118) (V c main_v119)
          (fun j => V c main_v120 (ix2 (0 : Fin 1) j)) :=
  (dat1 (F := Ideal) V c).arrAt_eq_of_cover 6 _ (fun t _ => flushed_eq V c t) cover

end Cert.KernelIdeal.Region1

end
-- ==== Proof.Region2.lean ====
/-
  The third region: ten grid points, point `t` multiplying rows `5000 t … 5000 t + 4999` of a [50000, 43] table by
  one [43, 32] matrix and writing the product to the same rows of a [50000, 32] table. Read entry by entry at the
  ideal values, the table the region leaves is the matrix product of the two tables it found: entry `(n, j)` is the
  sum over `k` of `left(n, k) · right(k, j)`.

  The steps: the body's payload at an index of a block (a matrix product into the zero accumulator is a sum over the
  contracted coordinate); the three windows' block indices at a grid point (the left and the result windows move with
  the point along the rows, the right window stays); an input block's entry as an entry of its table; what a point
  writes back as the block of the product; every row lies in the block of the point `row / 5000`; so the blocks
  cover the table and the table ends holding the product.
-/
import proofs.«133635_j68539088110351_2_alg».proof.Proof.Gen.KernelIdeal.Frame
import proofs.«133635_j68539088110351_2_alg».proof.Proof.Spec
import proofs.«133635_j68539088110351_2_alg».proof.Proof.LibMatmul
import Idealize.ShloMosaic.PureOps.Ideal
import Idealize.ShloMosaic.Lib.ValueIdx
import Idealize.ShloMosaic.Lib.Pipeline.Value

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

theorem zeroOffsets : (![0, 0] : Fin 2 → Nat) = fun _ => 0 := funext fun a => by fin_cases a <;> rfl

/-! ## The body's payload at an index -/

/-- The payload at `(p, q)`: the sum over `k` of `left(p, k) · right(k, q)` (the two casts are to the operands' own
    shapes; the accumulator is the zero constant). -/
theorem payload_apply (x0 : Vec Ideal S5000x43 .bf16) (x1 : Vec Ideal S43x32 .bf16) (p : Fin 5000) (q : Fin 32) :
    k2_pay1 (F := Ideal) x0 x1 (ix2 p q) = ∑ k : Fin 43, x0 (ix2 p k) * x1 (ix2 k q) := by
  unfold k2_pay1
  rw [shapeCast_self, shapeCast_self]
  exact Cert.MatOps.matmul_plain_zero_apply none x0 x1 p q

/-! ## The windows' block indices -/

/-- At grid point `t` the left and the result windows are at row block `t`, column block 0; the right window is at
    block (0, 0) (decided over the ten points). -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-! ## The input blocks as entries of their tables -/

/-- The left block at point `t`: its entry `(p, k)` is the table's entry `(5000 t + p, k)`. -/
theorem leftBlock_apply (c : Dev nD) (t : Fin cfg2.N) (x : S5000x43.Idx) (n : S50000x43.Idx)
    (h0 : (n 0).val = t.val * 5000 + (x 0).val) (h1 : (n 1).val = (x 1).val) :
    (iblk2 V c 0 t : Vec Ideal S5000x43 .bf16) x = (V c main_v127 : S50000x43.Idx → EReal) n := by
  obtain ⟨e0, e1, -, -, -, -⟩ := blockIndex t
  unfold iblk2
  rw [View.read_apply]
  show V c main_v127 _ = V c main_v127 _
  congr 1
  funext a
  apply Fin.ext
  match a with
  | ⟨0, _⟩ => show win2_0.index t (0 : Fin 2) * 5000 + 1 * (x 0).val = (n 0).val; rw [e0, h0]; omega
  | ⟨1, _⟩ => show win2_0.index t (1 : Fin 2) * 43 + 1 * (x 1).val = (n 1).val; rw [e1, h1]; omega

/-- The right block at every point is the whole right table. -/
theorem rightBlock_apply (c : Dev nD) (t : Fin cfg2.N) (x : S43x32.Idx) :
    (iblk2 V c 1 t : Vec Ideal S43x32 .bf16) x = (V c main_v126 : S43x32.Idx → EReal) x := by
  obtain ⟨-, -, e2, e3, -, -⟩ := blockIndex t
  unfold iblk2
  rw [View.read_apply]
  show V c main_v126 _ = V c main_v126 _
  congr 1
  funext a
  apply Fin.ext
  match a with
  | ⟨0, _⟩ => show win2_1.index t (0 : Fin 2) * 43 + 1 * (x 0).val = (x 0).val; rw [e2]; omega
  | ⟨1, _⟩ => show win2_1.index t (1 : Fin 2) * 32 + 1 * (x 1).val = (x 1).val; rw [e3]; omega

/-! ## What a point writes back -/

/-- The product of a row block of the left table by the right table is that row block of the product: stated over
    any two blocks whose entries are the tables' entries at row offset `s`. -/
theorem blockProduct (A : S50000x43.Idx → EReal) (B : S43x32.Idx → EReal)
    (x0 : Vec Ideal S5000x43 .bf16) (x1 : Vec Ideal S43x32 .bf16) (s : Nat)
    (hA : ∀ (x : S5000x43.Idx) (n : S50000x43.Idx), (n 0).val = s * 5000 + (x 0).val → (n 1).val = (x 1).val → x0 x = A n)
    (hB : ∀ x : S43x32.Idx, x1 x = B x)
    (j : S5000x32.Idx) (i : S50000x32.Idx) (hi0 : (i 0).val = s * 5000 + (j 0).val) (hi1 : (i 1).val = (j 1).val) :
    k2_pay1 (F := Ideal) x0 x1 j = Cert.Spec.matprod A B i := by
  obtain ⟨p, q, rfl⟩ : ∃ (p : Fin 5000) (q : Fin 32), j = ix2 p q := ⟨j 0, j 1, eq_ix2 j⟩
  obtain ⟨n, q', rfl⟩ : ∃ (n : Fin 50000) (q' : Fin 32), i = ix2 n q' := ⟨i 0, i 1, eq_ix2 i⟩
  obtain rfl : q' = q := Fin.ext hi1
  rw [payload_apply, Cert.Spec.matprod_apply]
  unfold Cert.Spec.matprodAt
  refine Finset.sum_congr rfl fun k _ => ?_
  rw [hA (ix2 p k) (ix2 n k) hi0 rfl, hB]

/-- What point `t` writes back is block `t` of the product of the two tables the region found. -/
theorem flushed_eq (c : Dev nD) (t : Fin cfg2.N) :
    (dat2 (F := Ideal) V c).flushed 2 t
      = ((cfg2.win 2).blk t).view.read (Elt Ideal) (Cert.Spec.matprod (V c main_v127) (V c main_v126)) := by
  show (cfg2.win 2).cut (grid2.coords t) ((dat2 V c).after 2 t) = _
  rw [after2_2]
  unfold out2_2
  rw [View.canon_unit_zero zeroOffsets]
  simp only [View.ld_unit_zero (S := S5000x43) zeroOffsets, View.ld_unit_zero (S := S43x32) zeroOffsets]
  obtain ⟨-, -, -, -, e4, e5⟩ := blockIndex t
  funext j
  refine blockProduct (V c main_v127) (V c main_v126) (iblk2 V c 0 t) (iblk2 V c 1 t) t.val
    (fun x n h0 h1 => leftBlock_apply V c t x n h0 h1) (fun x => rightBlock_apply V c t x) j
    (((cfg2.win 2).blk t).view.emb j) ?_ ?_
  · show win2_2.index t (0 : Fin 2) * 5000 + 1 * (j 0).val = t.val * 5000 + (j 0).val; rw [e4]; omega
  · show win2_2.index t (1 : Fin 2) * 32 + 1 * (j 1).val = (j 1).val; rw [e5]; omega

/-! ## The blocks cover the table -/

/-- An index of the result table is in point `t`'s block iff each coordinate is in the block's range on its axis. -/
theorem mem_block (t : Fin cfg2.N) (i : S50000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v128).slice (win2_2.rect t)).set ↔ _
  rw [View.set_slice_whole, Rect.mem_set_unit]
  exact Iff.rfl

/-- Row `r` is in the block of point `r / 5000`. -/
theorem covered (i : S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  have hN : cfg2.N = 10 := N_2
  have ht : (i 0).val / 5000 < cfg2.N := by rw [hN]; omega
  obtain ⟨-, -, -, -, e4, e5⟩ := blockIndex ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 32 ≤ (i 1).val
      ∧ (i 1).val < win2_2.index ⟨(i 0).val / 5000, ht⟩ (1 : Fin 2) * 32 + 32
    rw [e5]; omega

/-! ## The table the region leaves -/

/-- After the ten points the result table holds the product of the two tables the region found. -/
theorem final (c : Dev nD) :
    (dat2 (F := Ideal) V c).arrAt 2 cfg2.N = Cert.Spec.matprod (V c main_v127) (V c main_v126) :=
  (dat2 (F := Ideal) V c).arrAt_eq_of_cover 2 (Cert.Spec.matprod (V c main_v127) (V c main_v126))
    (fun t _ => flushed_eq V c t) covered

end Cert.KernelIdeal.Region2

end
-- ==== Proof.RefLayers.lean ====
/-
  Four stages of the reference, entry by entry: its two dense layers and its two final projections are the
  specification's `layer` and `matprod`.

  A layer of the reference is four matrix products — four feature tables over the same rows, each against one
  slice of a stack of four weight matrices — added left to right, then a bias spread over the rows, then the
  maximum with a table of zeros. Read at row `n` and column `j`, every product is a sum over the shared
  inner index `k` of a left entry at `(n, k)` and a stacked weight at `(s, k, j)`, which is exactly the
  specification's entry. How the three further tables of a layer are computed plays no part: they enter only as
  tables.
-/
import proofs.«133635_j68539088110351_2_alg».proof.Proof.ReadP
import proofs.«133635_j68539088110351_2_alg».proof.Proof.Spec
import Idealize.ShloMosaic.PureOps.Ideal

noncomputable section

open scoped BigOperators

namespace Cert.ReferenceIdeal.Layers

open Cert.ReferenceIdeal Cert.ReferenceIdeal.Read Idealize.ShloMosaic Idealize.ShloMosaic.ValueIdx

/-! ### The four weight matrices of each layer

Each product's right factor is one slice of the stacked weights along the first axis, seen as a matrix. Its entry at
row `k` and column `j` is the stack's entry at `(s, k, j)`: flattening `(k, j)` row by row and splitting again
by the column count gives back `k` and `j`. -/

theorem weight1_0 (a2 : (⟨S4x96x70, .f32⟩ : BufTy).Contents (Elt Ideal)) (n : Fin 50000) (j : Fin 70) (k : Fin 96) :
    val_main_v30 (F := Ideal) a2 (ridx_main_v31 (ix2 n j) k) = a2 (ix3 (0 : Fin 4) k j) := by
  rw [val_main_v30_apply, val_main_v29_apply]
  refine congrArg a2 (funext fun a => Fin.ext ?_)
  match a with
  | ⟨0, _⟩ => rfl
  | ⟨1, _⟩ => have hk := k.isLt; have hj := j.isLt; show (k.val * 70 + j.val) / 70 % 96 = k.val; omega
  | ⟨2, _⟩ => have hj := j.isLt; show (k.val * 70 + j.val) % 70 = j.val; omega

theorem weight1_1 (a2 : (⟨S4x96x70, .f32⟩ : BufTy).Contents (Elt Ideal)) (n : Fin 50000) (j : Fin 70) (k : Fin 96) :
    val_main_v46 (F := Ideal) a2 (ridx_main_v47 (ix2 n j) k) = a2 (ix3 (1 : Fin 4) k j) := by
  rw [val_main_v46_apply, val_main_v45_apply]
  refine congrArg a2 (funext fun a => Fin.ext ?_)
  match a with
  | ⟨0, _⟩ => rfl
  | ⟨1, _⟩ => have hk := k.isLt; have hj := j.isLt; show (k.val * 70 + j.val) / 70 % 96 = k.val; omega
  | ⟨2, _⟩ => have hj := j.isLt; show (k.val * 70 + j.val) % 70 = j.val; omega

theorem weight1_2 (a2 : (⟨S4x96x70, .f32⟩ : BufTy).Contents (Elt Ideal)) (n : Fin 50000) (j : Fin 70) (k : Fin 96) :
    val_main_v63 (F := Ideal) a2 (ridx_main_v64 (ix2 n j) k) = a2 (ix3 (2 : Fin 4) k j) := by
  rw [val_main_v63_apply, val_main_v62_apply]
  refine congrArg a2 (funext fun a => Fin.ext ?_)
  match a with
  | ⟨0, _⟩ => rfl
  | ⟨1, _⟩ => have hk := k.isLt; have hj := j.isLt; show (k.val * 70 + j.val) / 70 % 96 = k.val; omega
  | ⟨2, _⟩ => have hj := j.isLt; show (k.val * 70 + j.val) % 70 = j.val; omega

theorem weight1_3 (a2 : (⟨S4x96x70, .f32⟩ : BufTy).Contents (Elt Ideal)) (n : Fin 50000) (j : Fin 70) (k : Fin 96) :
    val_main_v80 (F := Ideal) a2 (ridx_main_v81 (ix2 n j) k) = a2 (ix3 (3 : Fin 4) k j) := by
  rw [val_main_v80_apply, val_main_v79_apply]
  refine congrArg a2 (funext fun a => Fin.ext ?_)
  match a with
  | ⟨0, _⟩ => rfl
  | ⟨1, _⟩ => have hk := k.isLt; have hj := j.isLt; show (k.val * 70 + j.val) / 70 % 96 = k.val; omega
  | ⟨2, _⟩ => have hj := j.isLt; show (k.val * 70 + j.val) % 70 = j.val; omega

theorem weight2_0 (a4 : (⟨S4x70x43, .f32⟩ : BufTy).Contents (Elt Ideal)) (n : Fin 50000) (j : Fin 43) (k : Fin 70) :
    val_main_v88 (F := Ideal) a4 (ridx_main_v89 (ix2 n j) k) = a4 (ix3 (0 : Fin 4) k j) := by
  rw [val_main_v88_apply, val_main_v87_apply]
  refine congrArg a4 (funext fun a => Fin.ext ?_)
  match a with
  | ⟨0, _⟩ => rfl
  | ⟨1, _⟩ => have hk := k.isLt; have hj := j.isLt; show (k.val * 43 + j.val) / 43 % 70 = k.val; omega
  | ⟨2, _⟩ => have hj := j.isLt; show (k.val * 43 + j.val) % 43 = j.val; omega

theorem weight2_1 (a4 : (⟨S4x70x43, .f32⟩ : BufTy).Contents (Elt Ideal)) (n : Fin 50000) (j : Fin 43) (k : Fin 70) :
    val_main_v104 (F := Ideal) a4 (ridx_main_v105 (ix2 n j) k) = a4 (ix3 (1 : Fin 4) k j) := by
  rw [val_main_v104_apply, val_main_v103_apply]
  refine congrArg a4 (funext fun a => Fin.ext ?_)
  match a with
  | ⟨0, _⟩ => rfl
  | ⟨1, _⟩ => have hk := k.isLt; have hj := j.isLt; show (k.val * 43 + j.val) / 43 % 70 = k.val; omega
  | ⟨2, _⟩ => have hj := j.isLt; show (k.val * 43 + j.val) % 43 = j.val; omega

theorem weight2_2 (a4 : (⟨S4x70x43, .f32⟩ : BufTy).Contents (Elt Ideal)) (n : Fin 50000) (j : Fin 43) (k : Fin 70) :
    val_main_v121 (F := Ideal) a4 (ridx_main_v122 (ix2 n j) k) = a4 (ix3 (2 : Fin 4) k j) := by
  rw [val_main_v121_apply, val_main_v120_apply]
  refine congrArg a4 (funext fun a => Fin.ext ?_)
  match a with
  | ⟨0, _⟩ => rfl
  | ⟨1, _⟩ => have hk := k.isLt; have hj := j.isLt; show (k.val * 43 + j.val) / 43 % 70 = k.val; omega
  | ⟨2, _⟩ => have hj := j.isLt; show (k.val * 43 + j.val) % 43 = j.val; omega

theorem weight2_3 (a4 : (⟨S4x70x43, .f32⟩ : BufTy).Contents (Elt Ideal)) (n : Fin 50000) (j : Fin 43) (k : Fin 70) :
    val_main_v138 (F := Ideal) a4 (ridx_main_v139 (ix2 n j) k) = a4 (ix3 (3 : Fin 4) k j) := by
  rw [val_main_v138_apply, val_main_v137_apply]
  refine congrArg a4 (funext fun a => Fin.ext ?_)
  match a with
  | ⟨0, _⟩ => rfl
  | ⟨1, _⟩ => have hk := k.isLt; have hj := j.isLt; show (k.val * 43 + j.val) / 43 % 70 = k.val; omega
  | ⟨2, _⟩ => have hj := j.isLt; show (k.val * 43 + j.val) % 43 = j.val; omega

/-! ### The left factors' indices

In every product the left factor is read at the output's row and the summation index. -/

theorem left1_0 (n : Fin 50000) (j : Fin 70) (k : Fin 96) : lidx_main_v31 (ix2 n j) k = ix2 n k :=
  funext fun a => Fin.ext (by match a with | ⟨0, _⟩ => rfl | ⟨1, _⟩ => rfl)

theorem left1_1 (n : Fin 50000) (j : Fin 70) (k : Fin 96) : lidx_main_v47 (ix2 n j) k = ix2 n k :=
  funext fun a => Fin.ext (by match a with | ⟨0, _⟩ => rfl | ⟨1, _⟩ => rfl)

theorem left1_2 (n : Fin 50000) (j : Fin 70) (k : Fin 96) : lidx_main_v64 (ix2 n j) k = ix2 n k :=
  funext fun a => Fin.ext (by match a with | ⟨0, _⟩ => rfl | ⟨1, _⟩ => rfl)

theorem left1_3 (n : Fin 50000) (j : Fin 70) (k : Fin 96) : lidx_main_v81 (ix2 n j) k = ix2 n k :=
  funext fun a => Fin.ext (by match a with | ⟨0, _⟩ => rfl | ⟨1, _⟩ => rfl)

theorem left2_0 (n : Fin 50000) (j : Fin 43) (k : Fin 70) : lidx_main_v89 (ix2 n j) k = ix2 n k :=
  funext fun a => Fin.ext (by match a with | ⟨0, _⟩ => rfl | ⟨1, _⟩ => rfl)

theorem left2_1 (n : Fin 50000) (j : Fin 43) (k : Fin 70) : lidx_main_v105 (ix2 n j) k = ix2 n k :=
  funext fun a => Fin.ext (by match a with | ⟨0, _⟩ => rfl | ⟨1, _⟩ => rfl)

theorem left2_2 (n : Fin 50000) (j : Fin 43) (k : Fin 70) : lidx_main_v122 (ix2 n j) k = ix2 n k :=
  funext fun a => Fin.ext (by match a with | ⟨0, _⟩ => rfl | ⟨1, _⟩ => rfl)

theorem left2_3 (n : Fin 50000) (j : Fin 43) (k : Fin 70) : lidx_main_v139 (ix2 n j) k = ix2 n k :=
  funext fun a => Fin.ext (by match a with | ⟨0, _⟩ => rfl | ⟨1, _⟩ => rfl)

/-! ### The bias and the zero table

The bias is spread over the rows, so its entry at `(n, j)` is the bias at `j`; the table the maximum is taken
against holds the real number zero everywhere. -/

theorem bias1 (a3 : (⟨S70, .f32⟩ : BufTy).Contents (Elt Ideal)) (n : Fin 50000) (j : Fin 70) :
    val_main_v84 (F := Ideal) a3 (ix2 n j) = a3 (ix1 j) := by
  rw [val_main_v84_apply, val_main_v83_apply]
  exact congrArg a3 (funext fun a => Fin.ext (by match a with | ⟨0, _⟩ => rfl))

theorem bias2 (a5 : (⟨S43, .f32⟩ : BufTy).Contents (Elt Ideal)) (n : Fin 50000) (j : Fin 43) :
    val_main_v142 (F := Ideal) a5 (ix2 n j) = a5 (ix1 j) := by
  rw [val_main_v142_apply, val_main_v141_apply]
  exact congrArg a5 (funext fun a => Fin.ext (by match a with | ⟨0, _⟩ => rfl))

theorem zero1 (i : S50000x70.Idx) : val_main_call1_v0 (F := Ideal) i = 0 := by
  rw [val_main_call1_v0_apply, val_main_call1_cst_apply]
  exact Ideal.ofBits_zero_f32

theorem zero2 (i : S50000x43.Idx) : val_main_call2_v0 (F := Ideal) i = 0 := by
  rw [val_main_call2_v0_apply, val_main_call2_cst_apply]
  exact Ideal.ofBits_zero_f32

/-! ### The two layers -/

/-- The first layer: the four products against the four slices of the first weight stack, added in order, plus the
    bias, cut off below at zero. -/
theorem layer1 (a0 : (⟨S50000x96, .f32⟩ : BufTy).Contents (Elt Ideal)) (a1 : (⟨S2x800000, .i32⟩ : BufTy).Contents (Elt Ideal))
    (a2 : (⟨S4x96x70, .f32⟩ : BufTy).Contents (Elt Ideal)) (a3 : (⟨S70, .f32⟩ : BufTy).Contents (Elt Ideal)) :
    val_main_v86 (F := Ideal) a0 a1 a2 a3
      = Cert.Spec.layer a0 (val_main_v44 (F := Ideal) a0 a1) (val_main_v61 (F := Ideal) a0 a1) (val_main_v78 (F := Ideal) a0 a1) a2 (fun j => a3 (ix1 j)) := by
  funext i
  obtain ⟨n, j, rfl⟩ : ∃ n j, i = ix2 n j := ⟨i 0, i 1, eq_ix2 i⟩
  rw [Cert.Spec.layer_apply]; unfold Cert.Spec.layerAt
  rw [val_main_v86_apply, val_main_v85_apply, val_main_v82_apply, val_main_v65_apply, val_main_v48_apply,
    val_main_v31_apply, val_main_v47_apply, val_main_v64_apply, val_main_v81_apply, bias1, zero1]
  simp only [weight1_0, weight1_1, weight1_2, weight1_3, left1_0, left1_1, left1_2, left1_3,
    Ideal.maximumf_def, Ideal.addf_def]

/-- The second layer: the same shape of computation on the first layer's table and three further tables, with the
    second weight stack and bias. -/
theorem layer2 (a0 : (⟨S50000x96, .f32⟩ : BufTy).Contents (Elt Ideal)) (a1 : (⟨S2x800000, .i32⟩ : BufTy).Contents (Elt Ideal))
    (a2 : (⟨S4x96x70, .f32⟩ : BufTy).Contents (Elt Ideal)) (a3 : (⟨S70, .f32⟩ : BufTy).Contents (Elt Ideal))
    (a4 : (⟨S4x70x43, .f32⟩ : BufTy).Contents (Elt Ideal)) (a5 : (⟨S43, .f32⟩ : BufTy).Contents (Elt Ideal)) :
    val_main_v144 (F := Ideal) a0 a1 a2 a3 a4 a5
      = Cert.Spec.layer (val_main_v86 (F := Ideal) a0 a1 a2 a3) (val_main_v102 (F := Ideal) a0 a1 a2 a3) (val_main_v119 (F := Ideal) a0 a1 a2 a3) (val_main_v136 (F := Ideal) a0 a1 a2 a3) a4 (fun j => a5 (ix1 j)) := by
  funext i
  obtain ⟨n, j, rfl⟩ : ∃ n j, i = ix2 n j := ⟨i 0, i 1, eq_ix2 i⟩
  rw [Cert.Spec.layer_apply]; unfold Cert.Spec.layerAt
  rw [val_main_v144_apply, val_main_v143_apply, val_main_v140_apply, val_main_v123_apply, val_main_v106_apply,
    val_main_v89_apply, val_main_v105_apply, val_main_v122_apply, val_main_v139_apply, bias2, zero2]
  simp only [weight2_0, weight2_1, weight2_2, weight2_3, left2_0, left2_1, left2_2, left2_3,
    Ideal.maximumf_def, Ideal.addf_def]

/-! ### The two projections

Both read the second layer's table at the output's row and the summation index, and their own weight matrix at the
summation index and the output's column. -/

theorem proj_mu (a0 : (⟨S50000x96, .f32⟩ : BufTy).Contents (Elt Ideal)) (a1 : (⟨S2x800000, .i32⟩ : BufTy).Contents (Elt Ideal))
    (a2 : (⟨S4x96x70, .f32⟩ : BufTy).Contents (Elt Ideal)) (a3 : (⟨S70, .f32⟩ : BufTy).Contents (Elt Ideal))
    (a4 : (⟨S4x70x43, .f32⟩ : BufTy).Contents (Elt Ideal)) (a5 : (⟨S43, .f32⟩ : BufTy).Contents (Elt Ideal))
    (a6 : (⟨S43x16, .f32⟩ : BufTy).Contents (Elt Ideal)) :
    val_main_v152 (F := Ideal) a0 a1 a2 a3 a4 a5 a6 = Cert.Spec.matprod (val_main_v144 (F := Ideal) a0 a1 a2 a3 a4 a5) a6 := by
  funext i
  obtain ⟨n, j, rfl⟩ : ∃ n j, i = ix2 n j := ⟨i 0, i 1, eq_ix2 i⟩
  rw [Cert.Spec.matprod_apply, val_main_v152_apply]; unfold Cert.Spec.matprodAt
  refine Finset.sum_congr rfl fun k _ => ?_
  have el : lidx_main_v152 (ix2 n j) k = ix2 n k :=
    funext fun a => Fin.ext (by match a with | ⟨0, _⟩ => rfl | ⟨1, _⟩ => rfl)
  have er : ridx_main_v152 (ix2 n j) k = ix2 k j :=
    funext fun a => Fin.ext (by match a with | ⟨0, _⟩ => rfl | ⟨1, _⟩ => rfl)
  rw [el, er]

theorem proj_ls (a0 : (⟨S50000x96, .f32⟩ : BufTy).Contents (Elt Ideal)) (a1 : (⟨S2x800000, .i32⟩ : BufTy).Contents (Elt Ideal))
    (a2 : (⟨S4x96x70, .f32⟩ : BufTy).Contents (Elt Ideal)) (a3 : (⟨S70, .f32⟩ : BufTy).Contents (Elt Ideal))
    (a4 : (⟨S4x70x43, .f32⟩ : BufTy).Contents (Elt Ideal)) (a5 : (⟨S43, .f32⟩ : BufTy).Contents (Elt Ideal))
    (a8 : (⟨S43x16, .f32⟩ : BufTy).Contents (Elt Ideal)) :
    val_main_v189 (F := Ideal) a0 a1 a2 a3 a4 a5 a8 = Cert.Spec.matprod (val_main_v144 (F := Ideal) a0 a1 a2 a3 a4 a5) a8 := by
  funext i
  obtain ⟨n, j, rfl⟩ : ∃ n j, i = ix2 n j := ⟨i 0, i 1, eq_ix2 i⟩
  rw [Cert.Spec.matprod_apply, val_main_v189_apply]; unfold Cert.Spec.matprodAt
  refine Finset.sum_congr rfl fun k _ => ?_
  have el : lidx_main_v189 (ix2 n j) k = ix2 n k :=
    funext fun a => Fin.ext (by match a with | ⟨0, _⟩ => rfl | ⟨1, _⟩ => rfl)
  have er : ridx_main_v189 (ix2 n j) k = ix2 k j :=
    funext fun a => Fin.ext (by match a with | ⟨0, _⟩ => rfl | ⟨1, _⟩ => rfl)
  rw [el, er]

end Cert.ReferenceIdeal.Layers

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.LibConcatCols.lean ====
/-
  Matrices laid side by side, read at an entry.

  Two or three matrices with the same number of rows, joined along the column axis, form one matrix. Its entry at row
  `a` and column `j` belongs to the piece whose span of columns holds `j`, and is that piece's entry at row `a` and at the
  column `j` less the widths of the pieces before it.
-/
import Idealize.ShloMosaic.Lib.ValueIdx
import Idealize.ShloMosaic.Lib.Pipeline.Value
noncomputable section
namespace Cert.ConcatCols
open Idealize.ShloMosaic Idealize.ShloMosaic.ValueIdx

variable {α : Type} {A B0 B1 B2 T : Nat}

/-- Two pieces: a column inside the first piece's width reads the first piece at that column. -/
theorem pair_left (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩] h (ix2 a j) = x0 (ix2 a b) :=
  concatenate_pair_apply_left 1 x0 x1 h (ix2 a j) rfl (ix2 a b) (fun c => match c with
    | ⟨0, _⟩ => rfl
    | ⟨1, _⟩ => hj.symm)

/-- Two pieces: a column past the first piece's width reads the second piece at the column less that width. -/
theorem pair_right (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩] h (ix2 a j) = x1 (ix2 a b) :=
  concatenate_pair_apply_right 1 x0 x1 h (ix2 a j) rfl rfl (ix2 a b) (fun c hc => match c, hc with
    | ⟨0, _⟩, _ => rfl
    | ⟨1, _⟩, hc => absurd rfl hc)
    (by show b.val + B0 = j.val; omega)

/-- Three pieces: a column inside the first piece's width reads the first piece at that column. -/
theorem triple_fst (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩, ⟨⟨2, ![A, B2]⟩, x2⟩] h (ix2 a j) = x0 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 0 (by show 0 < 3; omega) ⟨2, ![A, B0]⟩ x0 rfl rfl 0 rfl (ix2 a b)
    (fun c hc => match c, hc with
      | ⟨0, _⟩, _ => rfl
      | ⟨1, _⟩, hc => absurd rfl hc)
    (by show 0 + b.val = j.val; omega)

/-- Three pieces: a column in the second piece's span reads the second piece at the column less the first width. -/
theorem triple_snd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩, ⟨⟨2, ![A, B2]⟩, x2⟩] h (ix2 a j) = x1 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 1 (by show 1 < 3; omega) ⟨2, ![A, B1]⟩ x1 rfl rfl B0 rfl (ix2 a b)
    (fun c hc => match c, hc with
      | ⟨0, _⟩, _ => rfl
      | ⟨1, _⟩, hc => absurd rfl hc)
    (by show B0 + b.val = j.val; omega)

/-- Three pieces: a column in the third piece's span reads the third piece at the column less the first two widths. -/
theorem triple_thd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B2) (j : Fin T)
    (hj : j.val = B0 + B1 + b.val) :
    concatenate ⟨2, ![A, T]⟩ 1 [⟨⟨2, ![A, B0]⟩, x0⟩, ⟨⟨2, ![A, B1]⟩, x1⟩, ⟨⟨2, ![A, B2]⟩, x2⟩] h (ix2 a j) = x2 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 2 (by show 2 < 3; omega) ⟨2, ![A, B2]⟩ x2 rfl rfl (B0 + B1) rfl (ix2 a b)
    (fun c hc => match c, hc with
      | ⟨0, _⟩, _ => rfl
      | ⟨1, _⟩, hc => absurd rfl hc)
    (by show B0 + B1 + b.val = j.val; omega)

end Cert.ConcatCols
-- ==== Proof.Tail.lean ====
/-
  The last stretch of the two programs: the weighted neighbourhood sum of the final matrix product.

  With `y` the product of the hidden table and a weight matrix, `d` a per-node factor, and each edge carrying a source
  row, a target row and the weight `d(source) · d(target)`, the result at node `n` and column `j` is

      (0 + ∑ over the edges whose target is n of  weight · y(source, j))  +  d(n) · d(n) · y(n, j)  +  bias(j).

  The reference program computes this twice, once for each of two sixteen-column weight matrices. The kernel program
  multiplies the hidden table once by the two weight matrices laid side by side (thirty-two columns), gathers, scales
  and sums whole thirty-two-column rows, and only then cuts the result and the product into their two halves.
  Entry by entry nothing differs: column `j` (or `16 + j`) of a row gathered, scaled and summed is the same row
  operation applied to that column alone, and column `j` (or `16 + j`) of the wide product is the narrow product's
  column `j`, because an entry of a product only involves one column of the right factor. No law of arithmetic
  beyond this is used: the two sides are the same sums of the same products, term by term.
-/
import proofs.«133635_j68539088110351_2_alg».proof.Proof.Gen.KernelIdeal.Launch
import proofs.«133635_j68539088110351_2_alg».proof.Proof.ReadP
import proofs.«133635_j68539088110351_2_alg».proof.Proof.Spec
import proofs.«133635_j68539088110351_2_alg».proof.Proof.LibScatterGather
import proofs.«133635_j68539088110351_2_alg».proof.Proof.LibConcatCols
import Idealize.ShloMosaic.Lib.StableHlo.Run
import Idealize.ShloMosaic.Lib.ValueIdx
import Idealize.ShloMosaic.Lib.Pipeline.Value
import Idealize.ShloMosaic.PureOps.Ideal
noncomputable section
open scoped BigOperators

namespace Cert.Tail
open Idealize.ShloMosaic Idealize.ShloMosaic.TcCoe Idealize.SL.Sem Idealize.ShloMosaic.StableHlo Idealize.ShloMosaic.ValueIdx
open Cert.Lib.ScatterGather

/-! ## Layout pieces read at an index -/

section Pieces
variable {α : Type} {N C : Nat}

/-- A flat array laid out as one column: its entry at `(n, 0)` is the array's entry at `n`. -/
theorem col_apply (h : (⟨1, ![N]⟩ : Shape).BroadcastsInDim ⟨2, ![N, 1]⟩ (![0] : Fin 1 → Fin 2))
    (x : (⟨1, ![N]⟩ : Shape).Idx → α) (n : Fin N) :
    broadcastInDim ⟨2, ![N, 1]⟩ (![0] : Fin 1 → Fin 2) h x (ix2 n (0 : Fin 1)) = x (ix1 n) :=
  broadcastInDim_apply _ h x (ix2 n (0 : Fin 1)) (ix1 n) (fun a => match a with
    | ⟨0, _⟩ => by
      have := n.isLt
      show n.val = if N = 1 then 0 else n.val
      split <;> omega)

/-- One column repeated across `C` columns: its entry at `(n, g)` is the column's entry at `(n, 0)`. -/
theorem spread_apply (h : (⟨2, ![N, 1]⟩ : Shape).BroadcastsInDim ⟨2, ![N, C]⟩ (![0, 1] : Fin 2 → Fin 2))
    (x : (⟨2, ![N, 1]⟩ : Shape).Idx → α) (n : Fin N) (g : Fin C) :
    broadcastInDim ⟨2, ![N, C]⟩ (![0, 1] : Fin 2 → Fin 2) h x (ix2 n g) = x (ix2 n (0 : Fin 1)) :=
  broadcastInDim_apply _ h x (ix2 n g) (ix2 n (0 : Fin 1)) (fun a => match a with
    | ⟨0, _⟩ => by
      have := n.isLt
      show n.val = if N = 1 then 0 else n.val
      split <;> omega
    | ⟨1, _⟩ => by
      show 0 = if (1 : Nat) = 1 then 0 else g.val
      rw [if_pos rfl])

/-- A row vector laid out as one row and repeated down `N` rows: its entry at `(n, g)` is the vector's entry at `g`. -/
theorem rows_of_vec_apply (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (n : Fin N) (g : Fin C) :
    broadcastInDim ⟨2, ![N, C]⟩ (![0, 1] : Fin 2 → Fin 2) h2
        (broadcastInDim ⟨2, ![1, C]⟩ (![1] : Fin 1 → Fin 2) h1 b) (ix2 n g) = b (ix1 g) := by
  have hg := g.isLt
  refine (broadcastInDim_apply _ h2 _ (ix2 n g) (ix2 (0 : Fin 1) g) (fun a => match a with
    | ⟨0, _⟩ => by
      show 0 = if (1 : Nat) = 1 then 0 else n.val
      rw [if_pos rfl]
    | ⟨1, _⟩ => by
      show g.val = if C = 1 then 0 else g.val
      split <;> omega)).trans ?_
  exact broadcastInDim_apply _ h1 b (ix2 (0 : Fin 1) g) (ix1 g) (fun a => match a with
    | ⟨0, _⟩ => by
      show g.val = if C = 1 then 0 else g.val
      split <;> omega)

/-- Sixteen columns cut out of thirty-two starting at column `off`: the entry at `(n, j)` is the wide table's entry at
    `(n, off + j)`. -/
theorem cut_apply (off : Nat) (sl : (⟨2, ![N, 32]⟩ : Shape).Slices ![0, off] ⟨2, ![N, 16]⟩)
    (x : (⟨2, ![N, 32]⟩ : Shape).Idx → α) (n : Fin N) (j : Fin 16) (j' : Fin 32) (hj : j'.val = off + j.val) :
    extractStridedSlice ⟨2, ![N, 16]⟩ ![0, off] x sl (ix2 n j) = x (ix2 n j') :=
  extractStridedSlice_apply _ x sl (ix2 n j) (ix2 n j') (fun a => match a with
    | ⟨0, _⟩ => by show n.val = 0 + n.val; omega
    | ⟨1, _⟩ => hj)

end Pieces

/-! ## The weighted neighbourhood sum -/

/-- Rows of `y` gathered at the edges' source rows, each scaled by its edge's weight, and added up at the edges'
    target rows, starting from a constant table: at `(n, g)` the constant plus, over the edges whose target word is
    `n`, the weight times `y` at the source row (read signed and clamped) and column `g`. -/
theorem agg_apply {C : Nat}
    (wfS : ScatterDims.WF ⟨2, ![50000, C]⟩ ⟨2, ![800000, 1]⟩ ⟨2, ![800000, C]⟩ [1] [0] [0] 1)
    (wfG : GatherDims.WF ⟨2, ![50000, C]⟩ ⟨2, ![800000, 1]⟩ ⟨2, ![800000, C]⟩ [1] [0] [] [0] [] 1 ![1, C])
    (hz : (⟨0, ![]⟩ : Shape).BroadcastsInDim ⟨2, ![50000, C]⟩ (![] : Fin 0 → Fin 2))
    (hw : (⟨2, ![800000, 1]⟩ : Shape).BroadcastsInDim ⟨2, ![800000, C]⟩ (![0, 1] : Fin 2 → Fin 2))
    (z : FVec Ideal ⟨0, ![]⟩ .f32) (y : FVec Ideal ⟨2, ![50000, C]⟩ .f32)
    (is it : IVec ⟨2, ![800000, 1]⟩ 32) (w : FVec Ideal ⟨2, ![800000, 1]⟩ .f32) (n : Fin 50000) (g : Fin C) :
    Host.scatterAdd (F := Ideal) (φ := .f32) (scatRowsDims 50000 C 800000 wfS)
        (broadcastInDim ⟨2, ![50000, C]⟩ (![] : Fin 0 → Fin 2) hz z) it
        (mulf (F := Ideal) (broadcastInDim ⟨2, ![800000, C]⟩ (![0, 1] : Fin 2 → Fin 2) hw w)
          (Host.gather (rowsDims 50000 C 800000 wfG) y is)) (ix2 n g)
      = z ix0 + ∑ e ∈ Finset.univ.filter (fun e : Fin 800000 => (it (ix2 e (0 : Fin 1))).toInt = (n.val : Int)),
          w (ix2 e (0 : Fin 1)) * y (ix2 ⟨min (is (ix2 e (0 : Fin 1))).toInt.toNat (50000 - 1), by omega⟩ g) := by
  rw [scatterAddRows_apply]
  refine congrArg₂ (· + ·) (broadcastInDim_apply _ hz z (ix2 n g) ix0 (fun a => a.elim0)) (Finset.sum_congr rfl fun e _ => ?_)
  rw [mulf_apply, spread_apply, gather_rows_apply (by omega)]

/-! ## One half of the kernel program's last stretch -/

/-- The kernel program's last stretch, for the sixteen columns starting at `off`, over arbitrary tables: the wide
    table `y` (thirty-two columns), the per-node factor `d`, the two edge-index columns, the edge-weight column and
    the bias. At `(n, j)` it is the weighted neighbourhood sum of column `off + j` of `y`, plus `d n · d n` times
    `y (n, off + j)`, plus the bias at `j`. Changing the float format of `y` before the gather and back after it
    changes nothing on the extended reals. -/
theorem kernel_pass (off : Nat) (sl : Cert.KernelIdeal.S50000x32.Slices ![0, off] Cert.KernelIdeal.S50000x16)
    (y : FVec Ideal Cert.KernelIdeal.S50000x32 .f32) (d : FVec Ideal Cert.KernelIdeal.S50000 .f32)
    (is it : IVec Cert.KernelIdeal.S800000x1 32) (w : FVec Ideal Cert.KernelIdeal.S800000x1 .f32)
    (b : FVec Ideal Cert.KernelIdeal.S16 .f32) (n : Fin 50000) (j : Fin 16) (j' : Fin 32) (hj : j'.val = off + j.val) :
    addf (F := Ideal) (addf (F := Ideal)
        (extractStridedSlice Cert.KernelIdeal.S50000x16 ![0, off]
          (Host.scatterAdd (F := Ideal) Cert.KernelIdeal.scatter_S50000x32_S800000x1_S800000x32_1_0_0_1
            (broadcastInDim Cert.KernelIdeal.S50000x32 ![] Cert.KernelIdeal.Gen.bcast_S_S50000x32
              (constant (F := Ideal) Cert.KernelIdeal.S_ .f32 0x00000000#32))
            it
            (mulf (F := Ideal) (broadcastInDim Cert.KernelIdeal.S800000x32 ![0, 1] Cert.KernelIdeal.Gen.bcast_S800000x1_S800000x32_0_1 w)
              (extf (F := Ideal) .f32
                (Host.gather Cert.KernelIdeal.gather_S50000x32_S800000x1_S800000x32_1_0_n_n_0_1_132
                  (truncf (F := Ideal) .bf16 y Cert.KernelIdeal.Gen.bitsLt_bf16_f32) is)
                Cert.KernelIdeal.Gen.bitsLt_bf16_f32)))
          sl)
        (mulf (F := Ideal)
          (broadcastInDim Cert.KernelIdeal.S50000x16 ![0, 1] Cert.KernelIdeal.Gen.bcast_S50000x1_S50000x16_0_1
            (broadcastInDim Cert.KernelIdeal.S50000x1 ![0] Cert.KernelIdeal.Gen.bcast_S50000_S50000x1_0 (mulf (F := Ideal) d d)))
          (extractStridedSlice Cert.KernelIdeal.S50000x16 ![0, off] y sl)))
      (broadcastInDim Cert.KernelIdeal.S50000x16 ![0, 1] Cert.KernelIdeal.Gen.bcast_S1x16_S50000x16_0_1
        (broadcastInDim Cert.KernelIdeal.S1x16 ![1] Cert.KernelIdeal.Gen.bcast_S16_S1x16_1 b))
      (ix2 n j)
    = ((constant (F := Ideal) Cert.KernelIdeal.S_ .f32 0x00000000#32 ix0
          + ∑ e ∈ Finset.univ.filter (fun e : Fin 800000 => (it (ix2 e (0 : Fin 1))).toInt = (n.val : Int)),
              w (ix2 e (0 : Fin 1)) * y (ix2 ⟨min (is (ix2 e (0 : Fin 1))).toInt.toNat (50000 - 1), by omega⟩ j'))
        + d (ix1 n) * d (ix1 n) * y (ix2 n j')) + b (ix1 j) := by
  rw [addf_apply, addf_apply, mulf_apply, cut_apply off sl _ n j j' hj, cut_apply off sl _ n j j' hj,
    rows_of_vec_apply, spread_apply, col_apply, mulf_apply]
  refine congrArg (· + b (ix1 j)) (congrArg (· + d (ix1 n) * d (ix1 n) * y (ix2 n j')) ?_)
  exact agg_apply Cert.KernelIdeal.Gen.scatter_S50000x32_S800000x1_S800000x32_1_0_0_1_wf
    Cert.KernelIdeal.Gen.gather_S50000x32_S800000x1_S800000x32_1_0_n_n_0_1_132_wf
    Cert.KernelIdeal.Gen.bcast_S_S50000x32 Cert.KernelIdeal.Gen.bcast_S800000x1_S800000x32_0_1
    (constant (F := Ideal) Cert.KernelIdeal.S_ .f32 0x00000000#32) y is it w n j'

/-! ## One pass of the reference program -/

/-- One sixteen-column pass of the reference program, over arbitrary tables: at `(n, j)` the weighted neighbourhood
    sum of column `j` of `y`, plus `d n · d n` times `y (n, j)`, plus the bias at `j`. -/
theorem ref_pass (z : FVec Ideal Cert.ReferenceIdeal.S_ .f32) (y : FVec Ideal Cert.ReferenceIdeal.S50000x16 .f32)
    (d : FVec Ideal Cert.ReferenceIdeal.S50000 .f32) (is it : IVec Cert.ReferenceIdeal.S800000x1 32)
    (w : FVec Ideal Cert.ReferenceIdeal.S800000x1 .f32) (b : FVec Ideal Cert.ReferenceIdeal.S16 .f32) (n : Fin 50000) (j : Fin 16) :
    addf (F := Ideal) (addf (F := Ideal)
        (Host.scatterAdd (F := Ideal) Cert.ReferenceIdeal.scatter_S50000x16_S800000x1_S800000x16_1_0_0_1
          (broadcastInDim Cert.ReferenceIdeal.S50000x16 ![] Cert.ReferenceIdeal.Gen.bcast_S_S50000x16 z) it
          (mulf (F := Ideal) (broadcastInDim Cert.ReferenceIdeal.S800000x16 ![0, 1] Cert.ReferenceIdeal.Gen.bcast_S800000x1_S800000x16_0_1 w)
            (Host.gather Cert.ReferenceIdeal.gather_S50000x16_S800000x1_S800000x16_1_0_n_n_0_1_116 y is)))
        (mulf (F := Ideal)
          (broadcastInDim Cert.ReferenceIdeal.S50000x16 ![0, 1] Cert.ReferenceIdeal.Gen.bcast_S50000x1_S50000x16_0_1
            (broadcastInDim Cert.ReferenceIdeal.S50000x1 ![0] Cert.ReferenceIdeal.Gen.bcast_S50000_S50000x1_0 (mulf (F := Ideal) d d)))
          y))
      (broadcastInDim Cert.ReferenceIdeal.S50000x16 ![0, 1] Cert.ReferenceIdeal.Gen.bcast_S1x16_S50000x16_0_1
        (broadcastInDim Cert.ReferenceIdeal.S1x16 ![1] Cert.ReferenceIdeal.Gen.bcast_S16_S1x16_1 b))
      (ix2 n j)
    = ((z ix0
          + ∑ e ∈ Finset.univ.filter (fun e : Fin 800000 => (it (ix2 e (0 : Fin 1))).toInt = (n.val : Int)),
              w (ix2 e (0 : Fin 1)) * y (ix2 ⟨min (is (ix2 e (0 : Fin 1))).toInt.toNat (50000 - 1), by omega⟩ j))
        + d (ix1 n) * d (ix1 n) * y (ix2 n j)) + b (ix1 j) := by
  rw [addf_apply, addf_apply, mulf_apply, rows_of_vec_apply, spread_apply, col_apply, mulf_apply]
  refine congrArg (· + b (ix1 j)) (congrArg (· + d (ix1 n) * d (ix1 n) * y (ix2 n j)) ?_)
  exact agg_apply Cert.ReferenceIdeal.Gen.scatter_S50000x16_S800000x1_S800000x16_1_0_0_1_wf
    Cert.ReferenceIdeal.Gen.gather_S50000x16_S800000x1_S800000x16_1_0_n_n_0_1_116_wf
    Cert.ReferenceIdeal.Gen.bcast_S_S50000x16 Cert.ReferenceIdeal.Gen.bcast_S800000x1_S800000x16_0_1 z y is it w n j

/-- The reference program's first pass (the product with the first weight matrix) is `ref_pass` at its own stages. -/
theorem ref_mu_read (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (a4 : (⟨Cert.ReferenceIdeal.S4x70x43, .f32⟩ : BufTy).Contents (Elt Ideal)) (a5 : (⟨Cert.ReferenceIdeal.S43, .f32⟩ : BufTy).Contents (Elt Ideal))
    (a6 : (⟨Cert.ReferenceIdeal.S43x16, .f32⟩ : BufTy).Contents (Elt Ideal)) (a7 : (⟨Cert.ReferenceIdeal.S16, .f32⟩ : BufTy).Contents (Elt Ideal)) (n : Fin 50000) (j : Fin 16) :
    Cert.ReferenceIdeal.Read.val_main_v188 (F := Ideal) a0 a1 a2 a3 a4 a5 a6 a7 (ix2 n j)
      = ((Cert.ReferenceIdeal.Read.val_main_cst_34 (F := Ideal) ix0
            + ∑ e ∈ Finset.univ.filter (fun e : Fin 800000 => (Cert.ReferenceIdeal.Read.val_main_v179 (F := Ideal) a1 (ix2 e (0 : Fin 1))).toInt = (n.val : Int)),
                Cert.ReferenceIdeal.Read.val_main_v168 (F := Ideal) a1 (ix2 e (0 : Fin 1))
                  * Cert.ReferenceIdeal.Read.val_main_v152 (F := Ideal) a0 a1 a2 a3 a4 a5 a6
                      (ix2 ⟨min (Cert.ReferenceIdeal.Read.val_main_v174 (F := Ideal) a1 (ix2 e (0 : Fin 1))).toInt.toNat (50000 - 1), by omega⟩ j))
          + Cert.ReferenceIdeal.Read.val_main_v151 (F := Ideal) a1 (ix1 n) * Cert.ReferenceIdeal.Read.val_main_v151 (F := Ideal) a1 (ix1 n)
              * Cert.ReferenceIdeal.Read.val_main_v152 (F := Ideal) a0 a1 a2 a3 a4 a5 a6 (ix2 n j))
        + a7 (ix1 j) :=
  ref_pass (Cert.ReferenceIdeal.Read.val_main_cst_34 (F := Ideal)) (Cert.ReferenceIdeal.Read.val_main_v152 (F := Ideal) a0 a1 a2 a3 a4 a5 a6)
    (Cert.ReferenceIdeal.Read.val_main_v151 (F := Ideal) a1) (Cert.ReferenceIdeal.Read.val_main_v174 (F := Ideal) a1) (Cert.ReferenceIdeal.Read.val_main_v179 (F := Ideal) a1)
    (Cert.ReferenceIdeal.Read.val_main_v168 (F := Ideal) a1) a7 n j

/-- The reference program's second pass (the product with the second weight matrix), likewise. -/
theorem ref_ls_read (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (a4 : (⟨Cert.ReferenceIdeal.S4x70x43, .f32⟩ : BufTy).Contents (Elt Ideal)) (a5 : (⟨Cert.ReferenceIdeal.S43, .f32⟩ : BufTy).Contents (Elt Ideal))
    (a8 : (⟨Cert.ReferenceIdeal.S43x16, .f32⟩ : BufTy).Contents (Elt Ideal)) (a9 : (⟨Cert.ReferenceIdeal.S16, .f32⟩ : BufTy).Contents (Elt Ideal)) (n : Fin 50000) (j : Fin 16) :
    Cert.ReferenceIdeal.Read.val_main_v225 (F := Ideal) a0 a1 a2 a3 a4 a5 a8 a9 (ix2 n j)
      = ((Cert.ReferenceIdeal.Read.val_main_cst_41 (F := Ideal) ix0
            + ∑ e ∈ Finset.univ.filter (fun e : Fin 800000 => (Cert.ReferenceIdeal.Read.val_main_v216 (F := Ideal) a1 (ix2 e (0 : Fin 1))).toInt = (n.val : Int)),
                Cert.ReferenceIdeal.Read.val_main_v205 (F := Ideal) a1 (ix2 e (0 : Fin 1))
                  * Cert.ReferenceIdeal.Read.val_main_v189 (F := Ideal) a0 a1 a2 a3 a4 a5 a8
                      (ix2 ⟨min (Cert.ReferenceIdeal.Read.val_main_v211 (F := Ideal) a1 (ix2 e (0 : Fin 1))).toInt.toNat (50000 - 1), by omega⟩ j))
          + Cert.ReferenceIdeal.Read.val_main_v151 (F := Ideal) a1 (ix1 n) * Cert.ReferenceIdeal.Read.val_main_v151 (F := Ideal) a1 (ix1 n)
              * Cert.ReferenceIdeal.Read.val_main_v189 (F := Ideal) a0 a1 a2 a3 a4 a5 a8 (ix2 n j))
        + a9 (ix1 j) :=
  ref_pass (Cert.ReferenceIdeal.Read.val_main_cst_41 (F := Ideal)) (Cert.ReferenceIdeal.Read.val_main_v189 (F := Ideal) a0 a1 a2 a3 a4 a5 a8)
    (Cert.ReferenceIdeal.Read.val_main_v151 (F := Ideal) a1) (Cert.ReferenceIdeal.Read.val_main_v211 (F := Ideal) a1) (Cert.ReferenceIdeal.Read.val_main_v216 (F := Ideal) a1)
    (Cert.ReferenceIdeal.Read.val_main_v205 (F := Ideal) a1) a9 n j

/-! ## A column of the wide product is a column of a narrow one -/

theorem lidx_v152 (m : Fin 50000) (j : Fin 16) (k : Fin 43) : Cert.ReferenceIdeal.Read.lidx_main_v152 (ix2 m j) k = ix2 m k :=
  funext fun a => Fin.ext (by match a with | ⟨0, _⟩ => rfl | ⟨1, _⟩ => rfl)
theorem ridx_v152 (m : Fin 50000) (j : Fin 16) (k : Fin 43) : Cert.ReferenceIdeal.Read.ridx_main_v152 (ix2 m j) k = ix2 k j :=
  funext fun a => Fin.ext (by match a with | ⟨0, _⟩ => rfl | ⟨1, _⟩ => rfl)
theorem lidx_v189 (m : Fin 50000) (j : Fin 16) (k : Fin 43) : Cert.ReferenceIdeal.Read.lidx_main_v189 (ix2 m j) k = ix2 m k :=
  funext fun a => Fin.ext (by match a with | ⟨0, _⟩ => rfl | ⟨1, _⟩ => rfl)
theorem ridx_v189 (m : Fin 50000) (j : Fin 16) (k : Fin 43) : Cert.ReferenceIdeal.Read.ridx_main_v189 (ix2 m j) k = ix2 k j :=
  funext fun a => Fin.ext (by match a with | ⟨0, _⟩ => rfl | ⟨1, _⟩ => rfl)

/-- Column `j` of the hidden table times the two weight matrices side by side is column `j` of its product with the
    first: an entry of a product uses one column of the right factor, and that column lies in the first matrix. -/
theorem wide_left (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (a4 : (⟨Cert.ReferenceIdeal.S4x70x43, .f32⟩ : BufTy).Contents (Elt Ideal)) (a5 : (⟨Cert.ReferenceIdeal.S43, .f32⟩ : BufTy).Contents (Elt Ideal))
    (a6 a8 : (⟨Cert.ReferenceIdeal.S43x16, .f32⟩ : BufTy).Contents (Elt Ideal)) (m : Fin 50000) (j : Fin 16) (j' : Fin 32) (hj : j'.val = j.val) :
    Cert.Spec.matprod (Cert.ReferenceIdeal.Read.val_main_v144 (F := Ideal) a0 a1 a2 a3 a4 a5)
        (concatenate Cert.KernelIdeal.S43x32 1 [⟨Cert.KernelIdeal.S43x16, a6⟩, ⟨Cert.KernelIdeal.S43x16, a8⟩] Cert.KernelIdeal.Gen.concatenates_S43x16_S43x16_S43x32_d1) (ix2 m j')
      = Cert.ReferenceIdeal.Read.val_main_v152 (F := Ideal) a0 a1 a2 a3 a4 a5 a6 (ix2 m j) := by
  rw [Cert.Spec.matprod_apply, Cert.ReferenceIdeal.Read.val_main_v152_apply]
  unfold Cert.Spec.matprodAt
  refine Finset.sum_congr rfl fun k _ => ?_
  rw [lidx_v152, ridx_v152, Cert.ConcatCols.pair_left a6 a8 _ k j j' hj]

/-- Column `16 + j` of the same wide product is column `j` of the product with the second weight matrix. -/
theorem wide_right (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (a4 : (⟨Cert.ReferenceIdeal.S4x70x43, .f32⟩ : BufTy).Contents (Elt Ideal)) (a5 : (⟨Cert.ReferenceIdeal.S43, .f32⟩ : BufTy).Contents (Elt Ideal))
    (a6 a8 : (⟨Cert.ReferenceIdeal.S43x16, .f32⟩ : BufTy).Contents (Elt Ideal)) (m : Fin 50000) (j : Fin 16) (j' : Fin 32) (hj : j'.val = 16 + j.val) :
    Cert.Spec.matprod (Cert.ReferenceIdeal.Read.val_main_v144 (F := Ideal) a0 a1 a2 a3 a4 a5)
        (concatenate Cert.KernelIdeal.S43x32 1 [⟨Cert.KernelIdeal.S43x16, a6⟩, ⟨Cert.KernelIdeal.S43x16, a8⟩] Cert.KernelIdeal.Gen.concatenates_S43x16_S43x16_S43x32_d1) (ix2 m j')
      = Cert.ReferenceIdeal.Read.val_main_v189 (F := Ideal) a0 a1 a2 a3 a4 a5 a8 (ix2 m j) := by
  rw [Cert.Spec.matprod_apply, Cert.ReferenceIdeal.Read.val_main_v189_apply]
  unfold Cert.Spec.matprodAt
  refine Finset.sum_congr rfl fun k _ => ?_
  rw [lidx_v189, ridx_v189, Cert.ConcatCols.pair_right a6 a8 _ k j j' hj]

/-! ## The two results -/

set_option maxHeartbeats 4000000 in
/-- The kernel program's first result is the reference program's first pass. -/
theorem tail_mu (Wp : Valuation Cert.KernelIdeal.τ Cert.KernelIdeal.sig (Elt Ideal))
    (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (a4 : (⟨Cert.ReferenceIdeal.S4x70x43, .f32⟩ : BufTy).Contents (Elt Ideal)) (a5 : (⟨Cert.ReferenceIdeal.S43, .f32⟩ : BufTy).Contents (Elt Ideal))
    (a6 a8 : (⟨Cert.ReferenceIdeal.S43x16, .f32⟩ : BufTy).Contents (Elt Ideal)) (a7 : (⟨Cert.ReferenceIdeal.S16, .f32⟩ : BufTy).Contents (Elt Ideal))
    (h1 : Wp (Proc.devRef .tc Cert.KernelIdeal.main_v1) = Cert.ReferenceIdeal.Read.val_main_v1 (F := Ideal) a1)
    (h3 : Wp (Proc.devRef .tc Cert.KernelIdeal.main_v3) = Cert.ReferenceIdeal.Read.val_main_v3 (F := Ideal) a1)
    (h124 : Wp (Proc.devRef .tc Cert.KernelIdeal.main_v124) = Cert.ReferenceIdeal.Read.val_main_v151 (F := Ideal) a1)
    (h128 : Wp (Proc.devRef .tc Cert.KernelIdeal.main_v128)
        = Cert.Spec.matprod (Cert.ReferenceIdeal.Read.val_main_v144 (F := Ideal) a0 a1 a2 a3 a4 a5)
        (concatenate Cert.KernelIdeal.S43x32 1 [⟨Cert.KernelIdeal.S43x16, a6⟩, ⟨Cert.KernelIdeal.S43x16, a8⟩] Cert.KernelIdeal.Gen.concatenates_S43x16_S43x16_S43x32_d1))
    (h7 : Wp (Proc.devRef .tc Cert.KernelIdeal.main_arg7) = a7) :
    StableHlo.after (Cert.KernelIdeal.Gen.hostOps3 (F := Ideal)) Wp (Proc.devRef .tc Cert.KernelIdeal.main_v170)
      = Cert.ReferenceIdeal.Read.val_main_v188 (F := Ideal) a0 a1 a2 a3 a4 a5 a6 a7 := by
  simp only [Cert.KernelIdeal.Gen.hostOps3]
  after_results_simp
  rw [h1, h3, h124, h128, h7]
  funext i
  obtain ⟨n, j, rfl⟩ : ∃ (n : Fin 50000) (j : Fin 16), i = ix2 n j := ⟨i 0, i 1, eq_ix2 i⟩
  refine (kernel_pass 0 Cert.KernelIdeal.Gen.slices_S50000x32_S50000x16_0_0 _ _ _ _ _ _ n j ⟨j.val, by omega⟩
    (Nat.zero_add _).symm).trans ?_
  refine Eq.trans ?_ (ref_mu_read a0 a1 a2 a3 a4 a5 a6 a7 n j).symm
  have hy : ∀ m : Fin 50000, Cert.Spec.matprod (Cert.ReferenceIdeal.Read.val_main_v144 (F := Ideal) a0 a1 a2 a3 a4 a5)
        (concatenate Cert.KernelIdeal.S43x32 1 [⟨Cert.KernelIdeal.S43x16, a6⟩, ⟨Cert.KernelIdeal.S43x16, a8⟩] Cert.KernelIdeal.Gen.concatenates_S43x16_S43x16_S43x32_d1) (ix2 m (⟨j.val, by omega⟩ : Fin 32))
      = Cert.ReferenceIdeal.Read.val_main_v152 (F := Ideal) a0 a1 a2 a3 a4 a5 a6 (ix2 m j) :=
    fun m => wide_left a0 a1 a2 a3 a4 a5 a6 a8 m j _ rfl
  exact congrArg₂ (· + ·) (congrArg₂ (· + ·) (congrArg₂ (· + ·) rfl
    (Finset.sum_congr rfl fun e _ => congrArg₂ (· * ·) rfl (hy _))) (congrArg₂ (· * ·) rfl (hy n))) rfl

set_option maxHeartbeats 4000000 in
/-- The kernel program's second result is the reference program's second pass. -/
theorem tail_ls (Wp : Valuation Cert.KernelIdeal.τ Cert.KernelIdeal.sig (Elt Ideal))
    (a0 : (⟨Cert.ReferenceIdeal.S50000x96, .f32⟩ : BufTy).Contents (Elt Ideal)) (a1 : (⟨Cert.ReferenceIdeal.S2x800000, .i32⟩ : BufTy).Contents (Elt Ideal))
    (a2 : (⟨Cert.ReferenceIdeal.S4x96x70, .f32⟩ : BufTy).Contents (Elt Ideal)) (a3 : (⟨Cert.ReferenceIdeal.S70, .f32⟩ : BufTy).Contents (Elt Ideal))
    (a4 : (⟨Cert.ReferenceIdeal.S4x70x43, .f32⟩ : BufTy).Contents (Elt Ideal)) (a5 : (⟨Cert.ReferenceIdeal.S43, .f32⟩ : BufTy).Contents (Elt Ideal))
    (a6 a8 : (⟨Cert.ReferenceIdeal.S43x16, .f32⟩ : BufTy).Contents (Elt Ideal)) (a9 : (⟨Cert.ReferenceIdeal.S16, .f32⟩ : BufTy).Contents (Elt Ideal))
    (h1 : Wp (Proc.devRef .tc Cert.KernelIdeal.main_v1) = Cert.ReferenceIdeal.Read.val_main_v1 (F := Ideal) a1)
    (h3 : Wp (Proc.devRef .tc Cert.KernelIdeal.main_v3) = Cert.ReferenceIdeal.Read.val_main_v3 (F := Ideal) a1)
    (h124 : Wp (Proc.devRef .tc Cert.KernelIdeal.main_v124) = Cert.ReferenceIdeal.Read.val_main_v151 (F := Ideal) a1)
    (h128 : Wp (Proc.devRef .tc Cert.KernelIdeal.main_v128)
        = Cert.Spec.matprod (Cert.ReferenceIdeal.Read.val_main_v144 (F := Ideal) a0 a1 a2 a3 a4 a5)
        (concatenate Cert.KernelIdeal.S43x32 1 [⟨Cert.KernelIdeal.S43x16, a6⟩, ⟨Cert.KernelIdeal.S43x16, a8⟩] Cert.KernelIdeal.Gen.concatenates_S43x16_S43x16_S43x32_d1))
    (h9 : Wp (Proc.devRef .tc Cert.KernelIdeal.main_arg9) = a9) :
    StableHlo.after (Cert.KernelIdeal.Gen.hostOps3 (F := Ideal)) Wp (Proc.devRef .tc Cert.KernelIdeal.main_v176)
      = Cert.ReferenceIdeal.Read.val_main_v225 (F := Ideal) a0 a1 a2 a3 a4 a5 a8 a9 := by
  simp only [Cert.KernelIdeal.Gen.hostOps3]
  after_results_simp
  rw [h1, h3, h124, h128, h9]
  funext i
  obtain ⟨n, j, rfl⟩ : ∃ (n : Fin 50000) (j : Fin 16), i = ix2 n j := ⟨i 0, i 1, eq_ix2 i⟩
  refine (kernel_pass 16 Cert.KernelIdeal.Gen.slices_S50000x32_S50000x16_0_16 _ _ _ _ _ _ n j ⟨16 + j.val, by omega⟩
    rfl).trans ?_
  refine Eq.trans ?_ (ref_ls_read a0 a1 a2 a3 a4 a5 a8 a9 n j).symm
  have hy : ∀ m : Fin 50000, Cert.Spec.matprod (Cert.ReferenceIdeal.Read.val_main_v144 (F := Ideal) a0 a1 a2 a3 a4 a5)
        (concatenate Cert.KernelIdeal.S43x32 1 [⟨Cert.KernelIdeal.S43x16, a6⟩, ⟨Cert.KernelIdeal.S43x16, a8⟩] Cert.KernelIdeal.Gen.concatenates_S43x16_S43x16_S43x32_d1) (ix2 m (⟨16 + j.val, by omega⟩ : Fin 32))
      = Cert.ReferenceIdeal.Read.val_main_v189 (F := Ideal) a0 a1 a2 a3 a4 a5 a8 (ix2 m j) :=
    fun m => wide_right a0 a1 a2 a3 a4 a5 a6 a8 m j _ rfl
  exact congrArg₂ (· + ·) (congrArg₂ (· + ·) (congrArg₂ (· + ·) rfl
    (Finset.sum_congr rfl fun e _ => congrArg₂ (· * ·) rfl (hy _))) (congrArg₂ (· * ·) rfl (hy n))) rfl

end Cert.Tail

end
-- ==== Proof.Values.lean ====
/-
  The kernel program's two results as functions of its arguments.

  The program's buffer contents are followed from the launch to the return, boundary by boundary: a stretch of
  host operations rewrites the buffers it names and keeps the rest, and a dense stage leaves its output table at the
  stage's function of the tables it read and every other buffer as it found it. At each boundary the buffers that
  later operations read are identified with the reference's stages of the same arguments: the shared host
  operations are the reference's own, a layer stage is the reference's four products, sum, bias and clamp
  (both are the specification's layer), and the last stage is the reference's two projections side by side.
-/
import proofs.«133635_j68539088110351_2_alg».proof.Proof.Gen.KernelIdeal.Frame
import proofs.«133635_j68539088110351_2_alg».proof.Proof.ReadP
import proofs.«133635_j68539088110351_2_alg».proof.Proof.Host0
import proofs.«133635_j68539088110351_2_alg».proof.Proof.Host1
import proofs.«133635_j68539088110351_2_alg».proof.Proof.Host2
import proofs.«133635_j68539088110351_2_alg».proof.Proof.Region0
import proofs.«133635_j68539088110351_2_alg».proof.Proof.Region1
import proofs.«133635_j68539088110351_2_alg».proof.Proof.Region2
import proofs.«133635_j68539088110351_2_alg».proof.Proof.RefLayers
import proofs.«133635_j68539088110351_2_alg».proof.Proof.Tail
import Idealize.ShloMosaic.Lib.ValueLayout

noncomputable section

namespace Cert.KernelIdeal.Values

open Cert.KernelIdeal Cert.KernelIdeal.Gen Idealize.ShloMosaic Idealize.ShloMosaic.TcCoe Idealize.SL.Sem
open Idealize.ShloMosaic.ValueIdx
open Cert.ReferenceIdeal.Read

variable (m : (ℓ : Loc nD τ sig) → Buf (Elt Ideal) ℓ) (ρ : Dev nD → PrngReg) (c : Dev nD)

/-! ## The arguments as launched -/

abbrev a0 : (⟨Cert.ReferenceIdeal.S50000x96, .f32⟩ : BufTy).Contents (Elt Ideal) := m ((c.tc : Thread nD τ).loc main_arg0)
abbrev a1 : (⟨Cert.ReferenceIdeal.S2x800000, .i32⟩ : BufTy).Contents (Elt Ideal) := m ((c.tc : Thread nD τ).loc main_arg1)
abbrev a2 : (⟨Cert.ReferenceIdeal.S4x96x70, .f32⟩ : BufTy).Contents (Elt Ideal) := m ((c.tc : Thread nD τ).loc main_arg2)
abbrev a3 : (⟨Cert.ReferenceIdeal.S70, .f32⟩ : BufTy).Contents (Elt Ideal) := m ((c.tc : Thread nD τ).loc main_arg3)
abbrev a4 : (⟨Cert.ReferenceIdeal.S4x70x43, .f32⟩ : BufTy).Contents (Elt Ideal) := m ((c.tc : Thread nD τ).loc main_arg4)
abbrev a5 : (⟨Cert.ReferenceIdeal.S43, .f32⟩ : BufTy).Contents (Elt Ideal) := m ((c.tc : Thread nD τ).loc main_arg5)
abbrev a6 : (⟨Cert.ReferenceIdeal.S43x16, .f32⟩ : BufTy).Contents (Elt Ideal) := m ((c.tc : Thread nD τ).loc main_arg6)
abbrev a7 : (⟨Cert.ReferenceIdeal.S16, .f32⟩ : BufTy).Contents (Elt Ideal) := m ((c.tc : Thread nD τ).loc main_arg7)
abbrev a8 : (⟨Cert.ReferenceIdeal.S43x16, .f32⟩ : BufTy).Contents (Elt Ideal) := m ((c.tc : Thread nD τ).loc main_arg8)
abbrev a9 : (⟨Cert.ReferenceIdeal.S16, .f32⟩ : BufTy).Contents (Elt Ideal) := m ((c.tc : Thread nD τ).loc main_arg9)

/-! ## Before the first stage -/

theorem W3_v1 : W3 m ρ c (Proc.devRef .tc main_v1) = val_main_v1 (F := Ideal) (a1 m c) := Host.s0_v1 (W0 m ρ c) (a1 m c) rfl
theorem W3_v3 : W3 m ρ c (Proc.devRef .tc main_v3) = val_main_v3 (F := Ideal) (a1 m c) := Host.s0_v3 (W0 m ρ c) (a1 m c) rfl
theorem W3_v7 : W3 m ρ c (Proc.devRef .tc main_v7) = val_main_v7 (F := Ideal) (a1 m c) := Host.s0_v7 (W0 m ρ c) (a1 m c) rfl
theorem W3_v29 : W3 m ρ c (Proc.devRef .tc main_v29) = val_main_v32 (F := Ideal) (a1 m c) := Host.s0_v29 (W0 m ρ c) (a1 m c) rfl
theorem W3_v30 : W3 m ρ c (Proc.devRef .tc main_v30) = a0 m c := Host.s0_v30 (W0 m ρ c) (a0 m c) (a1 m c) rfl rfl
theorem W3_v44 : W3 m ρ c (Proc.devRef .tc main_v44) = val_main_v44 (F := Ideal) (a0 m c) (a1 m c) := Host.s0_v44 (W0 m ρ c) (a0 m c) (a1 m c) rfl rfl
theorem W3_v58 : W3 m ρ c (Proc.devRef .tc main_v58) = val_main_v61 (F := Ideal) (a0 m c) (a1 m c) := Host.s0_v58 (W0 m ρ c) (a0 m c) (a1 m c) rfl rfl
theorem W3_v72 : W3 m ρ c (Proc.devRef .tc main_v72) = val_main_v78 (F := Ideal) (a0 m c) (a1 m c) := Host.s0_v72 (W0 m ρ c) (a0 m c) (a1 m c) rfl rfl
theorem W3_v73 : W3 m ρ c (Proc.devRef .tc main_v73) = a2 m c := Host.s0_v73 (W0 m ρ c)
theorem W3_v74 : W3 m ρ c (Proc.devRef .tc main_v74) = shapeCast S1x70 (a3 m c) shapeCasts_S70_S1x70 := Host.s0_v74 (W0 m ρ c)
theorem W3_arg4 : W3 m ρ c (Proc.devRef .tc main_arg4) = a4 m c := Host.s0_keep_arg4 (W0 m ρ c)
theorem W3_arg5 : W3 m ρ c (Proc.devRef .tc main_arg5) = a5 m c := Host.s0_keep_arg5 (W0 m ρ c)
theorem W3_arg6 : W3 m ρ c (Proc.devRef .tc main_arg6) = a6 m c := Host.s0_keep_arg6 (W0 m ρ c)
theorem W3_arg7 : W3 m ρ c (Proc.devRef .tc main_arg7) = a7 m c := Host.s0_keep_arg7 (W0 m ρ c)
theorem W3_arg8 : W3 m ρ c (Proc.devRef .tc main_arg8) = a8 m c := Host.s0_keep_arg8 (W0 m ρ c)
theorem W3_arg9 : W3 m ρ c (Proc.devRef .tc main_arg9) = a9 m c := Host.s0_keep_arg9 (W0 m ρ c)

/-! ## The first stage -/

/-- The first stage's output is the reference's first layer. -/
theorem W4_v75 : W4 m ρ c (Proc.devRef .tc main_v75) = val_main_v86 (F := Ideal) (a0 m c) (a1 m c) (a2 m c) (a3 m c) := by
  refine (W4_arr m ρ c 6).trans ((Region0.final (V3 m ρ) c).trans ?_)
  rw [Cert.ReferenceIdeal.Layers.layer1]
  show Cert.Spec.layer (W3 m ρ c (Proc.devRef .tc main_v30)) (W3 m ρ c (Proc.devRef .tc main_v44)) (W3 m ρ c (Proc.devRef .tc main_v58))
    (W3 m ρ c (Proc.devRef .tc main_v72)) (W3 m ρ c (Proc.devRef .tc main_v73)) (fun j => W3 m ρ c (Proc.devRef .tc main_v74) (ix2 (0 : Fin 1) j)) = _
  rw [W3_v30, W3_v44, W3_v58, W3_v72, W3_v73, W3_v74]
  refine congrArg (Cert.Spec.layer _ _ _ _ _) (funext fun j => ?_)
  exact shapeCast_a_1a_apply (a3 m c) shapeCasts_S70_S1x70 0 j

theorem W4_v1 : W4 m ρ c (Proc.devRef .tc main_v1) = val_main_v1 (F := Ideal) (a1 m c) := (W4_of_ne m ρ c main_v1 (by decide)).trans (W3_v1 m ρ c)
theorem W4_v3 : W4 m ρ c (Proc.devRef .tc main_v3) = val_main_v3 (F := Ideal) (a1 m c) := (W4_of_ne m ρ c main_v3 (by decide)).trans (W3_v3 m ρ c)
theorem W4_v7 : W4 m ρ c (Proc.devRef .tc main_v7) = val_main_v7 (F := Ideal) (a1 m c) := (W4_of_ne m ρ c main_v7 (by decide)).trans (W3_v7 m ρ c)
theorem W4_v29 : W4 m ρ c (Proc.devRef .tc main_v29) = val_main_v32 (F := Ideal) (a1 m c) := (W4_of_ne m ρ c main_v29 (by decide)).trans (W3_v29 m ρ c)
theorem W4_arg4 : W4 m ρ c (Proc.devRef .tc main_arg4) = a4 m c := (W4_of_ne m ρ c main_arg4 (by decide)).trans (W3_arg4 m ρ c)
theorem W4_arg5 : W4 m ρ c (Proc.devRef .tc main_arg5) = a5 m c := (W4_of_ne m ρ c main_arg5 (by decide)).trans (W3_arg5 m ρ c)
theorem W4_arg6 : W4 m ρ c (Proc.devRef .tc main_arg6) = a6 m c := (W4_of_ne m ρ c main_arg6 (by decide)).trans (W3_arg6 m ρ c)
theorem W4_arg7 : W4 m ρ c (Proc.devRef .tc main_arg7) = a7 m c := (W4_of_ne m ρ c main_arg7 (by decide)).trans (W3_arg7 m ρ c)
theorem W4_arg8 : W4 m ρ c (Proc.devRef .tc main_arg8) = a8 m c := (W4_of_ne m ρ c main_arg8 (by decide)).trans (W3_arg8 m ρ c)
theorem W4_arg9 : W4 m ρ c (Proc.devRef .tc main_arg9) = a9 m c := (W4_of_ne m ρ c main_arg9 (by decide)).trans (W3_arg9 m ρ c)

/-! ## Between the first and the second stage -/

theorem W5_v76 : W5 m ρ c (Proc.devRef .tc main_v76) = val_main_v86 (F := Ideal) (a0 m c) (a1 m c) (a2 m c) (a3 m c) :=
  (Host.s1_v76 (W4 m ρ c)).trans (W4_v75 m ρ c)
theorem W5_v90 : W5 m ρ c (Proc.devRef .tc main_v90) = val_main_v102 (F := Ideal) (a0 m c) (a1 m c) (a2 m c) (a3 m c) :=
  Host.s1_v90 (W4 m ρ c) (a0 m c) (a1 m c) (a2 m c) (a3 m c) (W4_v1 m ρ c) (W4_v3 m ρ c) (W4_v29 m ρ c) (W4_v75 m ρ c)
theorem W5_v104 : W5 m ρ c (Proc.devRef .tc main_v104) = val_main_v119 (F := Ideal) (a0 m c) (a1 m c) (a2 m c) (a3 m c) :=
  Host.s1_v104 (W4 m ρ c) (a0 m c) (a1 m c) (a2 m c) (a3 m c) (W4_v1 m ρ c) (W4_v3 m ρ c) (W4_v29 m ρ c) (W4_v75 m ρ c)
theorem W5_v118 : W5 m ρ c (Proc.devRef .tc main_v118) = val_main_v136 (F := Ideal) (a0 m c) (a1 m c) (a2 m c) (a3 m c) :=
  Host.s1_v118 (W4 m ρ c) (a0 m c) (a1 m c) (a2 m c) (a3 m c) (W4_v1 m ρ c) (W4_v3 m ρ c) (W4_v29 m ρ c) (W4_v75 m ρ c)
theorem W5_v119 : W5 m ρ c (Proc.devRef .tc main_v119) = a4 m c := (Host.s1_v119 (W4 m ρ c)).trans (W4_arg4 m ρ c)
theorem W5_v120 : W5 m ρ c (Proc.devRef .tc main_v120) = shapeCast S1x43 (a5 m c) shapeCasts_S43_S1x43 :=
  (Host.s1_v120 (W4 m ρ c)).trans (congrArg (fun x => shapeCast S1x43 x shapeCasts_S43_S1x43) (W4_arg5 m ρ c))
theorem W5_v1 : W5 m ρ c (Proc.devRef .tc main_v1) = val_main_v1 (F := Ideal) (a1 m c) := (Host.s1_keep_v1 (W4 m ρ c)).trans (W4_v1 m ρ c)
theorem W5_v3 : W5 m ρ c (Proc.devRef .tc main_v3) = val_main_v3 (F := Ideal) (a1 m c) := (Host.s1_keep_v3 (W4 m ρ c)).trans (W4_v3 m ρ c)
theorem W5_v7 : W5 m ρ c (Proc.devRef .tc main_v7) = val_main_v7 (F := Ideal) (a1 m c) := (Host.s1_keep_v7 (W4 m ρ c)).trans (W4_v7 m ρ c)
theorem W5_arg6 : W5 m ρ c (Proc.devRef .tc main_arg6) = a6 m c := (Host.s1_keep_arg6 (W4 m ρ c)).trans (W4_arg6 m ρ c)
theorem W5_arg7 : W5 m ρ c (Proc.devRef .tc main_arg7) = a7 m c := (Host.s1_keep_arg7 (W4 m ρ c)).trans (W4_arg7 m ρ c)
theorem W5_arg8 : W5 m ρ c (Proc.devRef .tc main_arg8) = a8 m c := (Host.s1_keep_arg8 (W4 m ρ c)).trans (W4_arg8 m ρ c)
theorem W5_arg9 : W5 m ρ c (Proc.devRef .tc main_arg9) = a9 m c := (Host.s1_keep_arg9 (W4 m ρ c)).trans (W4_arg9 m ρ c)

/-! ## The second stage -/

/-- The second stage's output is the reference's second layer. -/
theorem W6_v121 : W6 m ρ c (Proc.devRef .tc main_v121) = val_main_v144 (F := Ideal) (a0 m c) (a1 m c) (a2 m c) (a3 m c) (a4 m c) (a5 m c) := by
  refine (W6_arr m ρ c 6).trans ((Region1.final (V5 m ρ) c).trans ?_)
  rw [Cert.ReferenceIdeal.Layers.layer2]
  show Cert.Spec.layer (W5 m ρ c (Proc.devRef .tc main_v76)) (W5 m ρ c (Proc.devRef .tc main_v90)) (W5 m ρ c (Proc.devRef .tc main_v104))
    (W5 m ρ c (Proc.devRef .tc main_v118)) (W5 m ρ c (Proc.devRef .tc main_v119)) (fun j => W5 m ρ c (Proc.devRef .tc main_v120) (ix2 (0 : Fin 1) j)) = _
  rw [W5_v76, W5_v90, W5_v104, W5_v118, W5_v119, W5_v120]
  refine congrArg (Cert.Spec.layer _ _ _ _ _) (funext fun j => ?_)
  exact shapeCast_a_1a_apply (a5 m c) shapeCasts_S43_S1x43 0 j

theorem W6_v1 : W6 m ρ c (Proc.devRef .tc main_v1) = val_main_v1 (F := Ideal) (a1 m c) := (W6_of_ne m ρ c main_v1 (by decide)).trans (W5_v1 m ρ c)
theorem W6_v3 : W6 m ρ c (Proc.devRef .tc main_v3) = val_main_v3 (F := Ideal) (a1 m c) := (W6_of_ne m ρ c main_v3 (by decide)).trans (W5_v3 m ρ c)
theorem W6_v7 : W6 m ρ c (Proc.devRef .tc main_v7) = val_main_v7 (F := Ideal) (a1 m c) := (W6_of_ne m ρ c main_v7 (by decide)).trans (W5_v7 m ρ c)
theorem W6_arg6 : W6 m ρ c (Proc.devRef .tc main_arg6) = a6 m c := (W6_of_ne m ρ c main_arg6 (by decide)).trans (W5_arg6 m ρ c)
theorem W6_arg7 : W6 m ρ c (Proc.devRef .tc main_arg7) = a7 m c := (W6_of_ne m ρ c main_arg7 (by decide)).trans (W5_arg7 m ρ c)
theorem W6_arg8 : W6 m ρ c (Proc.devRef .tc main_arg8) = a8 m c := (W6_of_ne m ρ c main_arg8 (by decide)).trans (W5_arg8 m ρ c)
theorem W6_arg9 : W6 m ρ c (Proc.devRef .tc main_arg9) = a9 m c := (W6_of_ne m ρ c main_arg9 (by decide)).trans (W5_arg9 m ρ c)

/-! ## Between the second and the third stage -/

theorem W7_v124 : W7 m ρ c (Proc.devRef .tc main_v124) = val_main_v151 (F := Ideal) (a1 m c) :=
  Host.s2_v124 (W6 m ρ c) (a1 m c) (W6_v7 m ρ c)
theorem W7_v126 : W7 m ρ c (Proc.devRef .tc main_v126)
    = concatenate S43x32 1 [⟨S43x16, a6 m c⟩, ⟨S43x16, a8 m c⟩] concatenates_S43x16_S43x16_S43x32_d1 := by
  refine (Host.s2_v126 (W6 m ρ c)).trans ?_
  rw [W6_arg6, W6_arg8]
theorem W7_v127 : W7 m ρ c (Proc.devRef .tc main_v127) = val_main_v144 (F := Ideal) (a0 m c) (a1 m c) (a2 m c) (a3 m c) (a4 m c) (a5 m c) :=
  (Host.s2_v127 (W6 m ρ c)).trans (W6_v121 m ρ c)
theorem W7_v1 : W7 m ρ c (Proc.devRef .tc main_v1) = val_main_v1 (F := Ideal) (a1 m c) := (Host.s2_keep_v1 (W6 m ρ c)).trans (W6_v1 m ρ c)
theorem W7_v3 : W7 m ρ c (Proc.devRef .tc main_v3) = val_main_v3 (F := Ideal) (a1 m c) := (Host.s2_keep_v3 (W6 m ρ c)).trans (W6_v3 m ρ c)
theorem W7_arg7 : W7 m ρ c (Proc.devRef .tc main_arg7) = a7 m c := (Host.s2_keep_arg7 (W6 m ρ c)).trans (W6_arg7 m ρ c)
theorem W7_arg9 : W7 m ρ c (Proc.devRef .tc main_arg9) = a9 m c := (Host.s2_keep_arg9 (W6 m ρ c)).trans (W6_arg9 m ρ c)

/-! ## The third stage -/

/-- The third stage's output: the second layer times the two projection matrices side by side. -/
theorem W8_v128 : W8 m ρ c (Proc.devRef .tc main_v128)
    = Cert.Spec.matprod (val_main_v144 (F := Ideal) (a0 m c) (a1 m c) (a2 m c) (a3 m c) (a4 m c) (a5 m c))
        (concatenate S43x32 1 [⟨S43x16, a6 m c⟩, ⟨S43x16, a8 m c⟩] concatenates_S43x16_S43x16_S43x32_d1) := by
  refine (W8_arr m ρ c 2).trans ((Region2.final (V7 m ρ) c).trans ?_)
  show Cert.Spec.matprod (W7 m ρ c (Proc.devRef .tc main_v127)) (W7 m ρ c (Proc.devRef .tc main_v126)) = _
  rw [W7_v127, W7_v126]

theorem W8_v1 : W8 m ρ c (Proc.devRef .tc main_v1) = val_main_v1 (F := Ideal) (a1 m c) := (W8_of_ne m ρ c main_v1 (by decide)).trans (W7_v1 m ρ c)
theorem W8_v3 : W8 m ρ c (Proc.devRef .tc main_v3) = val_main_v3 (F := Ideal) (a1 m c) := (W8_of_ne m ρ c main_v3 (by decide)).trans (W7_v3 m ρ c)
theorem W8_v124 : W8 m ρ c (Proc.devRef .tc main_v124) = val_main_v151 (F := Ideal) (a1 m c) := (W8_of_ne m ρ c main_v124 (by decide)).trans (W7_v124 m ρ c)
theorem W8_arg7 : W8 m ρ c (Proc.devRef .tc main_arg7) = a7 m c := (W8_of_ne m ρ c main_arg7 (by decide)).trans (W7_arg7 m ρ c)
theorem W8_arg9 : W8 m ρ c (Proc.devRef .tc main_arg9) = a9 m c := (W8_of_ne m ρ c main_arg9 (by decide)).trans (W7_arg9 m ρ c)

/-! ## After the third stage: the two results -/

/-- The first result is the reference's first result. -/
theorem W9_v170 : W9 m ρ c (Proc.devRef .tc main_v170) = val_main_v188 (F := Ideal) (a0 m c) (a1 m c) (a2 m c) (a3 m c) (a4 m c) (a5 m c) (a6 m c) (a7 m c) :=
  Cert.Tail.tail_mu (W8 m ρ c) (a0 m c) (a1 m c) (a2 m c) (a3 m c) (a4 m c) (a5 m c) (a6 m c) (a8 m c) (a7 m c)
    (W8_v1 m ρ c) (W8_v3 m ρ c) (W8_v124 m ρ c) (W8_v128 m ρ c) (W8_arg7 m ρ c)

/-- The second result is the reference's second result. -/
theorem W9_v176 : W9 m ρ c (Proc.devRef .tc main_v176) = val_main_v225 (F := Ideal) (a0 m c) (a1 m c) (a2 m c) (a3 m c) (a4 m c) (a5 m c) (a8 m c) (a9 m c) :=
  Cert.Tail.tail_ls (W8 m ρ c) (a0 m c) (a1 m c) (a2 m c) (a3 m c) (a4 m c) (a5 m c) (a6 m c) (a8 m c) (a9 m c)
    (W8_v1 m ρ c) (W8_v3 m ρ c) (W8_v124 m ρ c) (W8_v128 m ρ c) (W8_arg9 m ρ c)

end Cert.KernelIdeal.Values

end
-- ==== Proof.lean ====
/-
  The certificate of a three-stage message-passing network against its plain reference, on the extended reals.

  Both programs read a node-feature table, an edge list and the weights of two layers and two projections. Each
  layer multiplies the feature table and its one-, two- and three-fold neighbourhood averages (a row gather at the
  edges' source nodes, a product with an edge weight, a sum into the edges' target nodes) by four weight matrices, adds
  the products, adds a bias and clamps at zero; the two results add, to a weighted neighbourhood sum of a projection
  of the second layer, the node's own projection scaled by its squared scale, and a bias. The kernel program computes
  each layer and the two projections side by side in three dense stages and rounds their operands to a narrower float
  format, which is the identity on the extended reals; everything else it does with the reference's own host
  operations. The frames of the two kernel programs are the generated ones; the reference's frame is its run with the
  results dropped; no operation was rewritten by the idealization, so the preservation claim is empty; the two
  results are followed through the kernel program boundary by boundary (Proof/Values.lean) and are the reference's
  stages of the same arguments.
-/
import proofs.«133635_j68539088110351_2_alg».proof.Defs
import proofs.«133635_j68539088110351_2_alg».proof.Proof.Gen.Kernel
import proofs.«133635_j68539088110351_2_alg».proof.Proof.Gen.Kernel.Skeleton
import proofs.«133635_j68539088110351_2_alg».proof.Proof.Gen.Kernel.Launch
import proofs.«133635_j68539088110351_2_alg».proof.Proof.Gen.Kernel.Points
import proofs.«133635_j68539088110351_2_alg».proof.Proof.Gen.Kernel.Frame
import proofs.«133635_j68539088110351_2_alg».proof.Proof.Gen.KernelIdeal
import proofs.«133635_j68539088110351_2_alg».proof.Proof.Gen.KernelIdeal.Skeleton
import proofs.«133635_j68539088110351_2_alg».proof.Proof.Gen.KernelIdeal.Launch
import proofs.«133635_j68539088110351_2_alg».proof.Proof.Gen.KernelIdeal.Points
import proofs.«133635_j68539088110351_2_alg».proof.Proof.Gen.KernelIdeal.Frame
import proofs.«133635_j68539088110351_2_alg».proof.Proof.Gen.ReferenceIdeal
import proofs.«133635_j68539088110351_2_alg».proof.Proof.Gen.Pre_finite_inputs
import proofs.«133635_j68539088110351_2_alg».proof.Proof.KRun
import proofs.«133635_j68539088110351_2_alg».proof.Proof.RefRun
import proofs.«133635_j68539088110351_2_alg».proof.Proof.Values
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefRun.run (F := Ideal) m ρ)

/-- From memories that agree on the arguments both programs end with the same two tables: the reference's two
    last stages of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v188 (F := Ideal) (Cert.KernelIdeal.Values.a0 m c) (Cert.KernelIdeal.Values.a1 m c)
      (Cert.KernelIdeal.Values.a2 m c) (Cert.KernelIdeal.Values.a3 m c) (Cert.KernelIdeal.Values.a4 m c) (Cert.KernelIdeal.Values.a5 m c)
      (Cert.KernelIdeal.Values.a6 m c) (Cert.KernelIdeal.Values.a7 m c),
    fun c => Cert.ReferenceIdeal.Read.val_main_v225 (F := Ideal) (Cert.KernelIdeal.Values.a0 m c) (Cert.KernelIdeal.Values.a1 m c)
      (Cert.KernelIdeal.Values.a2 m c) (Cert.KernelIdeal.Values.a3 m c) (Cert.KernelIdeal.Values.a4 m c) (Cert.KernelIdeal.Values.a5 m c)
      (Cert.KernelIdeal.Values.a8 m c) (Cert.KernelIdeal.Values.a9 m c), ?_, ?_⟩
  · exact (θ_run Cert.KernelIdeal.defs _ _).mono
      (fun _ h c => ⟨(h c).1.trans (Cert.KernelIdeal.Values.W9_v170 m ρ c), (h c).2.1.trans (Cert.KernelIdeal.Values.W9_v176 m ρ c), (h c).2.2⟩)
      (Cert.KernelIdeal.KRun.run_values (F := Ideal) m ρ)
  · refine (θ_run Cert.ReferenceIdeal.defs _ _).mono (fun _ h c => ⟨(h c).1.trans ?_, (h c).2.1.trans ?_, (h c).2.2⟩)
      (Cert.ReferenceIdeal.RefRun.run (F := Ideal) m' ρ')
    · obtain ⟨e0, e1, e2, e3, e4, e5, e6, e7, e8, e9⟩ := hagree c
      rw [e0, e1, e2, e3, e4, e5, e6, e7]
    · obtain ⟨e0, e1, e2, e3, e4, e5, e6, e7, e8, e9⟩ := hagree c
      rw [e0, e1, e2, e3, e4, e5, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
